-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x128 .f32) (main_arg1 : FVec F S8192x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_cst_2 : FVec F S_ .f32 := constant S_ .f32 0x00000000#32
  let main_v9 : FVec F S8192x8192 .f32 := broadcastInDim S8192x8192 ![] bcast_S_S8192x8192 main_cst_2
  let main_v10 : IVec S8192x8192 1 := cmpf .oeq main_arg1 main_v9
  let main_cst_3 : FVec F S_ .f32 := constant S_ .f32 0x3F800000#32
  let main_v11 : FVec F S8192x8192 .f32 := broadcastInDim S8192x8192 ![] bcast_S_S8192x8192 main_cst_3
  let main_v12 : IVec S8192x8192 1 := cmpf .oeq main_arg1 main_v11
  let main_v13 : IVec S8192x8192 1 := ori main_v10 main_v12
  let main_c_4 : IVec S_ 1 := constantI S_ 1 1#1
  let main_v14 : IVec S_ 1 := (fun x v => Host.reduce IntOp.andi x v reducesTo_S8192x8192_S_d0_1 h_S_) main_v13 main_c_4
  let main_v15 : IVec S_ 1 := andi main_v8 main_v14
  main_v15
-- ==== Kernel.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1024x128 : Shape := ⟨2, ![1024, 128]⟩
abbrev S1024x1024 : Shape := ⟨2, ![1024, 1024]⟩
abbrev S1024x1 : Shape := ⟨2, ![1024, 1]⟩
abbrev S128x1024 : Shape := ⟨2, ![128, 1024]⟩
abbrev S1024 : Shape := ⟨1, ![1024]⟩

abbrev nBuf : Space → Nat
  | .hbm => 20
  | .vmem => 23
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x128, .f32⟩
  | .hbm, ⟨8, _⟩ => ⟨S8192x128, .f32⟩
  | .hbm, ⟨9, _⟩ => ⟨S8192x1, .f32⟩
  | .hbm, ⟨10, _⟩ => ⟨S8192x1, .f32⟩
  | .hbm, ⟨11, _⟩ => ⟨S8192x1, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x1024, .f32⟩
  | .local _ .vmem, ⟨17, _⟩ => ⟨S1024x1024, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_18 : BitVec 32 := 0#32
  let v32 : BitVec 1 := Scalar.cmpi .ne v31 c0_i32_18
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_14 : BitVec 32 := 0#32
  let v30 : BitVec 1 := Scalar.cmpi .ne v29 c0_i32_14
  v30

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  shapeCasts_S8192x1_S8192 : S8192x1.ShapeCasts S8192
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v2) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S128x8192 : Shape := ⟨2, ![128, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x128, .f32⟩
  | .hbm, ⟨8, _⟩ => ⟨S8192x128, .f32⟩
  | .hbm, ⟨9, _⟩ => ⟨S128x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S8192x1_S8192x8192_0_1 : S8192x1.BroadcastsInDim S8192x8192 (![0, 1] : Fin 2 → Fin S8192x8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KB.R0Runs.lean ====
/-
  Region 0: what the three runs of its body share. The body branches twice on the column-tile coordinate j: at
  j = 0 it zeroes its accumulators, at j = 7 it copies them to the outputs. On the 8 × 8 grid, point t has
  j = t mod 8, so the conditions are t ≡ 0 and t ≡ 7 (mod 8); the outputs are idle, and not written back, except at j = 7.
-/
import proofs.«143064_j21449066676923_1_alg».proof.Proof.Gen.Kernel.Launch
import proofs.«143064_j21449066676923_1_alg».proof.Proof.Gen.Kernel.Skeleton
import proofs.«143064_j21449066676923_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, in closed form over the grid -/

/-- The first branch (zero the accumulator): j = 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (copy the accumulator out): j = 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev scM0_0 : Memref sig .tc .vmem S1024x1 .f32 := Memref.whole cc0_scratch0
abbrev VS0_0 : View sig .tc .vmem S1024x1 .f32 := scM0_0.view
abbrev scM0_1 : Memref sig .tc .vmem S1024x1 .f32 := Memref.whole cc0_scratch1
abbrev VS0_1 : View sig .tc .vmem S1024x1 .f32 := scM0_1.view
abbrev VO0_3 : View sig .tc .vmem S1024x1 .f32 := (Memref.whole cc0_stg3_0 : Memref sig .tc .vmem S1024x1 .f32).view
abbrev VO0_4 : View sig .tc .vmem S1024x1 .f32 := (Memref.whole cc0_stg4_0 : Memref sig .tc .vmem S1024x1 .f32).view

/-- The core's scoped buffers that region 0 neither stages through nor accumulates in, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's invariant opened: the accumulators as memrefs owned at some contents, beside the rest. -/
theorem PhiA0_open (c : Dev nD) :
    (Pipeline.ΦA spec0 c : sProp 𝕄) ⊢ iprop(iprop((∃ d, owns (c : Thread nD τ) scM0_0 fullShare d) ∗ (∃ d, owns (c : Thread nD τ) scM0_1 fullShare d) ∗ Rest0 c) ∗ (∃ r, prngReg c r)) := by
  unfold Pipeline.ΦA Rest0; rw [scopedRest0_eq]; simp only [scM0_0, scM0_1, owns_whole]
  iintro ⟨⟨HS0, HS1, Hr0, Hr1, Hr2, Hr3, Hr4, Hr5, Hr6, Hr7, Hr8, Hr9, Hr10⟩, Hg⟩
  isplitr [Hg]
  swap; · iexact Hg
  isplitl [HS0]; · iexact HS0
  isplitl [HS1]; · iexact HS1
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  iexact Hr10

/-- And closed again. -/
theorem PhiA0_close (c : Dev nD) :
    iprop(iprop((∃ d, owns (c : Thread nD τ) scM0_0 fullShare d) ∗ (∃ d, owns (c : Thread nD τ) scM0_1 fullShare d) ∗ Rest0 c) ∗ (∃ r, prngReg c r)) ⊢ (Pipeline.ΦA spec0 c : sProp 𝕄) := by
  unfold Pipeline.ΦA Rest0; rw [scopedRest0_eq]; simp only [scM0_0, scM0_1, owns_whole]
  iintro ⟨⟨HS0, HS1, Hr0, Hr1, Hr2, Hr3, Hr4, Hr5, Hr6, Hr7, Hr8, Hr9, Hr10⟩, Hg⟩
  isplitr [Hg]
  swap; · iexact Hg
  isplitl [HS0]; · iexact HS0
  isplitl [HS1]; · iexact HS1
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  iexact Hr10

end Cert.Kernel.Hand

end
-- ==== Proof.KB.R0RunB.lean ====
/-
  Region 0's body at a column tile 0 < j < 7: neither branch is taken; the accumulators are read at what the tile before left and stored once; the outputs are not touched.
-/
import proofs.«143064_j21449066676923_1_alg».proof.Proof.KB.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in this case, on whole memrefs: the inputs at their contents; an output it does not touch at
    contents handed back untouched, one it stores into at anything; an accumulator at what the tile before left, or
    at anything where it is zeroed first. It ends with every store written; the stored pieces are found by the run. -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x128 .f32) (x1 : Vec F S1024x128 .f32) (x2 : Vec F S1024x1024 .f32) (xs0 : Vec F S1024x1 .f32) (xs1 : Vec F S1024x1 .f32) :
    Σ' (LS0 : List (View.Piece (Elt F) S1024x1 .f32)), { LS1 : List (View.Piece (Elt F) S1024x1 .f32) //
      ∀ (xi3 : Vec F S1024x1 .f32) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__nl_kernel i arg2 harg2 arg3 harg3 arg4 harg4 arg5 harg5 arg6 harg6 arg7 harg7 arg8 harg8) K } := by
  refine ⟨?_, ?_, fun xi3 xi4 E K => ?run⟩
  case run =>
    simp only [cc0__nl_kernel_eq_skeleton]; unfold cc0__nl_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.KB.R0RunA.lean ====
/-
  Region 0's body at the first column tile, j = 0: the accumulators are zeroed, then added to; the outputs are not touched.
-/
import proofs.«143064_j21449066676923_1_alg».proof.Proof.KB.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in this case, on whole memrefs: the inputs at their contents; an output it does not touch at
    contents handed back untouched, one it stores into at anything; an accumulator at what the tile before left, or
    at anything where it is zeroed first. It ends with every store written; the stored pieces are found by the run. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x128 .f32) (x1 : Vec F S1024x128 .f32) (x2 : Vec F S1024x1024 .f32) :
    Σ' (LS0 : List (View.Piece (Elt F) S1024x1 .f32)), { LS1 : List (View.Piece (Elt F) S1024x1 .f32) //
      ∀ (xi3 : Vec F S1024x1 .f32) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__nl_kernel i arg2 harg2 arg3 harg3 arg4 harg4 arg5 harg5 arg6 harg6 arg7 harg7 arg8 harg8) K } := by
  refine ⟨?_, ?_, fun xi3 xi4 E K => ?run⟩
  case run =>
    simp only [cc0__nl_kernel_eq_skeleton]; unfold cc0__nl_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.KB.R0RunC.lean ====
/-
  Region 0's body at the last column tile, j = 7: the accumulators are added to and then copied to the outputs.
-/
import proofs.«143064_j21449066676923_1_alg».proof.Proof.KB.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in this case, on whole memrefs: the inputs at their contents; an output it does not touch at
    contents handed back untouched, one it stores into at anything; an accumulator at what the tile before left, or
    at anything where it is zeroed first. It ends with every store written; the stored pieces are found by the run. -/
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) :
    Σ' (L3 : List (View.Piece (Elt F) S1024x1 .f32)) (L4 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__nl_kernel i arg2 harg2 arg3 harg3 arg4 harg4 arg5 harg5 arg6 harg6 arg7 harg7 arg8 harg8) K } := by
  refine ⟨?_, ?_, ?_, ?_, fun E K => ?run⟩
  case run =>
    simp only [cc0__nl_kernel_eq_skeleton]; unfold cc0__nl_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.KB.R0Data.lean ====
/-
  Region 0's proof data: what its accumulators and output buffers hold after each grid point, the
  region's invariant between points, and the body obligation at every point.
-/
import proofs.«143064_j21449066676923_1_alg».proof.Proof.KB.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not (an unfetched
    window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- In this case the stores into accumulator 0 tile it, so they cover it. -/
theorem scover0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x128 .f32) (x1 : Vec F S1024x128 .f32) (x2 : Vec F S1024x1024 .f32) (y : S1024x1.Idx) :
    ∃ pc ∈ (kernelRun0_A c i arg2 harg2 arg3 harg3 arg4 harg4 arg5 harg5 arg6 harg6 arg7 harg7 arg8 harg8 hc0 hc1 x0 x1 x2).1, y ∈ pc.1.set :=
  View.cover_of_tiledL (kernelRun0_A c i arg2 harg2 arg3 harg3 arg4 harg4 arg5 harg5 arg6 harg6 arg7 harg7 arg8 harg8 hc0 hc1 x0 x1 x2).1 S1024x1.size (by sl_kernel_rfl) y

/-- What the case leaves in accumulator 0: its stored pieces read back. -/
def sout0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x128 .f32) (x1 : Vec F S1024x128 .f32) (x2 : Vec F S1024x1024 .f32) : Vec F S1024x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).1)

/-- In this case the stores into accumulator 1 tile it, so they cover it. -/
theorem scover0_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x128 .f32) (x1 : Vec F S1024x128 .f32) (x2 : Vec F S1024x1024 .f32) (y : S1024x1.Idx) :
    ∃ pc ∈ (kernelRun0_A c i arg2 harg2 arg3 harg3 arg4 harg4 arg5 harg5 arg6 harg6 arg7 harg7 arg8 harg8 hc0 hc1 x0 x1 x2).2.1, y ∈ pc.1.set :=
  View.cover_of_tiledL (kernelRun0_A c i arg2 harg2 arg3 harg3 arg4 harg4 arg5 harg5 arg6 harg6 arg7 harg7 arg8 harg8 hc0 hc1 x0 x1 x2).2.1 S1024x1.size (by sl_kernel_rfl) y

/-- What the case leaves in accumulator 1: its stored pieces read back. -/
def sout0_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x128 .f32) (x1 : Vec F S1024x128 .f32) (x2 : Vec F S1024x1024 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.1)

/-- In this case the stores into accumulator 0 tile it, so they cover it. -/
theorem scover0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x128 .f32) (x1 : Vec F S1024x128 .f32) (x2 : Vec F S1024x1024 .f32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 hc0 hc1 x0 x1 x2 xs0 xs1).1, y ∈ pc.1.set :=
  View.cover_of_tiledL (kernelRun0_B c i arg2 harg2 arg3 harg3 arg4 harg4 arg5 harg5 arg6 harg6 arg7 harg7 arg8 harg8 hc0 hc1 x0 x1 x2 xs0 xs1).1 S1024x1.size (by sl_kernel_rfl) y

/-- What the case leaves in accumulator 0: its stored pieces read back. -/
def sout0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x128 .f32) (x1 : Vec F S1024x128 .f32) (x2 : Vec F S1024x1024 .f32) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).1)

/-- In this case the stores into accumulator 1 tile it, so they cover it. -/
theorem scover0_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x128 .f32) (x1 : Vec F S1024x128 .f32) (x2 : Vec F S1024x1024 .f32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 hc0 hc1 x0 x1 x2 xs0 xs1).2.1, y ∈ pc.1.set :=
  View.cover_of_tiledL (kernelRun0_B c i arg2 harg2 arg3 harg3 arg4 harg4 arg5 harg5 arg6 harg6 arg7 harg7 arg8 harg8 hc0 hc1 x0 x1 x2 xs0 xs1).2.1 S1024x1.size (by sl_kernel_rfl) y

/-- What the case leaves in accumulator 1: its stored pieces read back. -/
def sout0_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x128 .f32) (x1 : Vec F S1024x128 .f32) (x2 : Vec F S1024x1024 .f32) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.1)

/-- At j = 7 the stores into output window 3's buffer tile it, so they cover it. -/
theorem cover0_C_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S1024x1.size (by sl_kernel_rfl) y

/-- What the case leaves in output window 3's buffer: its stored pieces read back. -/
def out0_C_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) : Vec F S1024x1 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)

/-- At j = 7 the stores into output window 4's buffer tile it, so they cover it. -/
theorem cover0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S1024x1.size (by sl_kernel_rfl) y

/-- What the case leaves in output window 4's buffer: its stored pieces read back. -/
def out0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

/-- In this case the stores into accumulator 0 tile it, so they cover it. -/
theorem scover0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S1024x1.size (by sl_kernel_rfl) y

/-- What the case leaves in accumulator 0: its stored pieces read back. -/
def sout0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)

/-- In this case the stores into accumulator 1 tile it, so they cover it. -/
theorem scover0_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S1024x1.size (by sl_kernel_rfl) y

/-- What the case leaves in accumulator 1: its stored pieces read back. -/
def sout0_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-- A placeholder for output window 3's buffer at the tiles where it is idle and not written back: never consulted. -/
def idle0_3 : Vec F S1024x1 .f32 := VO0_3.read (Elt F) VO0_3.junk
/-- A placeholder for output window 4's buffer at the tiles where it is idle and not written back: never consulted. -/
def idle0_4 : Vec F S1024x1 .f32 := VO0_4.read (Elt F) VO0_4.junk

/-- THE ACCUMULATION. What the output buffers and the accumulators hold after the body at position n (a tuple: the
    outputs in window order, then the accumulators): at j = 0 the zero-then-add case, at j = 7 the add-then-copy case
    over what position n − 1 left in the accumulators, otherwise the add case over the same. -/
def outsAt0 (c : Dev nD) : (n : ℕ) → n < cfg0.N → Vec F S1024x1 .f32 × Vec F S1024x1 .f32 × Vec F S1024x1 .f32 × Vec F S1024x1 .f32
  | 0, hn => (idle0_3, idle0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h' => by (try dsimp only at h'); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h' => by (try dsimp only at h'); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      (idle0_3, idle0_4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => (fun h' => by (try dsimp only at h'); omega) ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => (fun h' => by (try dsimp only at h'); omega) ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (idle0_3, idle0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (hc1 : ¬cond0_1 (grid0.coords t)) :
    outsAt0 V c t.val t.isLt = (idle0_3, idle0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) hc1 (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) hc1 (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (idle0_3, idle0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the class's (every scoped buffer the region does
    not stage through at anything, the generator register at some state); afterwards the same with each accumulator
    at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ Rest0 c) ∗ (∃ r, prngReg c r)) := by
  cases n with
  | zero => exact absurd rfl hz
  | succ n => rfl

/-! ## The proof data -/

/-- Region 0's proof data on core c: the arrays as the region finds them; after the body at point t each input's
    buffer at its block and each output's at the accumulation's component; the invariant above; nothing owed; the two
    windows onto the normalised features hold the two halves of that array's share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]
theorem owed_eq0 (c : Dev nD) (t) : (dat0 V c).owed t = 0 := rfl
theorem q0_0 (c : Dev nD) : (dat0 V c).q 0 = fullShare.left := by dsimp only [dat0]
theorem q0_1 (c : Dev nD) : (dat0 V c).q 1 = fullShare.right := by dsimp only [dat0]
theorem q0_2 (c : Dev nD) : (dat0 V c).q 2 = fullShare := by dsimp only [dat0]
theorem q0_3 (c : Dev nD) : (dat0 V c).q 3 = fullShare := by dsimp only [dat0]
theorem q0_4 (c : Dev nD) : (dat0 V c).q 4 = fullShare := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; t mod 8 says which case the point is in; the
    invariant hands the body the accumulators at what the point before left (at anything at the very first point) and
    takes them back at this point's contents; an idle output's buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · have hc1 : ¬cond0_1 (grid0.coords t) := fun h => by have := (hcond0_1 t).mp h; omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [Dat.leavesExact_idle (dat0 V c) 3 t (idleAt0_3 t hc1) (noFlush0_3 t hc1)]
    rw [Dat.leavesExact_idle (dat0 V c) 4 t (idleAt0_4 t hc1) (noFlush0_4 t hc1)]
    rw [outsAt0_A V c t h0 hc1]
    unfold sout0_A_0 sout0_A_1; (try dsimp only)
    by_cases hz : t.val = 0
    · rw [PhiS0_castSucc V c t, PhiS0_zero V c _ _ hz]
      iintro ⟨HΦ, Ho, ⟨%d0, H0⟩, ⟨%d1, H1⟩, ⟨%d2, H2⟩, ⟨%d3, H3⟩, ⟨%d4, H4⟩⟩
      ihave HΦ' := (PhiA0_open c) $$ HΦ
      icases HΦ' with ⟨⟨HS0, HS1, HR⟩, Hg⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) hc1 (iblk0 V c 0 t) (iblk0 V c 1 t) (iblk0 V c 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover0_A_0 c _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4
    · rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) hc1 (iblk0 V c 0 t) (iblk0 V c 1 t) (iblk0 V c 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover0_A_0 c _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    by_cases h1 : t.val % 8 = 7
    · have hc1 : cond0_1 (grid0.coords t) := (hcond0_1 t).mpr h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t hc1], after0_3]
      rw [show (dat0 V c).leavesExact 4 t = owns (c : Thread nD τ) (ms0_4 t) fullShare ((dat0 V c).after 4 t) from by
        unfold Dat.leavesExact; rw [liveAt0_4 t hc1], after0_4]
      rw [outsAt0_C V c t h0 h1]
      unfold out0_C_3 out0_C_4 sout0_C_0 sout0_C_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover0_C_0 c _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _ _ _ _)
    · have hc1 : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t hc1) (noFlush0_3 t hc1)]
      rw [Dat.leavesExact_idle (dat0 V c) 4 t (idleAt0_4 t hc1) (noFlush0_4 t hc1)]
      rw [outsAt0_B V c t h0 h1]
      unfold sout0_B_0 sout0_B_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) hc1 (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover0_B_0 c _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  refine .trans ?_ (PhiA0_close c)
  iintro ⟨⟨HS0, HS1, HR⟩, Hg⟩
  isplitr [Hg]
  swap; · iexact Hg
  isplitl [HS0]; · iexists _; iexact HS0
  isplitl [HS1]; · iexists _; iexact HS1
  iexact HR

theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.KB.R1Runs.lean ====
/-
  Region 1: what the three runs of its body share. The body branches twice on the column-tile coordinate j: at
  j = 0 it zeroes its accumulator, at j = 7 it copies it to the output. On the 8 × 8 grid, point t has
  j = t mod 8, so the conditions are t ≡ 0 and t ≡ 7 (mod 8); the output is idle, and not written back, except at j = 7.
-/
import proofs.«143064_j21449066676923_1_alg».proof.Proof.Gen.Kernel.Launch
import proofs.«143064_j21449066676923_1_alg».proof.Proof.Gen.Kernel.Skeleton
import proofs.«143064_j21449066676923_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, in closed form over the grid -/

/-- The first branch (zero the accumulator): j = 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch (copy the accumulator out): j = 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev scM1_0 : Memref sig .tc .vmem S1024x1 .f32 := Memref.whole cc1_scratch0
abbrev VS1_0 : View sig .tc .vmem S1024x1 .f32 := scM1_0.view
abbrev VO1_4 : View sig .tc .vmem S1024x1 .f32 := (Memref.whole cc1_stg4_0 : Memref sig .tc .vmem S1024x1 .f32).view

/-- The core's scoped buffers that region 1 neither stages through nor accumulates in, each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The region's invariant opened: the accumulator as memrefs owned at some contents, beside the rest. -/
theorem PhiA1_open (c : Dev nD) :
    (Pipeline.ΦA spec1 c : sProp 𝕄) ⊢ iprop(iprop((∃ d, owns (c : Thread nD τ) scM1_0 fullShare d) ∗ Rest1 c) ∗ (∃ r, prngReg c r)) := by
  unfold Pipeline.ΦA Rest1; rw [scopedRest1_eq]; simp only [scM1_0, owns_whole]
  iintro ⟨⟨Hr0, Hr1, Hr2, Hr3, Hr4, Hr5, Hr6, Hr7, Hr8, Hr9, Hr10, Hr11, HS0⟩, Hg⟩
  isplitr [Hg]
  swap; · iexact Hg
  isplitl [HS0]; · iexact HS0
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  iexact Hr11

/-- And closed again. -/
theorem PhiA1_close (c : Dev nD) :
    iprop(iprop((∃ d, owns (c : Thread nD τ) scM1_0 fullShare d) ∗ Rest1 c) ∗ (∃ r, prngReg c r)) ⊢ (Pipeline.ΦA spec1 c : sProp 𝕄) := by
  unfold Pipeline.ΦA Rest1; rw [scopedRest1_eq]; simp only [scM1_0, owns_whole]
  iintro ⟨⟨HS0, Hr0, Hr1, Hr2, Hr3, Hr4, Hr5, Hr6, Hr7, Hr8, Hr9, Hr10, Hr11⟩, Hg⟩
  isplitr [Hg]
  swap; · iexact Hg
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  iexact HS0

end Cert.Kernel.Hand

end
-- ==== Proof.KB.R1RunB.lean ====
/-
  Region 1's body at a column tile 0 < j < 7: neither branch is taken; the accumulator is read at what the tile before left and stored once; the output is not touched.
-/
import proofs.«143064_j21449066676923_1_alg».proof.Proof.KB.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in this case, on whole memrefs: the inputs at their contents; an output it does not touch at
    contents handed back untouched, one it stores into at anything; an accumulator at what the tile before left, or
    at anything where it is zeroed first. It ends with every store written; the stored pieces are found by the run. -/
noncomputable def kernelRun1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : ¬cond1_1 i)
    (x0 : Vec F S1024x128 .f32) (x1 : Vec F S1024x128 .f32) (x2 : Vec F S1024x1024 .f32) (x3 : Vec F S1024x1 .f32) (xs0 : Vec F S1024x1 .f32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__lm_kernel i arg2 harg2 arg3 harg3 arg4 harg4 arg5 harg5 arg6 harg6 arg7 harg7) K } := by
  refine ⟨?_, fun xi4 E K => ?run⟩
  case run =>
    simp only [cc1__lm_kernel_eq_skeleton]; unfold cc1__lm_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KB.R1RunA.lean ====
/-
  Region 1's body at the first column tile, j = 0: the accumulator is zeroed, then added to; the output is not touched.
-/
import proofs.«143064_j21449066676923_1_alg».proof.Proof.KB.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in this case, on whole memrefs: the inputs at their contents; an output it does not touch at
    contents handed back untouched, one it stores into at anything; an accumulator at what the tile before left, or
    at anything where it is zeroed first. It ends with every store written; the stored pieces are found by the run. -/
noncomputable def kernelRun1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond1_0 i) (hc1 : ¬cond1_1 i)
    (x0 : Vec F S1024x128 .f32) (x1 : Vec F S1024x128 .f32) (x2 : Vec F S1024x1024 .f32) (x3 : Vec F S1024x1 .f32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__lm_kernel i arg2 harg2 arg3 harg3 arg4 harg4 arg5 harg5 arg6 harg6 arg7 harg7) K } := by
  refine ⟨?_, fun xi4 E K => ?run⟩
  case run =>
    simp only [cc1__lm_kernel_eq_skeleton]; unfold cc1__lm_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KB.R1RunC.lean ====
/-
  Region 1's body at the last column tile, j = 7: the accumulator is added to and then copied to the output.
-/
import proofs.«143064_j21449066676923_1_alg».proof.Proof.KB.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in this case, on whole memrefs: the inputs at their contents; an output it does not touch at
    contents handed back untouched, one it stores into at anything; an accumulator at what the tile before left, or
    at anything where it is zeroed first. It ends with every store written; the stored pieces are found by the run. -/
noncomputable def kernelRun1_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 : Vec F S1024x128 .f32) (x1 : Vec F S1024x128 .f32) (x2 : Vec F S1024x1024 .f32) (x3 : Vec F S1024x1 .f32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__lm_kernel i arg2 harg2 arg3 harg3 arg4 harg4 arg5 harg5 arg6 harg6 arg7 harg7) K } := by
  refine ⟨?_, ?_, fun E K => ?run⟩
  case run =>
    simp only [cc1__lm_kernel_eq_skeleton]; unfold cc1__lm_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KB.R1Data.lean ====
/-
  Region 1's proof data: what its accumulator and output buffer hold after each grid point, the
  region's invariant between points, and the body obligation at every point.
-/
import proofs.«143064_j21449066676923_1_alg».proof.Proof.KB.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (an unfetched
    window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- In this case the stores into accumulator 0 tile it, so they cover it. -/
theorem scover1_A_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond1_0 i) (hc1 : ¬cond1_1 i)
    (x0 : Vec F S1024x128 .f32) (x1 : Vec F S1024x128 .f32) (x2 : Vec F S1024x1024 .f32) (x3 : Vec F S1024x1 .f32) (y : S1024x1.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S1024x1.size (by sl_kernel_rfl) y

/-- What the case leaves in accumulator 0: its stored pieces read back. -/
def sout1_A_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond1_0 i) (hc1 : ¬cond1_1 i)
    (x0 : Vec F S1024x128 .f32) (x1 : Vec F S1024x128 .f32) (x2 : Vec F S1024x1024 .f32) (x3 : Vec F S1024x1 .f32) : Vec F S1024x1 .f32 :=
  VS1_0.read (Elt F) (VS1_0.writes (Elt F) VS1_0.junk (kernelRun1_A c i arg2 harg2 arg3 harg3 arg4 harg4 arg5 harg5 arg6 harg6 arg7 harg7 hc0 hc1 x0 x1 x2 x3).1)

/-- In this case the stores into accumulator 0 tile it, so they cover it. -/
theorem scover1_B_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : ¬cond1_1 i)
    (x0 : Vec F S1024x128 .f32) (x1 : Vec F S1024x128 .f32) (x2 : Vec F S1024x1024 .f32) (x3 : Vec F S1024x1 .f32) (xs0 : Vec F S1024x1 .f32) (y : S1024x1.Idx) :
    ∃ pc ∈ (kernelRun1_B c i arg2 harg2 arg3 harg3 arg4 harg4 arg5 harg5 arg6 harg6 arg7 harg7 hc0 hc1 x0 x1 x2 x3 xs0).1, y ∈ pc.1.set :=
  View.cover_of_tiledL (kernelRun1_B c i arg2 harg2 arg3 harg3 arg4 harg4 arg5 harg5 arg6 harg6 arg7 harg7 hc0 hc1 x0 x1 x2 x3 xs0).1 S1024x1.size (by sl_kernel_rfl) y

/-- What the case leaves in accumulator 0: its stored pieces read back. -/
def sout1_B_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : ¬cond1_1 i)
    (x0 : Vec F S1024x128 .f32) (x1 : Vec F S1024x128 .f32) (x2 : Vec F S1024x1024 .f32) (x3 : Vec F S1024x1 .f32) (xs0 : Vec F S1024x1 .f32) : Vec F S1024x1 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).1)

/-- At j = 7 the stores into output window 4's buffer tile it, so they cover it. -/
theorem cover1_C_4 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 : Vec F S1024x128 .f32) (x1 : Vec F S1024x128 .f32) (x2 : Vec F S1024x1024 .f32) (x3 : Vec F S1024x1 .f32) (xs0 : Vec F S1024x1 .f32) (y : S1024x1.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x1.size (by sl_kernel_rfl) y

/-- What the case leaves in output window 4's buffer: its stored pieces read back. -/
def out1_C_4 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 : Vec F S1024x128 .f32) (x1 : Vec F S1024x128 .f32) (x2 : Vec F S1024x1024 .f32) (x3 : Vec F S1024x1 .f32) (xs0 : Vec F S1024x1 .f32) : Vec F S1024x1 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- In this case the stores into accumulator 0 tile it, so they cover it. -/
theorem scover1_C_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 : Vec F S1024x128 .f32) (x1 : Vec F S1024x128 .f32) (x2 : Vec F S1024x1024 .f32) (x3 : Vec F S1024x1 .f32) (xs0 : Vec F S1024x1 .f32) (y : S1024x1.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x1.size (by sl_kernel_rfl) y

/-- What the case leaves in accumulator 0: its stored pieces read back. -/
def sout1_C_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 : Vec F S1024x128 .f32) (x1 : Vec F S1024x128 .f32) (x2 : Vec F S1024x1024 .f32) (x3 : Vec F S1024x1 .f32) (xs0 : Vec F S1024x1 .f32) : Vec F S1024x1 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-- A placeholder for output window 4's buffer at the tiles where it is idle and not written back: never consulted. -/
def idle1_4 : Vec F S1024x1 .f32 := VO1_4.read (Elt F) VO1_4.junk

/-- THE ACCUMULATION. What the output buffers and the accumulators hold after the body at position n (a tuple: the
    outputs in window order, then the accumulators): at j = 0 the zero-then-add case, at j = 7 the add-then-copy case
    over what position n − 1 left in the accumulators, otherwise the add case over the same. -/
def outsAt1 (c : Dev nD) : (n : ℕ) → n < cfg1.N → Vec F S1024x1 .f32 × Vec F S1024x1 .f32
  | 0, hn => (idle1_4, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (idle1_4, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => (fun h' => by (try dsimp only at h'); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (idle1_4, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 8 = 0) (hc1 : ¬cond1_1 (grid1.coords t)) :
    outsAt1 V c t.val t.isLt = (idle1_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) hc1 (iblk1 V c 0 t) (iblk1 V c 1 t) (iblk1 V c 2 t) (iblk1 V c 3 t)) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (idle1_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the class's (every scoped buffer the region does
    not stage through at anything, the generator register at some state); afterwards the same with each accumulator
    at what the point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 c) ∗ (∃ r, prngReg c r)) := by
  cases n with
  | zero => exact absurd rfl hz
  | succ n => rfl

/-! ## The proof data -/

/-- Region 1's proof data on core c: the arrays as the region finds them; after the body at point t each input's
    buffer at its block and each output's at the accumulation's component; the invariant above; nothing owed; the two
    windows onto the normalised features hold the two halves of that array's share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem owed_eq1 (c : Dev nD) (t) : (dat1 V c).owed t = 0 := rfl
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; t mod 8 says which case the point is in; the
    invariant hands the body the accumulators at what the point before left (at anything at the very first point) and
    takes them back at this point's contents; an idle output's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · have hc1 : ¬cond1_1 (grid1.coords t) := fun h => by have := (hcond1_1 t).mp h; omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [Dat.leavesExact_idle (dat1 V c) 4 t (idleAt1_4 t hc1) (noFlush1_4 t hc1)]
    rw [outsAt1_A V c t h0 hc1]
    unfold sout1_A_0; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩⟩
      ihave HΦ' := (PhiA1_open c) $$ HΦ
      icases HΦ' with ⟨⟨HS0, HR⟩, Hg⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitr [Hg]
        swap; · iexact Hg
        isplitl [HS0]
        · unfold owns; iexists _; isplitr
          swap; · iexact HS0
          ipureintro; exact View.read_writes_of_cover _ _ _ _ _ (scover1_A_0 c _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitr [Hg]
        swap; · iexact Hg
        isplitl [HS0]
        · unfold owns; iexists _; isplitr
          swap; · iexact HS0
          ipureintro; exact View.read_writes_of_cover _ _ _ _ _ (scover1_A_0 c _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold out1_C_4 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitr [Hg]
        swap; · iexact Hg
        isplitl [HS0]
        · unfold owns; iexists _; isplitr
          swap; · iexact HS0
          ipureintro; exact View.read_writes_of_cover _ _ _ _ _ (scover1_C_0 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t hc1) (noFlush1_4 t hc1)]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) hc1 (iblk1 V c 0 t) (iblk1 V c 1 t) (iblk1 V c 2 t) (iblk1 V c 3 t) (outsAt1 V c (t.val - 1) (Nat.lt_of_le_of_lt (Nat.sub_le _ _) t.isLt)).2).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitr [Hg]
        swap; · iexact Hg
        isplitl [HS0]
        · unfold owns; iexists _; isplitr
          swap; · iexact HS0
          ipureintro; exact View.read_writes_of_cover _ _ _ _ _ (scover1_B_0 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_close c)
  iintro ⟨⟨HS0, HR⟩, Hg⟩
  isplitr [Hg]
  swap; · iexact Hg
  isplitl [HS0]; · iexists _; iexact HS0
  iexact HR

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.KB.Regions.lean ====
/-
  The regions' assembly. @main runs two kernel regions between host stretches. Between two items a core holds every
  unscoped buffer whole at a valuation — the launch contents carried through the host stretches, then updated at what a
  region leaves in its output arrays — beside its generator register and its `owes`, at nothing.

  Both regions read the normalised features `main_v2` through TWO windows, so the windows' arrays are not distinct
  buffers. At a region's entry the four distinct buffers behind its five windows, each whole at the full share, become
  the five windows' arrays by splitting `main_v2`'s points-to into its left and right halves, one per window; at the
  exit an input window's array is as entered, so the two halves hold the same contents and join back to the full share.
  The output arrays' last contents (each write-back folded, `Dat.arrAt … N`) are the unknowns the valuations after a
  region are written over.

  From the two regions' segment records the frame claim follows by the conditional frame of this program; the same
  run, its last valuation also read at the result `main_v10`, gives the run's value.
-/
import proofs.«143064_j21449066676923_1_alg».proof.Proof.KB.R0Data
import proofs.«143064_j21449066676923_1_alg».proof.Proof.KB.R1Data
import proofs.«143064_j21449066676923_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Arr0

variable (V : (c : Dev nD) → (b : Ref sig .tc) → Buf (Elt F) ((c : Thread nD τ).loc b))

theorem share0_0 (c : Dev nD) : (dat0 V c).share 0 = fullShare.left := by
  unfold Dat.share; rw [q0_0]; rfl
theorem share0_1 (c : Dev nD) : (dat0 V c).share 1 = fullShare.right := by
  unfold Dat.share; rw [q0_1]; rfl
theorem share0_2 (c : Dev nD) : (dat0 V c).share 2 = fullShare := by
  unfold Dat.share; rw [q0_2]; rfl
theorem share0_3 (c : Dev nD) : (dat0 V c).share 3 = fullShare := by
  unfold Dat.share; rfl
theorem share0_4 (c : Dev nD) : (dat0 V c).share 4 = fullShare := by
  unfold Dat.share; rfl

/-- The distinct buffers behind region 0's five windows. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v2) ↦{fullShare} W main_v2) ∗ (((c : Thread nD τ).loc main_arg1) ↦{fullShare} W main_arg1)
          ∗ (((c : Thread nD τ).loc main_v3_0) ↦{fullShare} W main_v3_0) ∗ (((c : Thread nD τ).loc main_v3_1) ↦{fullShare} W main_v3_1)) := by
  unfold Pipeline.arrBufs
  exact bigSep_eq_bigSepL_of_eq [main_v2, main_arg1, main_v3_0, main_v3_1] (by decide) (by decide) _

/-- Region 0's windowed arrays one by one: every array a whole buffer, the two windows on `main_v2` holding a half each. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v2) ↦{fullShare.left} G 0) ∗ (((c : Thread nD τ).loc main_v2) ↦{fullShare.right} G 1)
          ∗ (((c : Thread nD τ).loc main_arg1) ↦{fullShare} G 2)
          ∗ (((c : Thread nD τ).loc main_v3_0) ↦{fullShare} G 3) ∗ (((c : Thread nD τ).loc main_v3_1) ↦{fullShare} G 4)) := by
  unfold Dat.arrays
  rw [show (bigSep Finset.univ fun w : Fin cfg0.W => ((cfg0.win w).arr.view.loc (c : Thread nD τ) ↦[(cfg0.win w).arr.view.set]{(dat0 V c).share w} G w : sProp 𝕄))
      = bigSep Finset.univ fun w : Fin cfg0.W => ((cfg0.win w).arr.view.loc (c : Thread nD τ) ↦{(dat0 V c).share w} G w : sProp 𝕄) from
    bigSep_congr fun w _ => by rw [(arr_whole0 w).set_eq_univ]]
  rw [bigSep_W0, share0_0, share0_1, share0_2, share0_3, share0_4]

/-- ENTRY, the arrays' part: the four buffers whole are the five windows' arrays, the buffer two windows share
    held half by each. -/
theorem arrays0_of_arrBufs (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs (Ix := Unit) (Name := ℕ) (U := UR sig nD τ) (Lvl := ℕ) spec0 c W : sProp 𝕄) ⊢ (dat0 V c).arrays G := by
  rw [arrBufs0_eq, arrays0_eq, hG 0, hG 1, hG 2, hG 3, hG 4]
  iintro ⟨H2, Ha, H30, H31⟩
  ihave H2 := (pointsTo_share (PosShare.mem_left_op_right fullShare)).1 $$ H2
  icases H2 with ⟨Hl, Hr⟩
  isplitl [Hl]; · iexact Hl
  isplitl [Hr]; · iexact Hr
  isplitl [Ha]; · iexact Ha
  isplitl [H30]; · iexact H30
  iexact H31

/-- EXIT, the arrays' part: the two halves of the shared buffer, at the same contents, join. -/
theorem arrBufs_of_arrays0 (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    ((dat0 V c).arrays G : sProp 𝕄) ⊢ Pipeline.arrBufs (Ix := Unit) (Name := ℕ) (U := UR sig nD τ) (Lvl := ℕ) spec0 c W := by
  rw [arrBufs0_eq, arrays0_eq, hG 0, hG 1, hG 2, hG 3, hG 4]
  iintro ⟨Hl, Hr, Ha, H30, H31⟩
  isplitl [Hl Hr]
  · iapply (pointsTo_share (PosShare.mem_left_op_right fullShare)).2
    isplitl [Hl]; · iexact Hl
    iexact Hr
  isplitl [Ha]; · iexact Ha
  isplitl [H30]; · iexact H30
  iexact H31

end Arr0

section Arr1

variable (V : (c : Dev nD) → (b : Ref sig .tc) → Buf (Elt F) ((c : Thread nD τ).loc b))

theorem share1_0 (c : Dev nD) : (dat1 V c).share 0 = fullShare.left := by
  unfold Dat.share; rw [q1_0]; rfl
theorem share1_1 (c : Dev nD) : (dat1 V c).share 1 = fullShare.right := by
  unfold Dat.share; rw [q1_1]; rfl
theorem share1_2 (c : Dev nD) : (dat1 V c).share 2 = fullShare := by
  unfold Dat.share; rw [q1_2]; rfl
theorem share1_3 (c : Dev nD) : (dat1 V c).share 3 = fullShare := by
  unfold Dat.share; rw [q1_3]; rfl
theorem share1_4 (c : Dev nD) : (dat1 V c).share 4 = fullShare := by
  unfold Dat.share; rfl

/-- The distinct buffers behind region 1's five windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v2) ↦{fullShare} W main_v2) ∗ (((c : Thread nD τ).loc main_arg1) ↦{fullShare} W main_arg1)
          ∗ (((c : Thread nD τ).loc main_v3_0) ↦{fullShare} W main_v3_0) ∗ (((c : Thread nD τ).loc main_v4) ↦{fullShare} W main_v4)) := by
  unfold Pipeline.arrBufs
  exact bigSep_eq_bigSepL_of_eq [main_v2, main_arg1, main_v3_0, main_v4] (by decide) (by decide) _

/-- Region 1's windowed arrays one by one: every array a whole buffer, the two windows on `main_v2` holding a half each. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v2) ↦{fullShare.left} G 0) ∗ (((c : Thread nD τ).loc main_v2) ↦{fullShare.right} G 1)
          ∗ (((c : Thread nD τ).loc main_arg1) ↦{fullShare} G 2)
          ∗ (((c : Thread nD τ).loc main_v3_0) ↦{fullShare} G 3) ∗ (((c : Thread nD τ).loc main_v4) ↦{fullShare} G 4)) := by
  unfold Dat.arrays
  rw [show (bigSep Finset.univ fun w : Fin cfg1.W => ((cfg1.win w).arr.view.loc (c : Thread nD τ) ↦[(cfg1.win w).arr.view.set]{(dat1 V c).share w} G w : sProp 𝕄))
      = bigSep Finset.univ fun w : Fin cfg1.W => ((cfg1.win w).arr.view.loc (c : Thread nD τ) ↦{(dat1 V c).share w} G w : sProp 𝕄) from
    bigSep_congr fun w _ => by rw [(arr_whole1 w).set_eq_univ]]
  rw [bigSep_W1, share1_0, share1_1, share1_2, share1_3, share1_4]

/-- ENTRY, the arrays' part. -/
theorem arrays1_of_arrBufs (c : Dev nD) (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  rw [arrBufs1_eq, arrays1_eq, hG 0, hG 1, hG 2, hG 3, hG 4]
  iintro ⟨H2, Ha, H30, H4⟩
  ihave H2 := (pointsTo_share (PosShare.mem_left_op_right fullShare)).1 $$ H2
  icases H2 with ⟨Hl, Hr⟩
  isplitl [Hl]; · iexact Hl
  isplitl [Hr]; · iexact Hr
  isplitl [Ha]; · iexact Ha
  isplitl [H30]; · iexact H30
  iexact H4

/-- EXIT, the arrays' part. -/
theorem arrBufs_of_arrays1 (c : Dev nD) (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    ((dat1 V c).arrays G : sProp 𝕄) ⊢ Pipeline.arrBufs (Ix := Unit) (Name := ℕ) (U := UR sig nD τ) (Lvl := ℕ) spec1 c W := by
  rw [arrBufs1_eq, arrays1_eq, hG 0, hG 1, hG 2, hG 3, hG 4]
  iintro ⟨Hl, Hr, Ha, H30, H4⟩
  isplitl [Hl Hr]
  · iapply (pointsTo_share (PosShare.mem_left_op_right fullShare)).2
    isplitl [Hl]; · iexact Hl
    iexact Hr
  isplitl [Ha]; · iexact Ha
  isplitl [H30]; · iexact H30
  iexact H4

end Arr1

/-! ## What rides beside the buffers -/

abbrev 𝒱₀ : Variants := Variants.none
/-- No core owes another anything: no level is assigned. -/
abbrev L : GSem nD τ sig → Finset Unit := fun _ => ∅
abbrev lv : GSem nD τ sig → Unit → ℕ := fun _ _ => 0
/-- The core's generator register at some state and its `owes`, at nothing. -/
abbrev R (c : Dev nD) : sProp 𝕄 := iprop((∃ r, prngReg c r) ∗ ∃ W, owes (c : Thread nD τ) (0 : CellTallies nD τ sig Unit) W)

/-- The core's `owes` at nothing is a pipeline point's, for proof data that owe nothing there and bound the recorded
    pairs by nothing; and back. -/
theorem owes_in {cfg : Pipeline.Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
theorem owes_out {cfg : Pipeline.Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Dat.owesAt Pipeline.owesWithin; rw [h0]
  iintro ⟨%W, -, HO⟩; iexists W; iexact HO

section Reg0

variable (V : (c : Dev nD) → (b : Ref sig .tc) → Buf (Elt F) ((c : Thread nD τ).loc b))

theorem recorded_eq0 (c : Dev nD) (t) : (dat0 V c).recorded t = Set.univ := rfl

/-- ENTRY: a core's unscoped buffers at `V c` are region 0's arrays at its entry contents and the unscoped rest. -/
theorem entry0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ cfgs 0 winFacts₀0.arr_unscoped c (V c)]
  exact sep_mono (arrays0_of_arrBufs V c (V c) _ fun w => (show (dat0 V c).arrAt w 0 = (dat0 V c).A w from rfl).trans (A_eq0 V c w)) .rfl

/-- EXIT: region 0's arrays at their last contents and the unscoped rest are the core's unscoped buffers at any
    valuation that has the arrays' buffers at those contents and agrees with `V c` off them. -/
theorem exit0 (c : Dev nD) (W' : (b : Ref sig .tc) → Buf (Elt F) ((c : Thread nD τ).loc b))
    (hF : ∀ w : Fin 5, (dat0 V c).arrAt w cfg0.N = W' (Pipeline.arrRef spec0 w))
    (hrest : ∀ b, b ∉ Finset.univ.image (Pipeline.arrRef spec0) → W' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs c W' : sProp 𝕄) := by
  rw [Pipeline.unscopedBufs_split₀ cfgs 0 winFacts₀0.arr_unscoped c W']
  refine sep_mono (arrBufs_of_arrays0 V c W' _ hF) (Entails.of_eq ?_)
  unfold Pipeline.unscopedRest
  exact bigSep_congr fun b hb => by rw [hrest b (Finset.mem_sdiff.mp hb).2]

end Reg0

/-! ## The contents the regions leave -/

variable (m : (ℓ : Loc nD τ sig) → Buf (Elt F) ℓ)

/-- Region 0's entry contents, read at the TensorCore's references. -/
abbrev Ve0 : (c : Dev nD) → (b : Ref sig .tc) → Buf (Elt F) ((c : Thread nD τ).loc b) := fun c b => Gen.V2 m c b

/-- What region 0 leaves: each output array after its last write-back. -/
def outsA : Gen.Outs (F := F) := fun _ r c =>
  if h : r = main_v3_0 then h ▸ (show Buf (Elt F) ((c : Thread nD τ).loc main_v3_0) from (dat0 (Ve0 m) c).arrAt 3 cfg0.N)
  else if h : r = main_v3_1 then h ▸ (show Buf (Elt F) ((c : Thread nD τ).loc main_v3_1) from (dat0 (Ve0 m) c).arrAt 4 cfg0.N)
  else Gen.V2 m c r

/-- Region 1's entry contents, read at the TensorCore's references. -/
abbrev Ve1 : (c : Dev nD) → (b : Ref sig .tc) → Buf (Elt F) ((c : Thread nD τ).loc b) := fun c b => Gen.V3 m (outsA m) c b

/-- What the regions leave: region 0's outputs, then region 1's output over them. -/
def outs : Gen.Outs (F := F) := fun J r c =>
  if h : r = main_v4 then h ▸ (show Buf (Elt F) ((c : Thread nD τ).loc main_v4) from (dat1 (Ve1 m) c).arrAt 4 cfg1.N)
  else outsA m J r c

theorem outsA_v3_0 (J : ℕ) (c : Dev nD) : outsA m J main_v3_0 c = (dat0 (Ve0 m) c).arrAt 3 cfg0.N := by
  unfold outsA; rw [dif_pos rfl]
theorem outsA_v3_1 (J : ℕ) (c : Dev nD) : outsA m J main_v3_1 c = (dat0 (Ve0 m) c).arrAt 4 cfg0.N := by
  unfold outsA; rw [dif_neg (by decide), dif_pos rfl]
theorem outs_of_ne (J : ℕ) (r : Ref sig .tc) (h : r ≠ main_v4) (c : Dev nD) : outs m J r c = outsA m J r c := by
  unfold outs; rw [dif_neg h]
theorem outs_v3_0 (c : Dev nD) : outs m 3 main_v3_0 c = (dat0 (Ve0 m) c).arrAt 3 cfg0.N :=
  (outs_of_ne m 3 main_v3_0 (by decide) c).trans (outsA_v3_0 m 3 c)
theorem outs_v3_1 (c : Dev nD) : outs m 3 main_v3_1 c = (dat0 (Ve0 m) c).arrAt 4 cfg0.N :=
  (outs_of_ne m 3 main_v3_1 (by decide) c).trans (outsA_v3_1 m 3 c)
/-- Region 1 is entered from the same contents whichever of the two families names them. -/
theorem V3_outs (c : Dev nD) : Gen.V3 m (outs m) c = Gen.V3 m (outsA m) c := by
  show Function.update (Function.update (Gen.V2 m c) main_v3_0 (outs m 3 main_v3_0 c)) main_v3_1 (outs m 3 main_v3_1 c)
    = Function.update (Function.update (Gen.V2 m c) main_v3_0 (outsA m 3 main_v3_0 c)) main_v3_1 (outsA m 3 main_v3_1 c)
  rw [outs_of_ne m 3 main_v3_0 (by decide) c, outs_of_ne m 3 main_v3_1 (by decide) c]
theorem outs_v4 (c : Dev nD) : outs m 4 main_v4 c = (dat1 (fun c b => Gen.V3 m (outs m) c b) c).arrAt 4 cfg1.N := by
  rw [show (fun (c : Dev nD) (b : Ref sig .tc) => Gen.V3 m (outs m) c b) = Ve1 m from funext fun c => by rw [V3_outs]]
  unfold outs; rw [dif_pos rfl]

/-- What a valuation after region 0 holds at its two outputs. -/
theorem V3_v3_0 (o : Gen.Outs (F := F)) (c : Dev nD) : Gen.V3 m o c main_v3_0 = o 3 main_v3_0 c := by
  show Function.update (Function.update (Gen.V2 m c) main_v3_0 (o 3 main_v3_0 c)) main_v3_1 (o 3 main_v3_1 c) main_v3_0 = _
  rw [Function.update_of_ne (StableHlo.devRef_ne_of_ne (by decide) : (Proc.devRef .tc main_v3_0 : DevRef τ sig) ≠ Proc.devRef .tc main_v3_1), Function.update_self]
theorem V3_v3_1 (o : Gen.Outs (F := F)) (c : Dev nD) : Gen.V3 m o c main_v3_1 = o 3 main_v3_1 c := by
  show Function.update (Function.update (Gen.V2 m c) main_v3_0 (o 3 main_v3_0 c)) main_v3_1 (o 3 main_v3_1 c) main_v3_1 = _
  rw [Function.update_self]

/-! ## The proof data family -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (Ve0 m) c
  | ⟨1, _⟩ => fun c => dat1 (Ve1 m) c

/-- At region 0's exit each of its arrays' buffers holds what the pipeline leaves, every other buffer what it held. -/
theorem hF0 (c : Dev nD) : ∀ w : Fin 5, (dat0 (Ve0 m) c).arrAt w cfg0.N = Gen.V3 m (outs m) c (Pipeline.arrRef spec0 w) := fun
  | 0 => ((dat0 (Ve0 m) c).arrAt_in 0 rfl _).trans ((A_eq0 (Ve0 m) c 0).trans (Gen.V3_of m (outs m) c main_v2 (by decide)).symm)
  | 1 => ((dat0 (Ve0 m) c).arrAt_in 1 rfl _).trans ((A_eq0 (Ve0 m) c 1).trans (Gen.V3_of m (outs m) c main_v2 (by decide)).symm)
  | 2 => ((dat0 (Ve0 m) c).arrAt_in 2 rfl _).trans ((A_eq0 (Ve0 m) c 2).trans (Gen.V3_of m (outs m) c main_arg1 (by decide)).symm)
  | 3 => ((V3_v3_0 m (outs m) c).trans (outs_v3_0 m c)).symm
  | 4 => ((V3_v3_1 m (outs m) c).trans (outs_v3_1 m c)).symm
  | ⟨_ + 5, h⟩ => absurd h (Nat.not_lt.2 (Nat.le_add_left _ _))
theorem hrest0 (c : Dev nD) : ∀ b, b ∉ Finset.univ.image (Pipeline.arrRef spec0) → Gen.V3 m (outs m) c b = Ve0 m c b := fun b hb =>
  Gen.V3_of m (outs m) c b (by
    intro hmem
    rcases List.mem_cons.mp hmem with rfl | hmem
    · exact hb (Finset.mem_image.mpr ⟨3, Finset.mem_univ _, rfl⟩)
    · rcases List.mem_cons.mp hmem with rfl | hmem
      · exact hb (Finset.mem_image.mpr ⟨4, Finset.mem_univ _, rfl⟩)
      · exact absurd hmem (List.not_mem_nil))

/-! ## The regions as segments -/

set_option backward.isDefEq.respectTransparency.types false in
/-- REGION 0 over the thread state: entered from every unscoped buffer at `Gen.V2`, left at `Gen.V3`. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (Ve0 m) c).loose
  hwaits := Pipeline.hwaits_of_owed_zero _ _ _ _ L lv 0 fun c t => owed_eq0 (Ve0 m) c t
  pre c := iprop(StableHlo.held (c : Thread nD τ) (Pipeline.ucRefs τ sig) (Gen.V2 m c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := entry0 (Ve0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (dat0 (Ve0 m) c) 0 (owed_eq0 (Ve0 m) c 0) (recorded_eq0 (Ve0 m) c 0)); iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    rw [Pipeline.ownSems0_none]
    refine BIBase.Entails.trans (hout0 (Ve0 m) c) ?_
    unfold Pipeline.ΦA
    iintro ⟨Hr, Hp⟩
    isplitl [Hp]; · iexact Hp
    isplitr; · iempintro
    iexact Hr
  hexit c := by
    have hjoin := exit0 (Ve0 m) c (fun b => Gen.V3 m (outs m) c b) (hF0 m c) (hrest0 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    iapply (owes_out (dat0 (Ve0 m) c) _ (owed_eq0 (Ve0 m) c _)); iexact HO

section Reg1

variable (V : (c : Dev nD) → (b : Ref sig .tc) → Buf (Elt F) ((c : Thread nD τ).loc b))

theorem recorded_eq1 (c : Dev nD) (t) : (dat1 V c).recorded t = Set.univ := rfl

/-- ENTRY: a core's unscoped buffers at `V c` are region 1's arrays at its entry contents and the unscoped rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  exact sep_mono (arrays1_of_arrBufs V c (V c) _ fun w => (show (dat1 V c).arrAt w 0 = (dat1 V c).A w from rfl).trans (A_eq1 V c w)) .rfl

/-- EXIT: region 1's arrays at their last contents and the unscoped rest are the core's unscoped buffers at any
    valuation that has the arrays' buffers at those contents and agrees with `V c` off them. -/
theorem exit1 (c : Dev nD) (W' : (b : Ref sig .tc) → Buf (Elt F) ((c : Thread nD τ).loc b))
    (hF : ∀ w : Fin 5, (dat1 V c).arrAt w cfg1.N = W' (Pipeline.arrRef spec1 w))
    (hrest : ∀ b, b ∉ Finset.univ.image (Pipeline.arrRef spec1) → W' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c W' : sProp 𝕄) := by
  rw [Pipeline.unscopedBufs_split₀ cfgs 1 winFacts₀1.arr_unscoped c W']
  refine sep_mono (arrBufs_of_arrays1 V c W' _ hF) (Entails.of_eq ?_)
  unfold Pipeline.unscopedRest
  exact bigSep_congr fun b hb => by rw [hrest b (Finset.mem_sdiff.mp hb).2]

end Reg1

theorem outs_v4' (J : ℕ) (c : Dev nD) : outs m J main_v4 c = (dat1 (Ve1 m) c).arrAt 4 cfg1.N := by
  unfold outs; rw [dif_pos rfl]

/-- A valuation after region 1 holds, off region 1's output, what region 1 was entered from. -/
theorem V4_eq_Ve1 (c : Dev nD) (r : Ref sig .tc) (h : r ∉ ([main_v4] : List (Ref sig .tc))) : Gen.V4 m (outs m) c r = Ve1 m c r :=
  (Gen.V4_of m (outs m) c r h).trans (by rw [V3_outs])
theorem V4_v4 (o : Gen.Outs (F := F)) (c : Dev nD) : Gen.V4 m o c main_v4 = o 4 main_v4 c := by
  show Function.update (Gen.V3 m o c) main_v4 (o 4 main_v4 c) main_v4 = _
  rw [Function.update_self]

/-- At region 1's exit each of its arrays' buffers holds what the pipeline leaves, every other buffer what it held. -/
theorem hF1 (c : Dev nD) : ∀ w : Fin 5, (dat1 (Ve1 m) c).arrAt w cfg1.N = Gen.V4 m (outs m) c (Pipeline.arrRef spec1 w) := fun
  | 0 => ((dat1 (Ve1 m) c).arrAt_in 0 rfl _).trans ((A_eq1 (Ve1 m) c 0).trans (V4_eq_Ve1 m c main_v2 (by decide)).symm)
  | 1 => ((dat1 (Ve1 m) c).arrAt_in 1 rfl _).trans ((A_eq1 (Ve1 m) c 1).trans (V4_eq_Ve1 m c main_v2 (by decide)).symm)
  | 2 => ((dat1 (Ve1 m) c).arrAt_in 2 rfl _).trans ((A_eq1 (Ve1 m) c 2).trans (V4_eq_Ve1 m c main_arg1 (by decide)).symm)
  | 3 => ((dat1 (Ve1 m) c).arrAt_in 3 rfl _).trans ((A_eq1 (Ve1 m) c 3).trans (V4_eq_Ve1 m c main_v3_0 (by decide)).symm)
  | 4 => ((V4_v4 m (outs m) c).trans (outs_v4' m 4 c)).symm
  | ⟨_ + 5, h⟩ => absurd h (Nat.not_lt.2 (Nat.le_add_left _ _))
theorem hrest1 (c : Dev nD) : ∀ b, b ∉ Finset.univ.image (Pipeline.arrRef spec1) → Gen.V4 m (outs m) c b = Ve1 m c b := fun b hb =>
  V4_eq_Ve1 m c b (by
    intro hmem
    rcases List.mem_cons.mp hmem with rfl | hmem
    · exact hb (Finset.mem_image.mpr ⟨4, Finset.mem_univ _, rfl⟩)
    · exact absurd hmem (List.not_mem_nil))

set_option backward.isDefEq.respectTransparency.types false in
/-- REGION 1 over the thread state: entered from every unscoped buffer at `Gen.V3`, left at `Gen.V4`. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ L lv 1 fun c t => owed_eq1 (Ve1 m) c t
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := entry1 (Ve1 m) c
    rw [Pipeline.unscopedBufs_held] at hsplit
    have hV : StableHlo.held (c : Thread nD τ) (Pipeline.ucRefs τ sig) (Gen.V3 m (outs m) c)
        ⊢ (StableHlo.held (c : Thread nD τ) (Pipeline.ucRefs τ sig) (Gen.V3 m (outsA m) c) : sProp 𝕄) := by
      rw [V3_outs]
    iintro ⟨⟨Hub, Hp, HO⟩, -, -⟩
    ihave Hub := hV $$ Hub
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (dat1 (Ve1 m) c) 0 (owed_eq1 (Ve1 m) c 0) (recorded_eq1 (Ve1 m) c 0)); iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    rw [Pipeline.ownSems0_none]
    refine BIBase.Entails.trans (hout1 (Ve1 m) c) ?_
    unfold Pipeline.ΦA
    iintro ⟨Hr, Hp⟩
    isplitl [Hp]; · iexact Hp
    isplitr; · iempintro
    iexact Hr
  hexit c := by
    have hjoin := exit1 (Ve1 m) c (fun b => Gen.V4 m (outs m) c b) (hF1 m c) (hrest1 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    iapply (owes_out (dat1 (Ve1 m) c) _ (owed_eq1 (Ve1 m) c _)); iexact HO

/-! ## The run -/

/-- What rides beside the buffers, the same between any two items. -/
abbrev E : Fin 3 → Dev nD → sProp 𝕄 := fun _ c => R c

/-- The launch element: the pipeline library's at every staging cell, no further ghost resource. -/
abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from BI.Entails.refl _)
    iexact Hu
  iapply (show (BI.emp : sProp 𝕄) ⊢ bigSep Finset.univ (fun _ : Dev nD => (BI.emp : sProp 𝕄)) from by rw [BI.bigSep_emp_const])
  iempintro

/-- The launch makes the rest on every core: the generator register at its launch state, nothing owed. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩; iexact HO

set_option backward.isDefEq.respectTransparency.types false in
/-- THE FRAME: every weakly fair execution of @main from memory `m` with zero counters terminates, and every final
    memory holds each argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m (EP := emb₁) (ι := ()) (𝒱₀ := 𝒱₀) (L := L) (lv := lv) (hL := fun _ _ => rfl) (ρ := ρ) (outs := outs m) (pdats := pdats m)
    (O₀ := 0) (G := fun _ => iprop(emp)) (u₀ := u₀) (hu₀ := hu₀) (E := E) (hE0 := hE0 ρ) (hE2 := hE2)
    (R0 := reg0 m) (hpre0 := fun _ => BI.Entails.refl _) (hpost0 := fun _ => BI.Entails.refl _)
    (R1 := reg1 m) (hpre1 := fun _ => BI.Entails.refl _) (hpost1 := fun _ => BI.Entails.refl _)

set_option backward.isDefEq.respectTransparency.types false in
/-- THE RUN'S VALUE: every weakly fair execution of @main from memory `m` with zero counters terminates, and every
    final memory holds, at the result `main_v10`, the last valuation's contents — the launch contents carried through
    the host stretches and the regions' outputs — and each argument as launched. -/
theorem run_value (ρ : Dev nD → PrngReg) : θ_run defs (onTc (τ := τ) (main (F := F))) ⟨m, fun _ => 0, ρ⟩ (fun r => ∀ c : Dev nD,
      r.2.mem ((c.tc : Thread nD τ).loc main_v10) = Gen.V5 m (outs m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Pipeline.Seg.run_eq_chain,
        show (Gen.segs m (outs m) 𝒱₀ L lv E () (pdats m) (reg0 m) (reg1 m) c).map Pipeline.Seg.prog = [
          StableHlo.seq hostOps0,
          StableHlo.seq hostOps0_1,
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => iprop(emp)) u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V5 m (outs m) c))
    (hch := fun c => ⟨.rfl, .rfl, .rfl, .rfl, .rfl, sep_mono .rfl (hE2 c)⟩)
    (hinit := ?_)
    (QY := fun c s => s.mem ((c.tc : Thread nD τ).loc main_v10) = Gen.V5 m (outs m) c main_v10
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    iapply (Entails.of_eq (bigSep_sep' Finset.univ (fun c : Dev nD => StableHlo.held (c : Thread nD τ) (Pipeline.ucRefs τ sig) (Gen.V0 m c)) (E (F := F) 0)).symm)
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨h (Proc.devRef .tc main_v10) (Finset.mem_filter.mpr ⟨StableHlo.devRef_mem_tcRefs main_v10, by decide⟩),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c)⟩
    · iexact HSI

end Cert.Kernel.Hand

end
-- ==== Proof.KI.R0Runs.lean ====
/-
  Region 0: what the three runs of its body share. The body branches twice on the column-tile coordinate j: at
  j = 0 it zeroes its accumulators, at j = 7 it copies them to the outputs. On the 8 × 8 grid, point t has
  j = t mod 8, so the conditions are t ≡ 0 and t ≡ 7 (mod 8); the outputs are idle, and not written back, except at j = 7.
-/
import proofs.«143064_j21449066676923_1_alg».proof.Proof.Gen.KernelIdeal.Launch
import proofs.«143064_j21449066676923_1_alg».proof.Proof.Gen.KernelIdeal.Skeleton
import proofs.«143064_j21449066676923_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, in closed form over the grid -/

/-- The first branch (zero the accumulator): j = 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (copy the accumulator out): j = 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev scM0_0 : Memref sig .tc .vmem S1024x1 .f32 := Memref.whole cc0_scratch0
abbrev VS0_0 : View sig .tc .vmem S1024x1 .f32 := scM0_0.view
abbrev scM0_1 : Memref sig .tc .vmem S1024x1 .f32 := Memref.whole cc0_scratch1
abbrev VS0_1 : View sig .tc .vmem S1024x1 .f32 := scM0_1.view
abbrev VO0_3 : View sig .tc .vmem S1024x1 .f32 := (Memref.whole cc0_stg3_0 : Memref sig .tc .vmem S1024x1 .f32).view
abbrev VO0_4 : View sig .tc .vmem S1024x1 .f32 := (Memref.whole cc0_stg4_0 : Memref sig .tc .vmem S1024x1 .f32).view

/-- The core's scoped buffers that region 0 neither stages through nor accumulates in, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's invariant opened: the accumulators as memrefs owned at some contents, beside the rest. -/
theorem PhiA0_open (c : Dev nD) :
    (Pipeline.ΦA spec0 c : sProp 𝕄) ⊢ iprop(iprop((∃ d, owns (c : Thread nD τ) scM0_0 fullShare d) ∗ (∃ d, owns (c : Thread nD τ) scM0_1 fullShare d) ∗ Rest0 c) ∗ (∃ r, prngReg c r)) := by
  unfold Pipeline.ΦA Rest0; rw [scopedRest0_eq]; simp only [scM0_0, scM0_1, owns_whole]
  iintro ⟨⟨HS0, HS1, Hr0, Hr1, Hr2, Hr3, Hr4, Hr5, Hr6, Hr7, Hr8, Hr9, Hr10⟩, Hg⟩
  isplitr [Hg]
  swap; · iexact Hg
  isplitl [HS0]; · iexact HS0
  isplitl [HS1]; · iexact HS1
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  iexact Hr10

/-- And closed again. -/
theorem PhiA0_close (c : Dev nD) :
    iprop(iprop((∃ d, owns (c : Thread nD τ) scM0_0 fullShare d) ∗ (∃ d, owns (c : Thread nD τ) scM0_1 fullShare d) ∗ Rest0 c) ∗ (∃ r, prngReg c r)) ⊢ (Pipeline.ΦA spec0 c : sProp 𝕄) := by
  unfold Pipeline.ΦA Rest0; rw [scopedRest0_eq]; simp only [scM0_0, scM0_1, owns_whole]
  iintro ⟨⟨HS0, HS1, Hr0, Hr1, Hr2, Hr3, Hr4, Hr5, Hr6, Hr7, Hr8, Hr9, Hr10⟩, Hg⟩
  isplitr [Hg]
  swap; · iexact Hg
  isplitl [HS0]; · iexact HS0
  isplitl [HS1]; · iexact HS1
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  iexact Hr10

end Cert.KernelIdeal.Hand

end
-- ==== Proof.KI.R0RunB.lean ====
/-
  Region 0's body at a column tile 0 < j < 7: neither branch is taken; the accumulators are read at what the tile before left and stored once; the outputs are not touched.
-/
import proofs.«143064_j21449066676923_1_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in this case, on whole memrefs: the inputs at their contents; an output it does not touch at
    contents handed back untouched, one it stores into at anything; an accumulator at what the tile before left, or
    at anything where it is zeroed first. It ends with every store written; the stored pieces are found by the run. -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x128 .f32) (x1 : Vec F S1024x128 .f32) (x2 : Vec F S1024x1024 .f32) (xs0 : Vec F S1024x1 .f32) (xs1 : Vec F S1024x1 .f32) :
    Σ' (LS0 : List (View.Piece (Elt F) S1024x1 .f32)), { LS1 : List (View.Piece (Elt F) S1024x1 .f32) //
      ∀ (xi3 : Vec F S1024x1 .f32) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__nl_kernel i arg2 harg2 arg3 harg3 arg4 harg4 arg5 harg5 arg6 harg6 arg7 harg7 arg8 harg8) K } := by
  refine ⟨?_, ?_, fun xi3 xi4 E K => ?run⟩
  case run =>
    simp only [cc0__nl_kernel_eq_skeleton]; unfold cc0__nl_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.R0RunA.lean ====
/-
  Region 0's body at the first column tile, j = 0: the accumulators are zeroed, then added to; the outputs are not touched.
-/
import proofs.«143064_j21449066676923_1_alg».proof.Proof.KI.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in this case, on whole memrefs: the inputs at their contents; an output it does not touch at
    contents handed back untouched, one it stores into at anything; an accumulator at what the tile before left, or
    at anything where it is zeroed first. It ends with every store written; the stored pieces are found by the run. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x128 .f32) (x1 : Vec F S1024x128 .f32) (x2 : Vec F S1024x1024 .f32) :
    Σ' (LS0 : List (View.Piece (Elt F) S1024x1 .f32)), { LS1 : List (View.Piece (Elt F) S1024x1 .f32) //
      ∀ (xi3 : Vec F S1024x1 .f32) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__nl_kernel i arg2 harg2 arg3 harg3 arg4 harg4 arg5 harg5 arg6 harg6 arg7 harg7 arg8 harg8) K } := by
  refine ⟨?_, ?_, fun xi3 xi4 E K => ?run⟩
  case run =>
    simp only [cc0__nl_kernel_eq_skeleton]; unfold cc0__nl_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.R0RunC.lean ====
/-
  Region 0's body at the last column tile, j = 7: the accumulators are added to and then copied to the outputs.
-/
import proofs.«143064_j21449066676923_1_alg».proof.Proof.KI.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in this case, on whole memrefs: the inputs at their contents; an output it does not touch at
    contents handed back untouched, one it stores into at anything; an accumulator at what the tile before left, or
    at anything where it is zeroed first. It ends with every store written; the stored pieces are found by the run. -/
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) :
    Σ' (L3 : List (View.Piece (Elt F) S1024x1 .f32)) (L4 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__nl_kernel i arg2 harg2 arg3 harg3 arg4 harg4 arg5 harg5 arg6 harg6 arg7 harg7 arg8 harg8) K } := by
  refine ⟨?_, ?_, ?_, ?_, fun E K => ?run⟩
  case run =>
    simp only [cc0__nl_kernel_eq_skeleton]; unfold cc0__nl_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.R0Data.lean ====
/-
  Region 0's proof data: what its accumulators and output buffers hold after each grid point, the
  region's invariant between points, and the body obligation at every point.
-/
import proofs.«143064_j21449066676923_1_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not (an unfetched
    window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- In this case the stores into accumulator 0 tile it, so they cover it. -/
theorem scover0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x128 .f32) (x1 : Vec F S1024x128 .f32) (x2 : Vec F S1024x1024 .f32) (y : S1024x1.Idx) :
    ∃ pc ∈ (kernelRun0_A c i arg2 harg2 arg3 harg3 arg4 harg4 arg5 harg5 arg6 harg6 arg7 harg7 arg8 harg8 hc0 hc1 x0 x1 x2).1, y ∈ pc.1.set :=
  View.cover_of_tiledL (kernelRun0_A c i arg2 harg2 arg3 harg3 arg4 harg4 arg5 harg5 arg6 harg6 arg7 harg7 arg8 harg8 hc0 hc1 x0 x1 x2).1 S1024x1.size (by sl_kernel_rfl) y

/-- What the case leaves in accumulator 0: its stored pieces read back. -/
def sout0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x128 .f32) (x1 : Vec F S1024x128 .f32) (x2 : Vec F S1024x1024 .f32) : Vec F S1024x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).1)

/-- In this case the stores into accumulator 1 tile it, so they cover it. -/
theorem scover0_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x128 .f32) (x1 : Vec F S1024x128 .f32) (x2 : Vec F S1024x1024 .f32) (y : S1024x1.Idx) :
    ∃ pc ∈ (kernelRun0_A c i arg2 harg2 arg3 harg3 arg4 harg4 arg5 harg5 arg6 harg6 arg7 harg7 arg8 harg8 hc0 hc1 x0 x1 x2).2.1, y ∈ pc.1.set :=
  View.cover_of_tiledL (kernelRun0_A c i arg2 harg2 arg3 harg3 arg4 harg4 arg5 harg5 arg6 harg6 arg7 harg7 arg8 harg8 hc0 hc1 x0 x1 x2).2.1 S1024x1.size (by sl_kernel_rfl) y

/-- What the case leaves in accumulator 1: its stored pieces read back. -/
def sout0_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x128 .f32) (x1 : Vec F S1024x128 .f32) (x2 : Vec F S1024x1024 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.1)

/-- In this case the stores into accumulator 0 tile it, so they cover it. -/
theorem scover0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x128 .f32) (x1 : Vec F S1024x128 .f32) (x2 : Vec F S1024x1024 .f32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 hc0 hc1 x0 x1 x2 xs0 xs1).1, y ∈ pc.1.set :=
  View.cover_of_tiledL (kernelRun0_B c i arg2 harg2 arg3 harg3 arg4 harg4 arg5 harg5 arg6 harg6 arg7 harg7 arg8 harg8 hc0 hc1 x0 x1 x2 xs0 xs1).1 S1024x1.size (by sl_kernel_rfl) y

/-- What the case leaves in accumulator 0: its stored pieces read back. -/
def sout0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x128 .f32) (x1 : Vec F S1024x128 .f32) (x2 : Vec F S1024x1024 .f32) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).1)

/-- In this case the stores into accumulator 1 tile it, so they cover it. -/
theorem scover0_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x128 .f32) (x1 : Vec F S1024x128 .f32) (x2 : Vec F S1024x1024 .f32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 hc0 hc1 x0 x1 x2 xs0 xs1).2.1, y ∈ pc.1.set :=
  View.cover_of_tiledL (kernelRun0_B c i arg2 harg2 arg3 harg3 arg4 harg4 arg5 harg5 arg6 harg6 arg7 harg7 arg8 harg8 hc0 hc1 x0 x1 x2 xs0 xs1).2.1 S1024x1.size (by sl_kernel_rfl) y

/-- What the case leaves in accumulator 1: its stored pieces read back. -/
def sout0_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x128 .f32) (x1 : Vec F S1024x128 .f32) (x2 : Vec F S1024x1024 .f32) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.1)

/-- At j = 7 the stores into output window 3's buffer tile it, so they cover it. -/
theorem cover0_C_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S1024x1.size (by sl_kernel_rfl) y

/-- What the case leaves in output window 3's buffer: its stored pieces read back. -/
def out0_C_3 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) : Vec F S1024x1 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)

/-- At j = 7 the stores into output window 4's buffer tile it, so they cover it. -/
theorem cover0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S1024x1.size (by sl_kernel_rfl) y

/-- What the case leaves in output window 4's buffer: its stored pieces read back. -/
def out0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

/-- In this case the stores into accumulator 0 tile it, so they cover it. -/
theorem scover0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S1024x1.size (by sl_kernel_rfl) y

/-- What the case leaves in accumulator 0: its stored pieces read back. -/
def sout0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)

/-- In this case the stores into accumulator 1 tile it, so they cover it. -/
theorem scover0_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S1024x1.size (by sl_kernel_rfl) y

/-- What the case leaves in accumulator 1: its stored pieces read back. -/
def sout0_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S1024x128 .f32) (x2 : Vec F S1024x1024 .f32) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-- A placeholder for output window 3's buffer at the tiles where it is idle and not written back: never consulted. -/
def idle0_3 : Vec F S1024x1 .f32 := VO0_3.read (Elt F) VO0_3.junk
/-- A placeholder for output window 4's buffer at the tiles where it is idle and not written back: never consulted. -/
def idle0_4 : Vec F S1024x1 .f32 := VO0_4.read (Elt F) VO0_4.junk

/-- THE ACCUMULATION. What the output buffers and the accumulators hold after the body at position n (a tuple: the
    outputs in window order, then the accumulators): at j = 0 the zero-then-add case, at j = 7 the add-then-copy case
    over what position n − 1 left in the accumulators, otherwise the add case over the same. -/
def outsAt0 (c : Dev nD) : (n : ℕ) → n < cfg0.N → Vec F S1024x1 .f32 × Vec F S1024x1 .f32 × Vec F S1024x1 .f32 × Vec F S1024x1 .f32
  | 0, hn => (idle0_3, idle0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h' => by (try dsimp only at h'); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h' => by (try dsimp only at h'); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      (idle0_3, idle0_4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => (fun h' => by (try dsimp only at h'); omega) ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => (fun h' => by (try dsimp only at h'); omega) ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (idle0_3, idle0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (hc1 : ¬cond0_1 (grid0.coords t)) :
    outsAt0 V c t.val t.isLt = (idle0_3, idle0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) hc1 (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) hc1 (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (idle0_3, idle0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the class's (every scoped buffer the region does
    not stage through at anything, the generator register at some state); afterwards the same with each accumulator
    at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ Rest0 c) ∗ (∃ r, prngReg c r)) := by
  cases n with
  | zero => exact absurd rfl hz
  | succ n => rfl

/-! ## The proof data -/

/-- Region 0's proof data on core c: the arrays as the region finds them; after the body at point t each input's
    buffer at its block and each output's at the accumulation's component; the invariant above; nothing owed; the two
    windows onto the normalised features hold the two halves of that array's share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]
theorem owed_eq0 (c : Dev nD) (t) : (dat0 V c).owed t = 0 := rfl
theorem q0_0 (c : Dev nD) : (dat0 V c).q 0 = fullShare.left := by dsimp only [dat0]
theorem q0_1 (c : Dev nD) : (dat0 V c).q 1 = fullShare.right := by dsimp only [dat0]
theorem q0_2 (c : Dev nD) : (dat0 V c).q 2 = fullShare := by dsimp only [dat0]
theorem q0_3 (c : Dev nD) : (dat0 V c).q 3 = fullShare := by dsimp only [dat0]
theorem q0_4 (c : Dev nD) : (dat0 V c).q 4 = fullShare := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; t mod 8 says which case the point is in; the
    invariant hands the body the accumulators at what the point before left (at anything at the very first point) and
    takes them back at this point's contents; an idle output's buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · have hc1 : ¬cond0_1 (grid0.coords t) := fun h => by have := (hcond0_1 t).mp h; omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [Dat.leavesExact_idle (dat0 V c) 3 t (idleAt0_3 t hc1) (noFlush0_3 t hc1)]
    rw [Dat.leavesExact_idle (dat0 V c) 4 t (idleAt0_4 t hc1) (noFlush0_4 t hc1)]
    rw [outsAt0_A V c t h0 hc1]
    unfold sout0_A_0 sout0_A_1; (try dsimp only)
    by_cases hz : t.val = 0
    · rw [PhiS0_castSucc V c t, PhiS0_zero V c _ _ hz]
      iintro ⟨HΦ, Ho, ⟨%d0, H0⟩, ⟨%d1, H1⟩, ⟨%d2, H2⟩, ⟨%d3, H3⟩, ⟨%d4, H4⟩⟩
      ihave HΦ' := (PhiA0_open c) $$ HΦ
      icases HΦ' with ⟨⟨HS0, HS1, HR⟩, Hg⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) hc1 (iblk0 V c 0 t) (iblk0 V c 1 t) (iblk0 V c 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover0_A_0 c _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4
    · rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) hc1 (iblk0 V c 0 t) (iblk0 V c 1 t) (iblk0 V c 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover0_A_0 c _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    by_cases h1 : t.val % 8 = 7
    · have hc1 : cond0_1 (grid0.coords t) := (hcond0_1 t).mpr h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t hc1], after0_3]
      rw [show (dat0 V c).leavesExact 4 t = owns (c : Thread nD τ) (ms0_4 t) fullShare ((dat0 V c).after 4 t) from by
        unfold Dat.leavesExact; rw [liveAt0_4 t hc1], after0_4]
      rw [outsAt0_C V c t h0 h1]
      unfold out0_C_3 out0_C_4 sout0_C_0 sout0_C_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover0_C_0 c _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _ _ _ _)
    · have hc1 : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t hc1) (noFlush0_3 t hc1)]
      rw [Dat.leavesExact_idle (dat0 V c) 4 t (idleAt0_4 t hc1) (noFlush0_4 t hc1)]
      rw [outsAt0_B V c t h0 h1]
      unfold sout0_B_0 sout0_B_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) hc1 (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scover0_B_0 c _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      iexists _; iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  refine .trans ?_ (PhiA0_close c)
  iintro ⟨⟨HS0, HS1, HR⟩, Hg⟩
  isplitr [Hg]
  swap; · iexact Hg
  isplitl [HS0]; · iexists _; iexact HS0
  isplitl [HS1]; · iexists _; iexact HS1
  iexact HR

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KI.R1Runs.lean ====
/-
  Region 1: what the three runs of its body share. The body branches twice on the column-tile coordinate j: at
  j = 0 it zeroes its accumulator, at j = 7 it copies it to the output. On the 8 × 8 grid, point t has
  j = t mod 8, so the conditions are t ≡ 0 and t ≡ 7 (mod 8); the output is idle, and not written back, except at j = 7.
-/
import proofs.«143064_j21449066676923_1_alg».proof.Proof.Gen.KernelIdeal.Launch
import proofs.«143064_j21449066676923_1_alg».proof.Proof.Gen.KernelIdeal.Skeleton
import proofs.«143064_j21449066676923_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, in closed form over the grid -/

/-- The first branch (zero the accumulator): j = 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch (copy the accumulator out): j = 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev scM1_0 : Memref sig .tc .vmem S1024x1 .f32 := Memref.whole cc1_scratch0
abbrev VS1_0 : View sig .tc .vmem S1024x1 .f32 := scM1_0.view
abbrev VO1_4 : View sig .tc .vmem S1024x1 .f32 := (Memref.whole cc1_stg4_0 : Memref sig .tc .vmem S1024x1 .f32).view

/-- The core's scoped buffers that region 1 neither stages through nor accumulates in, each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The region's invariant opened: the accumulator as memrefs owned at some contents, beside the rest. -/
theorem PhiA1_open (c : Dev nD) :
    (Pipeline.ΦA spec1 c : sProp 𝕄) ⊢ iprop(iprop((∃ d, owns (c : Thread nD τ) scM1_0 fullShare d) ∗ Rest1 c) ∗ (∃ r, prngReg c r)) := by
  unfold Pipeline.ΦA Rest1; rw [scopedRest1_eq]; simp only [scM1_0, owns_whole]
  iintro ⟨⟨Hr0, Hr1, Hr2, Hr3, Hr4, Hr5, Hr6, Hr7, Hr8, Hr9, Hr10, Hr11, HS0⟩, Hg⟩
  isplitr [Hg]
  swap; · iexact Hg
  isplitl [HS0]; · iexact HS0
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  iexact Hr11

/-- And closed again. -/
theorem PhiA1_close (c : Dev nD) :
    iprop(iprop((∃ d, owns (c : Thread nD τ) scM1_0 fullShare d) ∗ Rest1 c) ∗ (∃ r, prngReg c r)) ⊢ (Pipeline.ΦA spec1 c : sProp 𝕄) := by
  unfold Pipeline.ΦA Rest1; rw [scopedRest1_eq]; simp only [scM1_0, owns_whole]
  iintro ⟨⟨HS0, Hr0, Hr1, Hr2, Hr3, Hr4, Hr5, Hr6, Hr7, Hr8, Hr9, Hr10, Hr11⟩, Hg⟩
  isplitr [Hg]
  swap; · iexact Hg
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  iexact HS0

end Cert.KernelIdeal.Hand

end
-- ==== Proof.KI.R1RunB.lean ====
/-
  Region 1's body at a column tile 0 < j < 7: neither branch is taken; the accumulator is read at what the tile before left and stored once; the output is not touched.
-/
import proofs.«143064_j21449066676923_1_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in this case, on whole memrefs: the inputs at their contents; an output it does not touch at
    contents handed back untouched, one it stores into at anything; an accumulator at what the tile before left, or
    at anything where it is zeroed first. It ends with every store written; the stored pieces are found by the run. -/
noncomputable def kernelRun1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : ¬cond1_1 i)
    (x0 : Vec F S1024x128 .f32) (x1 : Vec F S1024x128 .f32) (x2 : Vec F S1024x1024 .f32) (x3 : Vec F S1024x1 .f32) (xs0 : Vec F S1024x1 .f32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__lm_kernel i arg2 harg2 arg3 harg3 arg4 harg4 arg5 harg5 arg6 harg6 arg7 harg7) K } := by
  refine ⟨?_, fun xi4 E K => ?run⟩
  case run =>
    simp only [cc1__lm_kernel_eq_skeleton]; unfold cc1__lm_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R1RunA.lean ====
/-
  Region 1's body at the first column tile, j = 0: the accumulator is zeroed, then added to; the output is not touched.
-/
import proofs.«143064_j21449066676923_1_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in this case, on whole memrefs: the inputs at their contents; an output it does not touch at
    contents handed back untouched, one it stores into at anything; an accumulator at what the tile before left, or
    at anything where it is zeroed first. It ends with every store written; the stored pieces are found by the run. -/
noncomputable def kernelRun1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond1_0 i) (hc1 : ¬cond1_1 i)
    (x0 : Vec F S1024x128 .f32) (x1 : Vec F S1024x128 .f32) (x2 : Vec F S1024x1024 .f32) (x3 : Vec F S1024x1 .f32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__lm_kernel i arg2 harg2 arg3 harg3 arg4 harg4 arg5 harg5 arg6 harg6 arg7 harg7) K } := by
  refine ⟨?_, fun xi4 E K => ?run⟩
  case run =>
    simp only [cc1__lm_kernel_eq_skeleton]; unfold cc1__lm_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R1RunC.lean ====
/-
  Region 1's body at the last column tile, j = 7: the accumulator is added to and then copied to the output.
-/
import proofs.«143064_j21449066676923_1_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in this case, on whole memrefs: the inputs at their contents; an output it does not touch at
    contents handed back untouched, one it stores into at anything; an accumulator at what the tile before left, or
    at anything where it is zeroed first. It ends with every store written; the stored pieces are found by the run. -/
noncomputable def kernelRun1_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 : Vec F S1024x128 .f32) (x1 : Vec F S1024x128 .f32) (x2 : Vec F S1024x1024 .f32) (x3 : Vec F S1024x1 .f32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__lm_kernel i arg2 harg2 arg3 harg3 arg4 harg4 arg5 harg5 arg6 harg6 arg7 harg7) K } := by
  refine ⟨?_, ?_, fun E K => ?run⟩
  case run =>
    simp only [cc1__lm_kernel_eq_skeleton]; unfold cc1__lm_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.R1Data.lean ====
/-
  Region 1's proof data: what its accumulator and output buffer hold after each grid point, the
  region's invariant between points, and the body obligation at every point.
-/
import proofs.«143064_j21449066676923_1_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (an unfetched
    window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- In this case the stores into accumulator 0 tile it, so they cover it. -/
theorem scover1_A_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond1_0 i) (hc1 : ¬cond1_1 i)
    (x0 : Vec F S1024x128 .f32) (x1 : Vec F S1024x128 .f32) (x2 : Vec F S1024x1024 .f32) (x3 : Vec F S1024x1 .f32) (y : S1024x1.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S1024x1.size (by sl_kernel_rfl) y

/-- What the case leaves in accumulator 0: its stored pieces read back. -/
def sout1_A_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond1_0 i) (hc1 : ¬cond1_1 i)
    (x0 : Vec F S1024x128 .f32) (x1 : Vec F S1024x128 .f32) (x2 : Vec F S1024x1024 .f32) (x3 : Vec F S1024x1 .f32) : Vec F S1024x1 .f32 :=
  VS1_0.read (Elt F) (VS1_0.writes (Elt F) VS1_0.junk (kernelRun1_A c i arg2 harg2 arg3 harg3 arg4 harg4 arg5 harg5 arg6 harg6 arg7 harg7 hc0 hc1 x0 x1 x2 x3).1)

/-- In this case the stores into accumulator 0 tile it, so they cover it. -/
theorem scover1_B_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : ¬cond1_1 i)
    (x0 : Vec F S1024x128 .f32) (x1 : Vec F S1024x128 .f32) (x2 : Vec F S1024x1024 .f32) (x3 : Vec F S1024x1 .f32) (xs0 : Vec F S1024x1 .f32) (y : S1024x1.Idx) :
    ∃ pc ∈ (kernelRun1_B c i arg2 harg2 arg3 harg3 arg4 harg4 arg5 harg5 arg6 harg6 arg7 harg7 hc0 hc1 x0 x1 x2 x3 xs0).1, y ∈ pc.1.set :=
  View.cover_of_tiledL (kernelRun1_B c i arg2 harg2 arg3 harg3 arg4 harg4 arg5 harg5 arg6 harg6 arg7 harg7 hc0 hc1 x0 x1 x2 x3 xs0).1 S1024x1.size (by sl_kernel_rfl) y

/-- What the case leaves in accumulator 0: its stored pieces read back. -/
def sout1_B_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : ¬cond1_1 i)
    (x0 : Vec F S1024x128 .f32) (x1 : Vec F S1024x128 .f32) (x2 : Vec F S1024x1024 .f32) (x3 : Vec F S1024x1 .f32) (xs0 : Vec F S1024x1 .f32) : Vec F S1024x1 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).1)

/-- At j = 7 the stores into output window 4's buffer tile it, so they cover it. -/
theorem cover1_C_4 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 : Vec F S1024x128 .f32) (x1 : Vec F S1024x128 .f32) (x2 : Vec F S1024x1024 .f32) (x3 : Vec F S1024x1 .f32) (xs0 : Vec F S1024x1 .f32) (y : S1024x1.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x1.size (by sl_kernel_rfl) y

/-- What the case leaves in output window 4's buffer: its stored pieces read back. -/
def out1_C_4 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 : Vec F S1024x128 .f32) (x1 : Vec F S1024x128 .f32) (x2 : Vec F S1024x1024 .f32) (x3 : Vec F S1024x1 .f32) (xs0 : Vec F S1024x1 .f32) : Vec F S1024x1 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- In this case the stores into accumulator 0 tile it, so they cover it. -/
theorem scover1_C_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 : Vec F S1024x128 .f32) (x1 : Vec F S1024x128 .f32) (x2 : Vec F S1024x1024 .f32) (x3 : Vec F S1024x1 .f32) (xs0 : Vec F S1024x1 .f32) (y : S1024x1.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x1.size (by sl_kernel_rfl) y

/-- What the case leaves in accumulator 0: its stored pieces read back. -/
def sout1_C_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 : Vec F S1024x128 .f32) (x1 : Vec F S1024x128 .f32) (x2 : Vec F S1024x1024 .f32) (x3 : Vec F S1024x1 .f32) (xs0 : Vec F S1024x1 .f32) : Vec F S1024x1 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-- A placeholder for output window 4's buffer at the tiles where it is idle and not written back: never consulted. -/
def idle1_4 : Vec F S1024x1 .f32 := VO1_4.read (Elt F) VO1_4.junk

/-- THE ACCUMULATION. What the output buffers and the accumulators hold after the body at position n (a tuple: the
    outputs in window order, then the accumulators): at j = 0 the zero-then-add case, at j = 7 the add-then-copy case
    over what position n − 1 left in the accumulators, otherwise the add case over the same. -/
def outsAt1 (c : Dev nD) : (n : ℕ) → n < cfg1.N → Vec F S1024x1 .f32 × Vec F S1024x1 .f32
  | 0, hn => (idle1_4, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (idle1_4, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => (fun h' => by (try dsimp only at h'); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (idle1_4, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 8 = 0) (hc1 : ¬cond1_1 (grid1.coords t)) :
    outsAt1 V c t.val t.isLt = (idle1_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) hc1 (iblk1 V c 0 t) (iblk1 V c 1 t) (iblk1 V c 2 t) (iblk1 V c 3 t)) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (idle1_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the class's (every scoped buffer the region does
    not stage through at anything, the generator register at some state); afterwards the same with each accumulator
    at what the point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 c) ∗ (∃ r, prngReg c r)) := by
  cases n with
  | zero => exact absurd rfl hz
  | succ n => rfl

/-! ## The proof data -/

/-- Region 1's proof data on core c: the arrays as the region finds them; after the body at point t each input's
    buffer at its block and each output's at the accumulation's component; the invariant above; nothing owed; the two
    windows onto the normalised features hold the two halves of that array's share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem owed_eq1 (c : Dev nD) (t) : (dat1 V c).owed t = 0 := rfl
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; t mod 8 says which case the point is in; the
    invariant hands the body the accumulators at what the point before left (at anything at the very first point) and
    takes them back at this point's contents; an idle output's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · have hc1 : ¬cond1_1 (grid1.coords t) := fun h => by have := (hcond1_1 t).mp h; omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [Dat.leavesExact_idle (dat1 V c) 4 t (idleAt1_4 t hc1) (noFlush1_4 t hc1)]
    rw [outsAt1_A V c t h0 hc1]
    unfold sout1_A_0; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩⟩
      ihave HΦ' := (PhiA1_open c) $$ HΦ
      icases HΦ' with ⟨⟨HS0, HR⟩, Hg⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitr [Hg]
        swap; · iexact Hg
        isplitl [HS0]
        · unfold owns; iexists _; isplitr
          swap; · iexact HS0
          ipureintro; exact View.read_writes_of_cover _ _ _ _ _ (scover1_A_0 c _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitr [Hg]
        swap; · iexact Hg
        isplitl [HS0]
        · unfold owns; iexists _; isplitr
          swap; · iexact HS0
          ipureintro; exact View.read_writes_of_cover _ _ _ _ _ (scover1_A_0 c _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold out1_C_4 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitr [Hg]
        swap; · iexact Hg
        isplitl [HS0]
        · unfold owns; iexists _; isplitr
          swap; · iexact HS0
          ipureintro; exact View.read_writes_of_cover _ _ _ _ _ (scover1_C_0 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t hc1) (noFlush1_4 t hc1)]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) hc1 (iblk1 V c 0 t) (iblk1 V c 1 t) (iblk1 V c 2 t) (iblk1 V c 3 t) (outsAt1 V c (t.val - 1) (Nat.lt_of_le_of_lt (Nat.sub_le _ _) t.isLt)).2).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitr [Hg]
        swap; · iexact Hg
        isplitl [HS0]
        · unfold owns; iexists _; isplitr
          swap; · iexact HS0
          ipureintro; exact View.read_writes_of_cover _ _ _ _ _ (scover1_B_0 c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_close c)
  iintro ⟨⟨HS0, HR⟩, Hg⟩
  isplitr [Hg]
  swap; · iexact Hg
  isplitl [HS0]; · iexists _; iexact HS0
  iexact HR

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Regions.lean ====
/-
  The regions' assembly. @main runs two kernel regions between host stretches. Between two items a core holds every
  unscoped buffer whole at a valuation — the launch contents carried through the host stretches, then updated at what a
  region leaves in its output arrays — beside its generator register and its `owes`, at nothing.

  Both regions read the normalised features `main_v2` through TWO windows, so the windows' arrays are not distinct
  buffers. At a region's entry the four distinct buffers behind its five windows, each whole at the full share, become
  the five windows' arrays by splitting `main_v2`'s points-to into its left and right halves, one per window; at the
  exit an input window's array is as entered, so the two halves hold the same contents and join back to the full share.
  The output arrays' last contents (each write-back folded, `Dat.arrAt … N`) are the unknowns the valuations after a
  region are written over.

  From the two regions' segment records the frame claim follows by the conditional frame of this program; the same
  run, its last valuation also read at the result `main_v10`, gives the run's value.
-/
import proofs.«143064_j21449066676923_1_alg».proof.Proof.KI.R0Data
import proofs.«143064_j21449066676923_1_alg».proof.Proof.KI.R1Data
import proofs.«143064_j21449066676923_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Arr0

variable (V : (c : Dev nD) → (b : Ref sig .tc) → Buf (Elt F) ((c : Thread nD τ).loc b))

theorem share0_0 (c : Dev nD) : (dat0 V c).share 0 = fullShare.left := by
  unfold Dat.share; rw [q0_0]; rfl
theorem share0_1 (c : Dev nD) : (dat0 V c).share 1 = fullShare.right := by
  unfold Dat.share; rw [q0_1]; rfl
theorem share0_2 (c : Dev nD) : (dat0 V c).share 2 = fullShare := by
  unfold Dat.share; rw [q0_2]; rfl
theorem share0_3 (c : Dev nD) : (dat0 V c).share 3 = fullShare := by
  unfold Dat.share; rfl
theorem share0_4 (c : Dev nD) : (dat0 V c).share 4 = fullShare := by
  unfold Dat.share; rfl

/-- The distinct buffers behind region 0's five windows. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v2) ↦{fullShare} W main_v2) ∗ (((c : Thread nD τ).loc main_arg1) ↦{fullShare} W main_arg1)
          ∗ (((c : Thread nD τ).loc main_v3_0) ↦{fullShare} W main_v3_0) ∗ (((c : Thread nD τ).loc main_v3_1) ↦{fullShare} W main_v3_1)) := by
  unfold Pipeline.arrBufs
  exact bigSep_eq_bigSepL_of_eq [main_v2, main_arg1, main_v3_0, main_v3_1] (by decide) (by decide) _

/-- Region 0's windowed arrays one by one: every array a whole buffer, the two windows on `main_v2` holding a half each. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v2) ↦{fullShare.left} G 0) ∗ (((c : Thread nD τ).loc main_v2) ↦{fullShare.right} G 1)
          ∗ (((c : Thread nD τ).loc main_arg1) ↦{fullShare} G 2)
          ∗ (((c : Thread nD τ).loc main_v3_0) ↦{fullShare} G 3) ∗ (((c : Thread nD τ).loc main_v3_1) ↦{fullShare} G 4)) := by
  unfold Dat.arrays
  rw [show (bigSep Finset.univ fun w : Fin cfg0.W => ((cfg0.win w).arr.view.loc (c : Thread nD τ) ↦[(cfg0.win w).arr.view.set]{(dat0 V c).share w} G w : sProp 𝕄))
      = bigSep Finset.univ fun w : Fin cfg0.W => ((cfg0.win w).arr.view.loc (c : Thread nD τ) ↦{(dat0 V c).share w} G w : sProp 𝕄) from
    bigSep_congr fun w _ => by rw [(arr_whole0 w).set_eq_univ]]
  rw [bigSep_W0, share0_0, share0_1, share0_2, share0_3, share0_4]

/-- ENTRY, the arrays' part: the four buffers whole are the five windows' arrays, the buffer two windows share
    held half by each. -/
theorem arrays0_of_arrBufs (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs (Ix := Unit) (Name := ℕ) (U := UR sig nD τ) (Lvl := ℕ) spec0 c W : sProp 𝕄) ⊢ (dat0 V c).arrays G := by
  rw [arrBufs0_eq, arrays0_eq, hG 0, hG 1, hG 2, hG 3, hG 4]
  iintro ⟨H2, Ha, H30, H31⟩
  ihave H2 := (pointsTo_share (PosShare.mem_left_op_right fullShare)).1 $$ H2
  icases H2 with ⟨Hl, Hr⟩
  isplitl [Hl]; · iexact Hl
  isplitl [Hr]; · iexact Hr
  isplitl [Ha]; · iexact Ha
  isplitl [H30]; · iexact H30
  iexact H31

/-- EXIT, the arrays' part: the two halves of the shared buffer, at the same contents, join. -/
theorem arrBufs_of_arrays0 (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    ((dat0 V c).arrays G : sProp 𝕄) ⊢ Pipeline.arrBufs (Ix := Unit) (Name := ℕ) (U := UR sig nD τ) (Lvl := ℕ) spec0 c W := by
  rw [arrBufs0_eq, arrays0_eq, hG 0, hG 1, hG 2, hG 3, hG 4]
  iintro ⟨Hl, Hr, Ha, H30, H31⟩
  isplitl [Hl Hr]
  · iapply (pointsTo_share (PosShare.mem_left_op_right fullShare)).2
    isplitl [Hl]; · iexact Hl
    iexact Hr
  isplitl [Ha]; · iexact Ha
  isplitl [H30]; · iexact H30
  iexact H31

end Arr0

section Arr1

variable (V : (c : Dev nD) → (b : Ref sig .tc) → Buf (Elt F) ((c : Thread nD τ).loc b))

theorem share1_0 (c : Dev nD) : (dat1 V c).share 0 = fullShare.left := by
  unfold Dat.share; rw [q1_0]; rfl
theorem share1_1 (c : Dev nD) : (dat1 V c).share 1 = fullShare.right := by
  unfold Dat.share; rw [q1_1]; rfl
theorem share1_2 (c : Dev nD) : (dat1 V c).share 2 = fullShare := by
  unfold Dat.share; rw [q1_2]; rfl
theorem share1_3 (c : Dev nD) : (dat1 V c).share 3 = fullShare := by
  unfold Dat.share; rw [q1_3]; rfl
theorem share1_4 (c : Dev nD) : (dat1 V c).share 4 = fullShare := by
  unfold Dat.share; rfl

/-- The distinct buffers behind region 1's five windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v2) ↦{fullShare} W main_v2) ∗ (((c : Thread nD τ).loc main_arg1) ↦{fullShare} W main_arg1)
          ∗ (((c : Thread nD τ).loc main_v3_0) ↦{fullShare} W main_v3_0) ∗ (((c : Thread nD τ).loc main_v4) ↦{fullShare} W main_v4)) := by
  unfold Pipeline.arrBufs
  exact bigSep_eq_bigSepL_of_eq [main_v2, main_arg1, main_v3_0, main_v4] (by decide) (by decide) _

/-- Region 1's windowed arrays one by one: every array a whole buffer, the two windows on `main_v2` holding a half each. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v2) ↦{fullShare.left} G 0) ∗ (((c : Thread nD τ).loc main_v2) ↦{fullShare.right} G 1)
          ∗ (((c : Thread nD τ).loc main_arg1) ↦{fullShare} G 2)
          ∗ (((c : Thread nD τ).loc main_v3_0) ↦{fullShare} G 3) ∗ (((c : Thread nD τ).loc main_v4) ↦{fullShare} G 4)) := by
  unfold Dat.arrays
  rw [show (bigSep Finset.univ fun w : Fin cfg1.W => ((cfg1.win w).arr.view.loc (c : Thread nD τ) ↦[(cfg1.win w).arr.view.set]{(dat1 V c).share w} G w : sProp 𝕄))
      = bigSep Finset.univ fun w : Fin cfg1.W => ((cfg1.win w).arr.view.loc (c : Thread nD τ) ↦{(dat1 V c).share w} G w : sProp 𝕄) from
    bigSep_congr fun w _ => by rw [(arr_whole1 w).set_eq_univ]]
  rw [bigSep_W1, share1_0, share1_1, share1_2, share1_3, share1_4]

/-- ENTRY, the arrays' part. -/
theorem arrays1_of_arrBufs (c : Dev nD) (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  rw [arrBufs1_eq, arrays1_eq, hG 0, hG 1, hG 2, hG 3, hG 4]
  iintro ⟨H2, Ha, H30, H4⟩
  ihave H2 := (pointsTo_share (PosShare.mem_left_op_right fullShare)).1 $$ H2
  icases H2 with ⟨Hl, Hr⟩
  isplitl [Hl]; · iexact Hl
  isplitl [Hr]; · iexact Hr
  isplitl [Ha]; · iexact Ha
  isplitl [H30]; · iexact H30
  iexact H4

/-- EXIT, the arrays' part. -/
theorem arrBufs_of_arrays1 (c : Dev nD) (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    ((dat1 V c).arrays G : sProp 𝕄) ⊢ Pipeline.arrBufs (Ix := Unit) (Name := ℕ) (U := UR sig nD τ) (Lvl := ℕ) spec1 c W := by
  rw [arrBufs1_eq, arrays1_eq, hG 0, hG 1, hG 2, hG 3, hG 4]
  iintro ⟨Hl, Hr, Ha, H30, H4⟩
  isplitl [Hl Hr]
  · iapply (pointsTo_share (PosShare.mem_left_op_right fullShare)).2
    isplitl [Hl]; · iexact Hl
    iexact Hr
  isplitl [Ha]; · iexact Ha
  isplitl [H30]; · iexact H30
  iexact H4

end Arr1

/-! ## What rides beside the buffers -/

abbrev 𝒱₀ : Variants := Variants.none
/-- No core owes another anything: no level is assigned. -/
abbrev L : GSem nD τ sig → Finset Unit := fun _ => ∅
abbrev lv : GSem nD τ sig → Unit → ℕ := fun _ _ => 0
/-- The core's generator register at some state and its `owes`, at nothing. -/
abbrev R (c : Dev nD) : sProp 𝕄 := iprop((∃ r, prngReg c r) ∗ ∃ W, owes (c : Thread nD τ) (0 : CellTallies nD τ sig Unit) W)

/-- The core's `owes` at nothing is a pipeline point's, for proof data that owe nothing there and bound the recorded
    pairs by nothing; and back. -/
theorem owes_in {cfg : Pipeline.Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
theorem owes_out {cfg : Pipeline.Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Dat.owesAt Pipeline.owesWithin; rw [h0]
  iintro ⟨%W, -, HO⟩; iexists W; iexact HO

section Reg0

variable (V : (c : Dev nD) → (b : Ref sig .tc) → Buf (Elt F) ((c : Thread nD τ).loc b))

theorem recorded_eq0 (c : Dev nD) (t) : (dat0 V c).recorded t = Set.univ := rfl

/-- ENTRY: a core's unscoped buffers at `V c` are region 0's arrays at its entry contents and the unscoped rest. -/
theorem entry0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ cfgs 0 winFacts₀0.arr_unscoped c (V c)]
  exact sep_mono (arrays0_of_arrBufs V c (V c) _ fun w => (show (dat0 V c).arrAt w 0 = (dat0 V c).A w from rfl).trans (A_eq0 V c w)) .rfl

/-- EXIT: region 0's arrays at their last contents and the unscoped rest are the core's unscoped buffers at any
    valuation that has the arrays' buffers at those contents and agrees with `V c` off them. -/
theorem exit0 (c : Dev nD) (W' : (b : Ref sig .tc) → Buf (Elt F) ((c : Thread nD τ).loc b))
    (hF : ∀ w : Fin 5, (dat0 V c).arrAt w cfg0.N = W' (Pipeline.arrRef spec0 w))
    (hrest : ∀ b, b ∉ Finset.univ.image (Pipeline.arrRef spec0) → W' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs c W' : sProp 𝕄) := by
  rw [Pipeline.unscopedBufs_split₀ cfgs 0 winFacts₀0.arr_unscoped c W']
  refine sep_mono (arrBufs_of_arrays0 V c W' _ hF) (Entails.of_eq ?_)
  unfold Pipeline.unscopedRest
  exact bigSep_congr fun b hb => by rw [hrest b (Finset.mem_sdiff.mp hb).2]

end Reg0

/-! ## The contents the regions leave -/

variable (m : (ℓ : Loc nD τ sig) → Buf (Elt F) ℓ)

/-- Region 0's entry contents, read at the TensorCore's references. -/
abbrev Ve0 : (c : Dev nD) → (b : Ref sig .tc) → Buf (Elt F) ((c : Thread nD τ).loc b) := fun c b => Gen.V2 m c b

/-- What region 0 leaves: each output array after its last write-back. -/
def outsA : Gen.Outs (F := F) := fun _ r c =>
  if h : r = main_v3_0 then h ▸ (show Buf (Elt F) ((c : Thread nD τ).loc main_v3_0) from (dat0 (Ve0 m) c).arrAt 3 cfg0.N)
  else if h : r = main_v3_1 then h ▸ (show Buf (Elt F) ((c : Thread nD τ).loc main_v3_1) from (dat0 (Ve0 m) c).arrAt 4 cfg0.N)
  else Gen.V2 m c r

/-- Region 1's entry contents, read at the TensorCore's references. -/
abbrev Ve1 : (c : Dev nD) → (b : Ref sig .tc) → Buf (Elt F) ((c : Thread nD τ).loc b) := fun c b => Gen.V3 m (outsA m) c b

/-- What the regions leave: region 0's outputs, then region 1's output over them. -/
def outs : Gen.Outs (F := F) := fun J r c =>
  if h : r = main_v4 then h ▸ (show Buf (Elt F) ((c : Thread nD τ).loc main_v4) from (dat1 (Ve1 m) c).arrAt 4 cfg1.N)
  else outsA m J r c

theorem outsA_v3_0 (J : ℕ) (c : Dev nD) : outsA m J main_v3_0 c = (dat0 (Ve0 m) c).arrAt 3 cfg0.N := by
  unfold outsA; rw [dif_pos rfl]
theorem outsA_v3_1 (J : ℕ) (c : Dev nD) : outsA m J main_v3_1 c = (dat0 (Ve0 m) c).arrAt 4 cfg0.N := by
  unfold outsA; rw [dif_neg (by decide), dif_pos rfl]
theorem outs_of_ne (J : ℕ) (r : Ref sig .tc) (h : r ≠ main_v4) (c : Dev nD) : outs m J r c = outsA m J r c := by
  unfold outs; rw [dif_neg h]
theorem outs_v3_0 (c : Dev nD) : outs m 3 main_v3_0 c = (dat0 (Ve0 m) c).arrAt 3 cfg0.N :=
  (outs_of_ne m 3 main_v3_0 (by decide) c).trans (outsA_v3_0 m 3 c)
theorem outs_v3_1 (c : Dev nD) : outs m 3 main_v3_1 c = (dat0 (Ve0 m) c).arrAt 4 cfg0.N :=
  (outs_of_ne m 3 main_v3_1 (by decide) c).trans (outsA_v3_1 m 3 c)
/-- Region 1 is entered from the same contents whichever of the two families names them. -/
theorem V3_outs (c : Dev nD) : Gen.V3 m (outs m) c = Gen.V3 m (outsA m) c := by
  show Function.update (Function.update (Gen.V2 m c) main_v3_0 (outs m 3 main_v3_0 c)) main_v3_1 (outs m 3 main_v3_1 c)
    = Function.update (Function.update (Gen.V2 m c) main_v3_0 (outsA m 3 main_v3_0 c)) main_v3_1 (outsA m 3 main_v3_1 c)
  rw [outs_of_ne m 3 main_v3_0 (by decide) c, outs_of_ne m 3 main_v3_1 (by decide) c]
theorem outs_v4 (c : Dev nD) : outs m 4 main_v4 c = (dat1 (fun c b => Gen.V3 m (outs m) c b) c).arrAt 4 cfg1.N := by
  rw [show (fun (c : Dev nD) (b : Ref sig .tc) => Gen.V3 m (outs m) c b) = Ve1 m from funext fun c => by rw [V3_outs]]
  unfold outs; rw [dif_pos rfl]

/-- What a valuation after region 0 holds at its two outputs. -/
theorem V3_v3_0 (o : Gen.Outs (F := F)) (c : Dev nD) : Gen.V3 m o c main_v3_0 = o 3 main_v3_0 c := by
  show Function.update (Function.update (Gen.V2 m c) main_v3_0 (o 3 main_v3_0 c)) main_v3_1 (o 3 main_v3_1 c) main_v3_0 = _
  rw [Function.update_of_ne (StableHlo.devRef_ne_of_ne (by decide) : (Proc.devRef .tc main_v3_0 : DevRef τ sig) ≠ Proc.devRef .tc main_v3_1), Function.update_self]
theorem V3_v3_1 (o : Gen.Outs (F := F)) (c : Dev nD) : Gen.V3 m o c main_v3_1 = o 3 main_v3_1 c := by
  show Function.update (Function.update (Gen.V2 m c) main_v3_0 (o 3 main_v3_0 c)) main_v3_1 (o 3 main_v3_1 c) main_v3_1 = _
  rw [Function.update_self]

/-! ## The proof data family -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (Ve0 m) c
  | ⟨1, _⟩ => fun c => dat1 (Ve1 m) c

/-- At region 0's exit each of its arrays' buffers holds what the pipeline leaves, every other buffer what it held. -/
theorem hF0 (c : Dev nD) : ∀ w : Fin 5, (dat0 (Ve0 m) c).arrAt w cfg0.N = Gen.V3 m (outs m) c (Pipeline.arrRef spec0 w) := fun
  | 0 => ((dat0 (Ve0 m) c).arrAt_in 0 rfl _).trans ((A_eq0 (Ve0 m) c 0).trans (Gen.V3_of m (outs m) c main_v2 (by decide)).symm)
  | 1 => ((dat0 (Ve0 m) c).arrAt_in 1 rfl _).trans ((A_eq0 (Ve0 m) c 1).trans (Gen.V3_of m (outs m) c main_v2 (by decide)).symm)
  | 2 => ((dat0 (Ve0 m) c).arrAt_in 2 rfl _).trans ((A_eq0 (Ve0 m) c 2).trans (Gen.V3_of m (outs m) c main_arg1 (by decide)).symm)
  | 3 => ((V3_v3_0 m (outs m) c).trans (outs_v3_0 m c)).symm
  | 4 => ((V3_v3_1 m (outs m) c).trans (outs_v3_1 m c)).symm
  | ⟨_ + 5, h⟩ => absurd h (Nat.not_lt.2 (Nat.le_add_left _ _))
theorem hrest0 (c : Dev nD) : ∀ b, b ∉ Finset.univ.image (Pipeline.arrRef spec0) → Gen.V3 m (outs m) c b = Ve0 m c b := fun b hb =>
  Gen.V3_of m (outs m) c b (by
    intro hmem
    rcases List.mem_cons.mp hmem with rfl | hmem
    · exact hb (Finset.mem_image.mpr ⟨3, Finset.mem_univ _, rfl⟩)
    · rcases List.mem_cons.mp hmem with rfl | hmem
      · exact hb (Finset.mem_image.mpr ⟨4, Finset.mem_univ _, rfl⟩)
      · exact absurd hmem (List.not_mem_nil))

/-! ## The regions as segments -/

set_option backward.isDefEq.respectTransparency.types false in
/-- REGION 0 over the thread state: entered from every unscoped buffer at `Gen.V2`, left at `Gen.V3`. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (Ve0 m) c).loose
  hwaits := Pipeline.hwaits_of_owed_zero _ _ _ _ L lv 0 fun c t => owed_eq0 (Ve0 m) c t
  pre c := iprop(StableHlo.held (c : Thread nD τ) (Pipeline.ucRefs τ sig) (Gen.V2 m c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := entry0 (Ve0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (dat0 (Ve0 m) c) 0 (owed_eq0 (Ve0 m) c 0) (recorded_eq0 (Ve0 m) c 0)); iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    rw [Pipeline.ownSems0_none]
    refine BIBase.Entails.trans (hout0 (Ve0 m) c) ?_
    unfold Pipeline.ΦA
    iintro ⟨Hr, Hp⟩
    isplitl [Hp]; · iexact Hp
    isplitr; · iempintro
    iexact Hr
  hexit c := by
    have hjoin := exit0 (Ve0 m) c (fun b => Gen.V3 m (outs m) c b) (hF0 m c) (hrest0 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    iapply (owes_out (dat0 (Ve0 m) c) _ (owed_eq0 (Ve0 m) c _)); iexact HO

section Reg1

variable (V : (c : Dev nD) → (b : Ref sig .tc) → Buf (Elt F) ((c : Thread nD τ).loc b))

theorem recorded_eq1 (c : Dev nD) (t) : (dat1 V c).recorded t = Set.univ := rfl

/-- ENTRY: a core's unscoped buffers at `V c` are region 1's arrays at its entry contents and the unscoped rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  exact sep_mono (arrays1_of_arrBufs V c (V c) _ fun w => (show (dat1 V c).arrAt w 0 = (dat1 V c).A w from rfl).trans (A_eq1 V c w)) .rfl

/-- EXIT: region 1's arrays at their last contents and the unscoped rest are the core's unscoped buffers at any
    valuation that has the arrays' buffers at those contents and agrees with `V c` off them. -/
theorem exit1 (c : Dev nD) (W' : (b : Ref sig .tc) → Buf (Elt F) ((c : Thread nD τ).loc b))
    (hF : ∀ w : Fin 5, (dat1 V c).arrAt w cfg1.N = W' (Pipeline.arrRef spec1 w))
    (hrest : ∀ b, b ∉ Finset.univ.image (Pipeline.arrRef spec1) → W' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c W' : sProp 𝕄) := by
  rw [Pipeline.unscopedBufs_split₀ cfgs 1 winFacts₀1.arr_unscoped c W']
  refine sep_mono (arrBufs_of_arrays1 V c W' _ hF) (Entails.of_eq ?_)
  unfold Pipeline.unscopedRest
  exact bigSep_congr fun b hb => by rw [hrest b (Finset.mem_sdiff.mp hb).2]

end Reg1

theorem outs_v4' (J : ℕ) (c : Dev nD) : outs m J main_v4 c = (dat1 (Ve1 m) c).arrAt 4 cfg1.N := by
  unfold outs; rw [dif_pos rfl]

/-- A valuation after region 1 holds, off region 1's output, what region 1 was entered from. -/
theorem V4_eq_Ve1 (c : Dev nD) (r : Ref sig .tc) (h : r ∉ ([main_v4] : List (Ref sig .tc))) : Gen.V4 m (outs m) c r = Ve1 m c r :=
  (Gen.V4_of m (outs m) c r h).trans (by rw [V3_outs])
theorem V4_v4 (o : Gen.Outs (F := F)) (c : Dev nD) : Gen.V4 m o c main_v4 = o 4 main_v4 c := by
  show Function.update (Gen.V3 m o c) main_v4 (o 4 main_v4 c) main_v4 = _
  rw [Function.update_self]

/-- At region 1's exit each of its arrays' buffers holds what the pipeline leaves, every other buffer what it held. -/
theorem hF1 (c : Dev nD) : ∀ w : Fin 5, (dat1 (Ve1 m) c).arrAt w cfg1.N = Gen.V4 m (outs m) c (Pipeline.arrRef spec1 w) := fun
  | 0 => ((dat1 (Ve1 m) c).arrAt_in 0 rfl _).trans ((A_eq1 (Ve1 m) c 0).trans (V4_eq_Ve1 m c main_v2 (by decide)).symm)
  | 1 => ((dat1 (Ve1 m) c).arrAt_in 1 rfl _).trans ((A_eq1 (Ve1 m) c 1).trans (V4_eq_Ve1 m c main_v2 (by decide)).symm)
  | 2 => ((dat1 (Ve1 m) c).arrAt_in 2 rfl _).trans ((A_eq1 (Ve1 m) c 2).trans (V4_eq_Ve1 m c main_arg1 (by decide)).symm)
  | 3 => ((dat1 (Ve1 m) c).arrAt_in 3 rfl _).trans ((A_eq1 (Ve1 m) c 3).trans (V4_eq_Ve1 m c main_v3_0 (by decide)).symm)
  | 4 => ((V4_v4 m (outs m) c).trans (outs_v4' m 4 c)).symm
  | ⟨_ + 5, h⟩ => absurd h (Nat.not_lt.2 (Nat.le_add_left _ _))
theorem hrest1 (c : Dev nD) : ∀ b, b ∉ Finset.univ.image (Pipeline.arrRef spec1) → Gen.V4 m (outs m) c b = Ve1 m c b := fun b hb =>
  V4_eq_Ve1 m c b (by
    intro hmem
    rcases List.mem_cons.mp hmem with rfl | hmem
    · exact hb (Finset.mem_image.mpr ⟨4, Finset.mem_univ _, rfl⟩)
    · exact absurd hmem (List.not_mem_nil))

set_option backward.isDefEq.respectTransparency.types false in
/-- REGION 1 over the thread state: entered from every unscoped buffer at `Gen.V3`, left at `Gen.V4`. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ L lv 1 fun c t => owed_eq1 (Ve1 m) c t
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := entry1 (Ve1 m) c
    rw [Pipeline.unscopedBufs_held] at hsplit
    have hV : StableHlo.held (c : Thread nD τ) (Pipeline.ucRefs τ sig) (Gen.V3 m (outs m) c)
        ⊢ (StableHlo.held (c : Thread nD τ) (Pipeline.ucRefs τ sig) (Gen.V3 m (outsA m) c) : sProp 𝕄) := by
      rw [V3_outs]
    iintro ⟨⟨Hub, Hp, HO⟩, -, -⟩
    ihave Hub := hV $$ Hub
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (dat1 (Ve1 m) c) 0 (owed_eq1 (Ve1 m) c 0) (recorded_eq1 (Ve1 m) c 0)); iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    rw [Pipeline.ownSems0_none]
    refine BIBase.Entails.trans (hout1 (Ve1 m) c) ?_
    unfold Pipeline.ΦA
    iintro ⟨Hr, Hp⟩
    isplitl [Hp]; · iexact Hp
    isplitr; · iempintro
    iexact Hr
  hexit c := by
    have hjoin := exit1 (Ve1 m) c (fun b => Gen.V4 m (outs m) c b) (hF1 m c) (hrest1 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    iapply (owes_out (dat1 (Ve1 m) c) _ (owed_eq1 (Ve1 m) c _)); iexact HO

/-! ## The run -/

/-- What rides beside the buffers, the same between any two items. -/
abbrev E : Fin 3 → Dev nD → sProp 𝕄 := fun _ c => R c

/-- The launch element: the pipeline library's at every staging cell, no further ghost resource. -/
abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from BI.Entails.refl _)
    iexact Hu
  iapply (show (BI.emp : sProp 𝕄) ⊢ bigSep Finset.univ (fun _ : Dev nD => (BI.emp : sProp 𝕄)) from by rw [BI.bigSep_emp_const])
  iempintro

/-- The launch makes the rest on every core: the generator register at its launch state, nothing owed. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩; iexact HO

set_option backward.isDefEq.respectTransparency.types false in
/-- THE FRAME: every weakly fair execution of @main from memory `m` with zero counters terminates, and every final
    memory holds each argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m (EP := emb₁) (ι := ()) (𝒱₀ := 𝒱₀) (L := L) (lv := lv) (hL := fun _ _ => rfl) (ρ := ρ) (outs := outs m) (pdats := pdats m)
    (O₀ := 0) (G := fun _ => iprop(emp)) (u₀ := u₀) (hu₀ := hu₀) (E := E) (hE0 := hE0 ρ) (hE2 := hE2)
    (R0 := reg0 m) (hpre0 := fun _ => BI.Entails.refl _) (hpost0 := fun _ => BI.Entails.refl _)
    (R1 := reg1 m) (hpre1 := fun _ => BI.Entails.refl _) (hpost1 := fun _ => BI.Entails.refl _)

set_option backward.isDefEq.respectTransparency.types false in
/-- THE RUN'S VALUE: every weakly fair execution of @main from memory `m` with zero counters terminates, and every
    final memory holds, at the result `main_v10`, the last valuation's contents — the launch contents carried through
    the host stretches and the regions' outputs — and each argument as launched. -/
theorem run_value (ρ : Dev nD → PrngReg) : θ_run defs (onTc (τ := τ) (main (F := F))) ⟨m, fun _ => 0, ρ⟩ (fun r => ∀ c : Dev nD,
      r.2.mem ((c.tc : Thread nD τ).loc main_v10) = Gen.V5 m (outs m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Pipeline.Seg.run_eq_chain,
        show (Gen.segs m (outs m) 𝒱₀ L lv E () (pdats m) (reg0 m) (reg1 m) c).map Pipeline.Seg.prog = [
          StableHlo.seq hostOps0,
          StableHlo.seq hostOps0_1,
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => iprop(emp)) u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V5 m (outs m) c))
    (hch := fun c => ⟨.rfl, .rfl, .rfl, .rfl, .rfl, sep_mono .rfl (hE2 c)⟩)
    (hinit := ?_)
    (QY := fun c s => s.mem ((c.tc : Thread nD τ).loc main_v10) = Gen.V5 m (outs m) c main_v10
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    iapply (Entails.of_eq (bigSep_sep' Finset.univ (fun c : Dev nD => StableHlo.held (c : Thread nD τ) (Pipeline.ucRefs τ sig) (Gen.V0 m c)) (E (F := F) 0)).symm)
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨h (Proc.devRef .tc main_v10) (Finset.mem_filter.mpr ⟨StableHlo.devRef_mem_tcRefs main_v10, by decide⟩),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c)⟩
    · iexact HSI

end Cert.KernelIdeal.Hand

end
-- ==== Proof.KI.HostSide.lean ====
/-
  The host operations around the two regions, read as values at the exact instance: before the regions the features
  are divided, row by row, by the root of the row's sum of squares; after them the loss is minus the mean over the
  rows of (row sum / positives' count).
-/
import proofs.«143064_j21449066676923_1_alg».proof.Proof.Gen.KernelIdeal.Regions
import Idealize.ShloMosaic.Lib.StableHlo.Run
import Idealize.ShloMosaic.Lib.ValueIdx

noncomputable section

namespace Cert.KernelIdeal.HandValue

open Idealize.ShloMosaic Idealize.ShloMosaic.TcCoe Idealize.SL.Sem Idealize.ShloMosaic.StableHlo
open Cert.KernelIdeal Cert.KernelIdeal.Gen

/-- The row-normalised features. -/
def xnormK (x : FVec Ideal S8192x128 .f32) : FVec Ideal S8192x128 .f32 :=
  Host.divf (F := Ideal) x (broadcastInDim S8192x128 ![0, 1] bcast_S8192x1_S8192x128_0_1 (Host.sqrt (F := Ideal) (broadcastInDim S8192x1 ![0] bcast_S8192_S8192x1_0
    (Host.reduceAdd (F := Ideal) (mulf (F := Ideal) x x) (constant (F := Ideal) S_ .f32 0x00000000#32) reducesTo_S8192x128_S8192_d1 h_S_))))

/-- The loss from the two columns the regions leave: the row sums and the positives' counts. -/
def tailK (rows cnt : FVec Ideal S8192x1 .f32) : FVec Ideal S_ .f32 :=
  Host.negf (F := Ideal) (Host.divf (F := Ideal) (Host.reduceAdd (F := Ideal) (Host.divf (F := Ideal) (shapeCast S8192 rows shapeCasts_S8192x1_S8192) (shapeCast S8192 cnt shapeCasts_S8192x1_S8192))
    (constant (F := Ideal) S_ .f32 0x00000000#32) reducesTo_S8192_S_d0 h_S_) (constant (F := Ideal) S_ .f32 0x46000000#32))

variable (m : (ℓ : Loc nD τ sig) → Buf (Elt Ideal) ℓ) (outs : Gen.Outs (F := Ideal))

/-- Before region 0 the buffer of the normalised features holds them, computed from the first argument. -/
theorem V2_features (c : Dev nD) : (Gen.V2 m c main_v2 : S8192x128.Idx → EReal) = xnormK (m ((c.tc : Thread nD τ).loc main_arg0)) := by
  dsimp only [Gen.V2, Gen.V1, Gen.V0, Gen.hostOps0, Gen.hostOps0_1]
  after_results
  rfl

/-- The labels reach region 0 as launched. -/
theorem V2_labels (c : Dev nD) : Gen.V2 m c main_arg1 = m ((c.tc : Thread nD τ).loc main_arg1) :=
  (Gen.V2_of m c main_arg1 (by decide)).trans ((Gen.V1_of m c main_arg1 (by decide)).trans rfl)

/-- After the last host operations the result buffer holds the loss of the two columns. -/
theorem V5_result (c : Dev nD) : (Gen.V5 m outs c main_v10 : S_.Idx → EReal) = tailK (Gen.V4 m outs c main_v4) (Gen.V4 m outs c main_v3_1) := by
  dsimp only [Gen.V5, Gen.hostOps2]
  after_results
  rfl

end Cert.KernelIdeal.HandValue

end
-- ==== Proof.Spec.lean ====
/-
  The contrastive loss as one function of the row-normalised features xn : [8192,128] and the
  pair labels y : [8192,8192], on the extended reals.

    c(r,q)   = exp ((Σ_k xn(r,k)·xn(q,k)) / τ)            the similarity, in [0, +∞]
    neg(r)   = Σ_q c(r,q)·(1 − y(r,q))                     the negatives' mass of row r
    cnt(r)   = Σ_q y(r,q)                                  the number of positives of row r
    two forms of the row's log-ratio sum:
      difference form  Σ_q (log c(r,q) − log (c(r,q) + neg(r)))·y(r,q)
      quotient form    Σ_q  log (c(r,q) / (c(r,q) + neg(r)))·y(r,q)
    loss     = −((Σ_r rowsum(r) / cnt(r)) / 8192)

  For labels in {0,1} the negatives' mass is ≥ 0, and then the two forms agree term by term on
  [0,+∞], whatever the features are.
-/
import Idealize.ShloMosaic.PureOps.Ideal
import Idealize.ShloMosaic.Lib.ValueIdx

noncomputable section

open scoped BigOperators

namespace Cert.Contrastive

open Idealize.ShloMosaic Idealize.ShloMosaic.ValueIdx

abbrev SX : Shape := ⟨2, ![8192, 128]⟩
abbrev SY : Shape := ⟨2, ![8192, 8192]⟩

/-- The temperature, the f32 nearest 0.05, as both programs carry it. -/
def tau : EReal := Ideal.ofBits .f32 0x3D4CCCCD#32
/-- The f32 one. -/
def one : EReal := Ideal.ofBits .f32 0x3F800000#32
/-- The f32 zero. -/
def zero : EReal := Ideal.ofBits .f32 0x00000000#32
/-- The f32 8192. -/
def nrows : EReal := Ideal.ofBits .f32 0x46000000#32

/-- The similarity of rows r and q. -/
def sim (xn : SX.Idx → EReal) (r q : Fin 8192) : EReal :=
  Ideal.exp (Ideal.div (∑ k : Fin 128, xn (ix2 r k) * xn (ix2 q k)) tau)

/-- The negatives' mass of row r. -/
def negMass (xn : SX.Idx → EReal) (y : SY.Idx → EReal) (r : Fin 8192) : EReal :=
  ∑ q : Fin 8192, sim xn r q * (one - y (ix2 r q))

/-- The number of positives of row r. -/
def posCount (y : SY.Idx → EReal) (r : Fin 8192) : EReal :=
  ∑ q : Fin 8192, y (ix2 r q)

/-- One term of the row sum, difference form: (log c − log (c + n))·w. -/
def logDiff (c n w : EReal) : EReal := (Ideal.log c - Ideal.log (c + n)) * w
/-- One term of the row sum, quotient form: log (c / (c + n))·w. -/
def logQuot (c n w : EReal) : EReal := Ideal.log (Ideal.div c (c + n)) * w

/-- The row sum in the difference form, the negatives' mass n a parameter. -/
def rowDiff (xn : SX.Idx → EReal) (y : SY.Idx → EReal) (n : Fin 8192 → EReal) (r : Fin 8192) : EReal :=
  ∑ q : Fin 8192, logDiff (sim xn r q) (n r) (y (ix2 r q))
/-- The row sum in the quotient form. -/
def rowQuot (xn : SX.Idx → EReal) (y : SY.Idx → EReal) (n : Fin 8192 → EReal) (r : Fin 8192) : EReal :=
  ∑ q : Fin 8192, logQuot (sim xn r q) (n r) (y (ix2 r q))

/-- The loss from the row sums and the positives' counts. -/
def loss (rows cnt : Fin 8192 → EReal) : EReal :=
  - Ideal.div (∑ r : Fin 8192, Ideal.div (rows r) (cnt r)) nrows

end Cert.Contrastive

end
-- ==== Proof.KI.R0Blocks.lean ====
/-
  Region 0: the blocks its windows read, at coordinates. On the 8 × 8 grid point t is (row block i, column
  tile j) with t = 8·i + j. Window 0 reads rows 1024·i … 1024·i + 1023 of the normalised features, window 1
  rows 1024·j … 1024·j + 1023 of the same array, window 2 the 1024 × 1024 tile (i, j) of the labels; the two
  output windows hold rows 1024·i … 1024·i + 1023 of their columns.
-/
import proofs.«143064_j21449066676923_1_alg».proof.Proof.KI.R0Data
import proofs.«143064_j21449066676923_1_alg».proof.Proof.Spec
import Idealize.ShloMosaic.Lib.Pipeline.Value

set_option maxRecDepth 16384

noncomputable section

open scoped BigOperators

namespace Cert.KernelIdeal.HandValue

open Cert.KernelIdeal Cert.KernelIdeal.Gen Cert.KernelIdeal.Hand Cert.Contrastive
open Idealize.ShloMosaic Idealize.ShloMosaic.TcCoe Idealize.ShloMosaic.ValueIdx
open Idealize.ShloMosaic.Pipeline (Dat)

variable {F : FTy → Type} [FloatOps F]
variable (V : (c : Dev nD) → (b : Ref sig .tc) → Buf (Elt F) ((c : Thread nD τ).loc b))

/-- The block indices of the five windows at point t, decided over the grid: the row block is t / 8, the column
    tile t % 8. -/
theorem idx_facts0 : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

/-- Window 0's block at point 8·i + j is the row block i of the features. -/
theorem iblk0_0_apply (c : Dev nD) (t : Fin cfg0.N) (i j : Fin 8) (ht : t.val = i.val * 8 + j.val) (a : Fin 1024) (k : Fin 128) :
    (iblk0 V c 0 t : Vec F S1024x128 .f32) (ix2 a k)
      = (V c main_v2 : S8192x128.Idx → Elt F .f32) (ix2 ⟨i.val * 1024 + a.val, by omega⟩ k) := by
  obtain ⟨e0, e1, -⟩ := idx_facts0 t
  unfold iblk0
  rw [View.read_apply]
  show V c main_v2 _ = V c main_v2 _
  congr 1
  funext d
  apply Fin.ext
  match d with
  | ⟨0, _⟩ => show win0_0.index t (0 : Fin 2) * 1024 + 1 * a.val = i.val * 1024 + a.val; rw [e0]; omega
  | ⟨1, _⟩ => show win0_0.index t (1 : Fin 2) * 128 + 1 * k.val = k.val; rw [e1]; omega

/-- Window 1's block at point 8·i + j is the row block j of the features. -/
theorem iblk0_1_apply (c : Dev nD) (t : Fin cfg0.N) (i j : Fin 8) (ht : t.val = i.val * 8 + j.val) (b : Fin 1024) (k : Fin 128) :
    (iblk0 V c 1 t : Vec F S1024x128 .f32) (ix2 b k)
      = (V c main_v2 : S8192x128.Idx → Elt F .f32) (ix2 ⟨j.val * 1024 + b.val, by omega⟩ k) := by
  obtain ⟨-, -, e0, e1, -⟩ := idx_facts0 t
  unfold iblk0
  rw [View.read_apply]
  show V c main_v2 _ = V c main_v2 _
  congr 1
  funext d
  apply Fin.ext
  match d with
  | ⟨0, _⟩ => show win0_1.index t (0 : Fin 2) * 1024 + 1 * b.val = j.val * 1024 + b.val; rw [e0]; omega
  | ⟨1, _⟩ => show win0_1.index t (1 : Fin 2) * 128 + 1 * k.val = k.val; rw [e1]; omega

/-- Window 2's block at point 8·i + j is the tile (i, j) of the labels. -/
theorem iblk0_2_apply (c : Dev nD) (t : Fin cfg0.N) (i j : Fin 8) (ht : t.val = i.val * 8 + j.val) (a : Fin 1024) (b : Fin 1024) :
    (iblk0 V c 2 t : Vec F S1024x1024 .f32) (ix2 a b)
      = (V c main_arg1 : S8192x8192.Idx → Elt F .f32) (ix2 ⟨i.val * 1024 + a.val, by omega⟩ ⟨j.val * 1024 + b.val, by omega⟩) := by
  obtain ⟨-, -, -, -, e0, e1, -⟩ := idx_facts0 t
  unfold iblk0
  rw [View.read_apply]
  show V c main_arg1 _ = V c main_arg1 _
  congr 1
  funext d
  apply Fin.ext
  match d with
  | ⟨0, _⟩ => show win0_2.index t (0 : Fin 2) * 1024 + 1 * a.val = i.val * 1024 + a.val; rw [e0]; omega
  | ⟨1, _⟩ => show win0_2.index t (1 : Fin 2) * 1024 + 1 * b.val = j.val * 1024 + b.val; rw [e1]; omega

end Cert.KernelIdeal.HandValue

end
-- ==== Proof.KI.Payloads0.lean ====
/-
  The body's stored values of the first pass, read at an index on the extended reals: the zero column,
  the running negatives' mass  acc(a) + Σ_b exp ((Σ_k x0(a,k)·x1(b,k)) / τ)·(1 − y(a,b))  over one column tile,
  and the running positives' count  acc(a) + Σ_b y(a,b).
-/
import proofs.«143064_j21449066676923_1_alg».proof.Proof.Gen.KernelIdeal.Skeleton
import proofs.«143064_j21449066676923_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandValue

open Cert.KernelIdeal Cert.KernelIdeal.Gen Cert.Contrastive Idealize.ShloMosaic Idealize.ShloMosaic.ValueIdx

variable {α : Type}

/-- A vector [n] cast to a column [n,1] reads, at (i, u), the operand at i. -/
theorem shapeCast_a_a1_apply {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a,1] broadcast to [a,b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the columns of a [1024,1024] block, at row a. -/
theorem lane_sum_apply (v : FVec Ideal S1024x1024 .f32) (h : S1024x1024.Reduces [1] S1024) (hφ : FKind.Formats .f32)
    (hacc : (0x00000000#32 : BitVec 32) = 0x00000000#32) (a : Fin 1024) :
    multiReduction (F := Ideal) .add [1] S1024 v 0x00000000#32 h hφ hacc (ix1 a) = ∑ b : Fin 1024, v (ix2 a b) := by
  refine (Ideal.multiReduction_add_single v 0x00000000#32 h hφ hacc (ix1 a)).trans ?_
  refine Finset.sum_congr rfl fun b _ => ?_
  exact congrArg v (funext fun d => Fin.ext (by match d with | ⟨0, _⟩ => rfl | ⟨1, _⟩ => rfl))

/-- The product's left operand index keeps the output row. -/
theorem gram_lhs_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
/-- The product's right operand index keeps the output column. -/
theorem gram_rhs_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The product of a row block with the transpose of another, into a zero accumulator, at (a, b): the inner
    product of row a of the first with row b of the second. -/
theorem gram_apply (x0 x1 : FVec Ideal S1024x128 .f32) (a b : Fin 1024) :
    matmul (F := Ideal) dot_S1024x128_S128x1024_S1024x1024_1_0_0_1_n_n (some .fp32) x0
        (transpose S128x1024 [1, 0] x1 transposes_S1024x128_p1_0_S128x1024)
        (constant (F := Ideal) S1024x1024 .f32 0x00000000#32) (ix2 a b)
      = ∑ k : Fin 128, x0 (ix2 a k) * x1 (ix2 b k) := by
  simp only [matmul]
  rw [Ideal.matmul_constant_zero_apply,
    ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 a b) ((ValueIdx.contrEquiv1 dot_S1024x128_S128x1024_S1024x1024_1_0_0_1_n_n 128 rfl rfl).symm k) = ix2 a k :=
    funext fun d => Fin.ext (by
      match d with
      | ⟨0, _⟩ => exact gram_lhs_0 _ _
      | ⟨1, _⟩ => exact (dot_S1024x128_S128x1024_S1024x1024_1_0_0_1_n_n.lhsIdx_val_of_single rfl _ _).trans hk)
  have er : dot_S1024x128_S128x1024_S1024x1024_1_0_0_1_n_n.rhsIdx (ix2 a b) ((ValueIdx.contrEquiv1 dot_S1024x128_S128x1024_S1024x1024_1_0_0_1_n_n 128 rfl rfl).symm k) = ix2 k b :=
    funext fun d => Fin.ext (by
      match d with
      | ⟨0, _⟩ => exact (dot_S1024x128_S128x1024_S1024x1024_1_0_0_1_n_n.rhsIdx_val_of_single rfl _ _).trans hk
      | ⟨1, _⟩ => exact gram_rhs_1 _ _)
  rw [el, er, transpose_ix2_apply]

/-- The similarity tile: entry (a, b) is exp of the rows' inner product over τ. -/
theorem sim_tile_apply (x0 x1 : FVec Ideal S1024x128 .f32) (a b : Fin 1024) :
    exp (F := Ideal) (divf (F := Ideal)
        (matmul (F := Ideal) dot_S1024x128_S128x1024_S1024x1024_1_0_0_1_n_n (some .fp32) x0
          (transpose S128x1024 [1, 0] x1 transposes_S1024x128_p1_0_S128x1024)
          (constant (F := Ideal) S1024x1024 .f32 0x00000000#32))
        (broadcast S1024x1024 (Scalar.ofBits (F := Ideal) .f32 0x3D4CCCCD#32))) (ix2 a b)
      = Ideal.exp (Ideal.div (∑ k : Fin 128, x0 (ix2 a k) * x1 (ix2 b k)) tau) :=
  congrArg Ideal.exp (congrArg₂ Ideal.div (gram_apply x0 x1 a b) rfl)

/-- The zero column stored into the negatives' accumulator at the first column tile. -/
theorem pay1_apply (a : Fin 1024) : k0_pay1 (F := Ideal) (ix2 a 0) = 0 := by
  unfold k0_pay1
  rw [shapeCast_self]
  exact Ideal.ofBits_zero_f32

/-- The zero column stored into the positives' accumulator at the first column tile. -/
theorem pay2_apply (a : Fin 1024) : k0_pay2 (F := Ideal) (ix2 a 0) = 0 := by
  unfold k0_pay2
  rw [shapeCast_self]
  exact Ideal.ofBits_zero_f32

/-- The running negatives' mass over one column tile. -/
theorem pay3_apply (x0 x1 : FVec Ideal S1024x128 .f32) (x2 : FVec Ideal S1024x1024 .f32)
    (xs : FVec Ideal S1024x1 .f32) (a : Fin 1024) :
    k0_pay3 (F := Ideal) x0 x1 x2 xs (ix2 a 0)
      = xs (ix2 a 0) + ∑ b : Fin 1024,
          Ideal.exp (Ideal.div (∑ k : Fin 128, x0 (ix2 a k) * x1 (ix2 b k)) tau) * (one - x2 (ix2 a b)) := by
  unfold k0_pay3
  simp only [shapeCast_self]
  refine (addf_apply _ _ _).trans ?_
  rw [shapeCast_a_a1_apply, lane_sum_apply]
  refine congrArg (xs (ix2 a 0) + ·) (Finset.sum_congr rfl fun b _ => ?_)
  refine (mulf_apply _ _ _).trans ?_
  exact congrArg₂ (· * ·) (sim_tile_apply x0 x1 a b) rfl

/-- The running positives' count over one column tile. -/
theorem pay4_apply (x2 : FVec Ideal S1024x1024 .f32) (xs : FVec Ideal S1024x1 .f32) (a : Fin 1024) :
    k0_pay4 (F := Ideal) x2 xs (ix2 a 0) = xs (ix2 a 0) + ∑ b : Fin 1024, x2 (ix2 a b) := by
  unfold k0_pay4
  rw [shapeCast_self]
  refine (addf_apply _ _ _).trans ?_
  rw [shapeCast_a_a1_apply, lane_sum_apply]

end Cert.KernelIdeal.HandValue

end
-- ==== Proof.KI.Payloads1.lean ====
/-
  The body's stored values of the second pass, read at an index on the extended reals: the zero column, and
  the running difference-form row sum  acc(a) + Σ_b (log c(a,b) − log (c(a,b) + n(a)))·y(a,b)  over one column
  tile, with c(a,b) = exp ((Σ_k x0(a,k)·x1(b,k)) / τ) and n the negatives' mass column.
-/
import proofs.«143064_j21449066676923_1_alg».proof.Proof.KI.Payloads0

noncomputable section

open scoped BigOperators

namespace Cert.KernelIdeal.HandValue

open Cert.KernelIdeal Cert.KernelIdeal.Gen Cert.Contrastive Idealize.ShloMosaic Idealize.ShloMosaic.ValueIdx

/-- The zero column stored into the row-sum accumulator at the first column tile. -/
theorem k1pay1_apply (a : Fin 1024) : k1_pay1 (F := Ideal) (ix2 a 0) = 0 := by
  unfold k1_pay1
  rw [shapeCast_self]
  exact Ideal.ofBits_zero_f32

/-- The running difference-form row sum over one column tile. -/
theorem k1pay2_apply (x0 x1 : FVec Ideal S1024x128 .f32) (x2 : FVec Ideal S1024x1024 .f32)
    (x3 xs : FVec Ideal S1024x1 .f32) (a : Fin 1024) :
    k1_pay2 (F := Ideal) x0 x1 x2 x3 xs (ix2 a 0)
      = xs (ix2 a 0) + ∑ b : Fin 1024,
          logDiff (Ideal.exp (Ideal.div (∑ k : Fin 128, x0 (ix2 a k) * x1 (ix2 b k)) tau)) (x3 (ix2 a 0))
            (x2 (ix2 a b)) := by
  unfold k1_pay2
  simp only [shapeCast_self]
  refine (addf_apply _ _ _).trans ?_
  rw [shapeCast_a_a1_apply, lane_sum_apply]
  refine congrArg (xs (ix2 a 0) + ·) (Finset.sum_congr rfl fun b _ => ?_)
  unfold logDiff
  refine (mulf_apply _ _ _).trans ?_
  refine congrArg₂ (· * ·) ?_ rfl
  refine (subf_apply _ _ _).trans ?_
  refine congrArg₂ (· - ·) (congrArg Ideal.log (sim_tile_apply x0 x1 a b)) (congrArg Ideal.log ?_)
  refine (addf_apply _ _ _).trans ?_
  exact congrArg₂ (· + ·) (sim_tile_apply x0 x1 a b) (broadcastTo_a1_ab_apply _ _ a b)

end Cert.KernelIdeal.HandValue

end
-- ==== Proof.KI.PiecesEq.lean ====
/-
  What each case of the two bodies leaves in its accumulators and output blocks, as the body's stored values:
  every store covers its whole buffer and every load reads a whole buffer, so the stored pieces read back are
  the stored values of the buffers' contents — at the first column tile over the zero just stored.
-/
import proofs.«143064_j21449066676923_1_alg».proof.Proof.KI.R0Data
import proofs.«143064_j21449066676923_1_alg».proof.Proof.KI.R1Data
import Idealize.ShloMosaic.Lib.Pipeline.Value
import Idealize.ShloMosaic.Lib.Tactic

set_option maxRecDepth 16384

noncomputable section

namespace Cert.KernelIdeal.HandValue

open Idealize.ShloMosaic Idealize.ShloMosaic.TcCoe Idealize.ShloMosaic.Tactic Idealize.SL.Sem
open Cert.KernelIdeal Cert.KernelIdeal.Gen Cert.KernelIdeal.Hand

variable {F : FTy → Type} [FloatOps F]

/-- The zero offsets of a whole-buffer rectangle, as a constant function. -/
theorem zeroOffsets : (![0, 0] : Fin 2 → Nat) = fun _ => 0 := funext fun a => by fin_cases a <;> rfl

/-- At the first column tile the negatives' accumulator is zeroed and then receives the tile's sum over that zero. -/
theorem sout0_A_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 x1 : Vec F S1024x128 .f32) (x2 : Vec F S1024x1024 .f32) :
    sout0_A_0 c i arg2 harg2 arg3 harg3 arg4 harg4 arg5 harg5 arg6 harg6 arg7 harg7 arg8 harg8 hc0 hc1 x0 x1 x2 = k0_pay3 x0 x1 x2 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  try sl_unfold_words
  simp only [View.canon_unit_zero (S := S1024x1) zeroOffsets, View.canon_cons_unit_zero (S := S1024x1) zeroOffsets, View.readCov_unit_zero (S := S1024x1) _ zeroOffsets, View.readAt_eq_ld, harg2.read_unread, harg3.read_unread, harg4.read_unread, harg5.read_unread, harg6.read_unread, harg7.read_unread, harg8.read_unread, View.ld_unit_zero (S := S1024x128) zeroOffsets, View.ld_unit_zero (S := S1024x1024) zeroOffsets, View.ld_unit_zero (S := S1024x1) zeroOffsets]

/-- At the first column tile the positives' accumulator is zeroed and then receives the tile's count over that zero. -/
theorem sout0_A_1_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 x1 : Vec F S1024x128 .f32) (x2 : Vec F S1024x1024 .f32) :
    sout0_A_1 c i arg2 harg2 arg3 harg3 arg4 harg4 arg5 harg5 arg6 harg6 arg7 harg7 arg8 harg8 hc0 hc1 x0 x1 x2 = k0_pay4 x2 (k0_pay2 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  try sl_unfold_words
  simp only [View.canon_unit_zero (S := S1024x1) zeroOffsets, View.canon_cons_unit_zero (S := S1024x1) zeroOffsets, View.readCov_unit_zero (S := S1024x1) _ zeroOffsets, View.readAt_eq_ld, harg2.read_unread, harg3.read_unread, harg4.read_unread, harg5.read_unread, harg6.read_unread, harg7.read_unread, harg8.read_unread, View.ld_unit_zero (S := S1024x128) zeroOffsets, View.ld_unit_zero (S := S1024x1024) zeroOffsets, View.ld_unit_zero (S := S1024x1) zeroOffsets]

/-- At a middle column tile the negatives' accumulator receives the tile's sum over what it held. -/
theorem sout0_B_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 x1 : Vec F S1024x128 .f32) (x2 : Vec F S1024x1024 .f32) (xs0 xs1 : Vec F S1024x1 .f32) :
    sout0_B_0 c i arg2 harg2 arg3 harg3 arg4 harg4 arg5 harg5 arg6 harg6 arg7 harg7 arg8 harg8 hc0 hc1 x0 x1 x2 xs0 xs1 = k0_pay3 x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  try sl_unfold_words
  simp only [View.canon_unit_zero (S := S1024x1) zeroOffsets, View.canon_cons_unit_zero (S := S1024x1) zeroOffsets, View.readCov_unit_zero (S := S1024x1) _ zeroOffsets, View.readAt_eq_ld, harg2.read_unread, harg3.read_unread, harg4.read_unread, harg5.read_unread, harg6.read_unread, harg7.read_unread, harg8.read_unread, View.ld_unit_zero (S := S1024x128) zeroOffsets, View.ld_unit_zero (S := S1024x1024) zeroOffsets, View.ld_unit_zero (S := S1024x1) zeroOffsets]

/-- At a middle column tile the positives' accumulator receives the tile's count over what it held. -/
theorem sout0_B_1_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 x1 : Vec F S1024x128 .f32) (x2 : Vec F S1024x1024 .f32) (xs0 xs1 : Vec F S1024x1 .f32) :
    sout0_B_1 c i arg2 harg2 arg3 harg3 arg4 harg4 arg5 harg5 arg6 harg6 arg7 harg7 arg8 harg8 hc0 hc1 x0 x1 x2 xs0 xs1 = k0_pay4 x2 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  try sl_unfold_words
  simp only [View.canon_unit_zero (S := S1024x1) zeroOffsets, View.canon_cons_unit_zero (S := S1024x1) zeroOffsets, View.readCov_unit_zero (S := S1024x1) _ zeroOffsets, View.readAt_eq_ld, harg2.read_unread, harg3.read_unread, harg4.read_unread, harg5.read_unread, harg6.read_unread, harg7.read_unread, harg8.read_unread, View.ld_unit_zero (S := S1024x128) zeroOffsets, View.ld_unit_zero (S := S1024x1024) zeroOffsets, View.ld_unit_zero (S := S1024x1) zeroOffsets]

/-- At the last column tile the negatives' accumulator receives the tile's sum over what it held. -/
theorem sout0_C_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 x1 : Vec F S1024x128 .f32) (x2 : Vec F S1024x1024 .f32) (xs0 xs1 : Vec F S1024x1 .f32) :
    sout0_C_0 c i arg2 harg2 arg3 harg3 arg4 harg4 arg5 harg5 arg6 harg6 arg7 harg7 arg8 harg8 hc0 hc1 x0 x1 x2 xs0 xs1 = k0_pay3 x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  try sl_unfold_words
  simp only [View.canon_unit_zero (S := S1024x1) zeroOffsets, View.canon_cons_unit_zero (S := S1024x1) zeroOffsets, View.readCov_unit_zero (S := S1024x1) _ zeroOffsets, View.readAt_eq_ld, harg2.read_unread, harg3.read_unread, harg4.read_unread, harg5.read_unread, harg6.read_unread, harg7.read_unread, harg8.read_unread, View.ld_unit_zero (S := S1024x128) zeroOffsets, View.ld_unit_zero (S := S1024x1024) zeroOffsets, View.ld_unit_zero (S := S1024x1) zeroOffsets]

/-- At the last column tile the positives' accumulator receives the tile's count over what it held. -/
theorem sout0_C_1_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 x1 : Vec F S1024x128 .f32) (x2 : Vec F S1024x1024 .f32) (xs0 xs1 : Vec F S1024x1 .f32) :
    sout0_C_1 c i arg2 harg2 arg3 harg3 arg4 harg4 arg5 harg5 arg6 harg6 arg7 harg7 arg8 harg8 hc0 hc1 x0 x1 x2 xs0 xs1 = k0_pay4 x2 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  try sl_unfold_words
  simp only [View.canon_unit_zero (S := S1024x1) zeroOffsets, View.canon_cons_unit_zero (S := S1024x1) zeroOffsets, View.readCov_unit_zero (S := S1024x1) _ zeroOffsets, View.readAt_eq_ld, harg2.read_unread, harg3.read_unread, harg4.read_unread, harg5.read_unread, harg6.read_unread, harg7.read_unread, harg8.read_unread, View.ld_unit_zero (S := S1024x128) zeroOffsets, View.ld_unit_zero (S := S1024x1024) zeroOffsets, View.ld_unit_zero (S := S1024x1) zeroOffsets]

/-- At the last column tile the negatives' output block receives the accumulator just stored. -/
theorem out0_C_3_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 x1 : Vec F S1024x128 .f32) (x2 : Vec F S1024x1024 .f32) (xs0 xs1 : Vec F S1024x1 .f32) :
    out0_C_3 c i arg2 harg2 arg3 harg3 arg4 harg4 arg5 harg5 arg6 harg6 arg7 harg7 arg8 harg8 hc0 hc1 x0 x1 x2 xs0 xs1 = k0_pay3 x0 x1 x2 xs0 := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  try sl_unfold_words
  simp only [View.canon_unit_zero (S := S1024x1) zeroOffsets, View.canon_cons_unit_zero (S := S1024x1) zeroOffsets, View.readCov_unit_zero (S := S1024x1) _ zeroOffsets, View.readAt_eq_ld, harg2.read_unread, harg3.read_unread, harg4.read_unread, harg5.read_unread, harg6.read_unread, harg7.read_unread, harg8.read_unread, View.ld_unit_zero (S := S1024x128) zeroOffsets, View.ld_unit_zero (S := S1024x1024) zeroOffsets, View.ld_unit_zero (S := S1024x1) zeroOffsets]

/-- At the last column tile the positives' output block receives the accumulator just stored. -/
theorem out0_C_4_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 x1 : Vec F S1024x128 .f32) (x2 : Vec F S1024x1024 .f32) (xs0 xs1 : Vec F S1024x1 .f32) :
    out0_C_4 c i arg2 harg2 arg3 harg3 arg4 harg4 arg5 harg5 arg6 harg6 arg7 harg7 arg8 harg8 hc0 hc1 x0 x1 x2 xs0 xs1 = k0_pay4 x2 xs1 := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  try sl_unfold_words
  simp only [View.canon_unit_zero (S := S1024x1) zeroOffsets, View.canon_cons_unit_zero (S := S1024x1) zeroOffsets, View.readCov_unit_zero (S := S1024x1) _ zeroOffsets, View.readAt_eq_ld, harg2.read_unread, harg3.read_unread, harg4.read_unread, harg5.read_unread, harg6.read_unread, harg7.read_unread, harg8.read_unread, View.ld_unit_zero (S := S1024x128) zeroOffsets, View.ld_unit_zero (S := S1024x1024) zeroOffsets, View.ld_unit_zero (S := S1024x1) zeroOffsets]

/-- At the first column tile the row-sum accumulator is zeroed and then receives the tile's sum over that zero. -/
theorem sout1_A_0_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond1_0 i) (hc1 : ¬cond1_1 i)
    (x0 x1 : Vec F S1024x128 .f32) (x2 : Vec F S1024x1024 .f32) (x3 : Vec F S1024x1 .f32) :
    sout1_A_0 c i arg2 harg2 arg3 harg3 arg4 harg4 arg5 harg5 arg6 harg6 arg7 harg7 hc0 hc1 x0 x1 x2 x3 = k1_pay2 x0 x1 x2 x3 (k1_pay1 (F := F)) := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  try sl_unfold_words
  simp only [View.canon_unit_zero (S := S1024x1) zeroOffsets, View.canon_cons_unit_zero (S := S1024x1) zeroOffsets, View.readCov_unit_zero (S := S1024x1) _ zeroOffsets, View.readAt_eq_ld, harg2.read_unread, harg3.read_unread, harg4.read_unread, harg5.read_unread, harg6.read_unread, harg7.read_unread, View.ld_unit_zero (S := S1024x128) zeroOffsets, View.ld_unit_zero (S := S1024x1024) zeroOffsets, View.ld_unit_zero (S := S1024x1) zeroOffsets]

/-- At a middle column tile the row-sum accumulator receives the tile's sum over what it held. -/
theorem sout1_B_0_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : ¬cond1_1 i)
    (x0 x1 : Vec F S1024x128 .f32) (x2 : Vec F S1024x1024 .f32) (x3 xs0 : Vec F S1024x1 .f32) :
    sout1_B_0 c i arg2 harg2 arg3 harg3 arg4 harg4 arg5 harg5 arg6 harg6 arg7 harg7 hc0 hc1 x0 x1 x2 x3 xs0 = k1_pay2 x0 x1 x2 x3 xs0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  try sl_unfold_words
  simp only [View.canon_unit_zero (S := S1024x1) zeroOffsets, View.canon_cons_unit_zero (S := S1024x1) zeroOffsets, View.readCov_unit_zero (S := S1024x1) _ zeroOffsets, View.readAt_eq_ld, harg2.read_unread, harg3.read_unread, harg4.read_unread, harg5.read_unread, harg6.read_unread, harg7.read_unread, View.ld_unit_zero (S := S1024x128) zeroOffsets, View.ld_unit_zero (S := S1024x1024) zeroOffsets, View.ld_unit_zero (S := S1024x1) zeroOffsets]

/-- At the last column tile the row-sum accumulator receives the tile's sum over what it held. -/
theorem sout1_C_0_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 x1 : Vec F S1024x128 .f32) (x2 : Vec F S1024x1024 .f32) (x3 xs0 : Vec F S1024x1 .f32) :
    sout1_C_0 c i arg2 harg2 arg3 harg3 arg4 harg4 arg5 harg5 arg6 harg6 arg7 harg7 hc0 hc1 x0 x1 x2 x3 xs0 = k1_pay2 x0 x1 x2 x3 xs0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  try sl_unfold_words
  simp only [View.canon_unit_zero (S := S1024x1) zeroOffsets, View.canon_cons_unit_zero (S := S1024x1) zeroOffsets, View.readCov_unit_zero (S := S1024x1) _ zeroOffsets, View.readAt_eq_ld, harg2.read_unread, harg3.read_unread, harg4.read_unread, harg5.read_unread, harg6.read_unread, harg7.read_unread, View.ld_unit_zero (S := S1024x128) zeroOffsets, View.ld_unit_zero (S := S1024x1024) zeroOffsets, View.ld_unit_zero (S := S1024x1) zeroOffsets]

/-- At the last column tile the row-sum output block receives the accumulator just stored. -/
theorem out1_C_4_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond1_0 i) (hc1 : cond1_1 i)
    (x0 x1 : Vec F S1024x128 .f32) (x2 : Vec F S1024x1024 .f32) (x3 xs0 : Vec F S1024x1 .f32) :
    out1_C_4 c i arg2 harg2 arg3 harg3 arg4 harg4 arg5 harg5 arg6 harg6 arg7 harg7 hc0 hc1 x0 x1 x2 x3 xs0 = k1_pay2 x0 x1 x2 x3 xs0 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  try sl_unfold_words
  simp only [View.canon_unit_zero (S := S1024x1) zeroOffsets, View.canon_cons_unit_zero (S := S1024x1) zeroOffsets, View.readCov_unit_zero (S := S1024x1) _ zeroOffsets, View.readAt_eq_ld, harg2.read_unread, harg3.read_unread, harg4.read_unread, harg5.read_unread, harg6.read_unread, harg7.read_unread, View.ld_unit_zero (S := S1024x128) zeroOffsets, View.ld_unit_zero (S := S1024x1024) zeroOffsets, View.ld_unit_zero (S := S1024x1) zeroOffsets]

end Cert.KernelIdeal.HandValue

end
-- ==== Proof.KI.Payloads.lean ====
/-
  The two bodies' stored values: what each case leaves, as a stored value of the buffers' contents, and each
  stored value read at an index on the extended reals.
-/
import proofs.«143064_j21449066676923_1_alg».proof.Proof.KI.Payloads0
import proofs.«143064_j21449066676923_1_alg».proof.Proof.KI.Payloads1
import proofs.«143064_j21449066676923_1_alg».proof.Proof.KI.PiecesEq
-- ==== Proof.Algebra.lean ====
/-
  The laws that join the two arrangements of the contrastive loss.

  * The similarity exp(·) is ≥ 0 on the extended reals, so for labels in {0,1} every term
    c(r,q)·(1 − y(r,q)) of the negatives' mass is ≥ 0 and so is the mass.
  * On [0,+∞] × [0,+∞] the difference of logarithms is the logarithm of the quotient,
        log c − log (c + n) = log (c / (c + n)),
    at every corner: c = 0 (both sides −∞), c = +∞ (both sides −∞: ∞ − ∞ = −∞ on one side,
    log (∞ · 0) = log 0 on the other), n = +∞ (both −∞), and Real.log_div on the finite part.
  * A sum over 8192 columns is the sum over 8 tiles of 1024 columns.
-/
import proofs.«143064_j21449066676923_1_alg».proof.Proof.Spec
import Idealize.ShloMosaic.PureOps.Ideal
import Idealize.ShloMosaic.PureOps.Ideal.Laws
import Mathlib.Tactic

noncomputable section

open scoped BigOperators

namespace Cert.Contrastive

open Idealize.ShloMosaic Idealize.ShloMosaic.ValueIdx

/-- The exponential is ≥ 0 everywhere on the extended reals. -/
theorem exp_nonneg (s : EReal) : 0 ≤ Ideal.exp s := by
  induction s using EReal.rec with
  | bot => simp
  | coe r => rw [Ideal.exp_coe]; exact_mod_cast (Real.exp_pos r).le
  | top => simp

/-- log 0 = −∞. -/
theorem log_zero : Ideal.log 0 = ⊥ := by
  have : (0 : EReal) = ((0 : ℝ) : EReal) := rfl
  rw [this, Ideal.log_coe]; simp

/-- The quotient 0 / b is 0 or −∞, and its logarithm is −∞. -/
theorem log_div_zero_left (b : EReal) : Ideal.log (Ideal.div 0 b) = ⊥ := by
  unfold Ideal.div
  split_ifs with h1 h2
  · exact absurd h2 (lt_irrefl _)
  · exact Ideal.log_bot
  · rw [zero_mul]; exact log_zero

/-- On [0,+∞] × [0,+∞]: log c − log (c + n) = log (c / (c + n)). -/
theorem log_sub_log (c n : EReal) (hc : 0 ≤ c) (hn : 0 ≤ n) :
    Ideal.log c - Ideal.log (c + n) = Ideal.log (Ideal.div c (c + n)) := by
  induction c using EReal.rec with
  | bot => exact absurd hc (by simp)
  | top =>
    have h : (⊤ : EReal) + n = ⊤ := EReal.top_add_of_ne_bot (ne_bot_of_le_ne_bot (by simp) hn)
    rw [h, Ideal.log_top]
    have hd : Ideal.div ⊤ ⊤ = 0 := by
      unfold Ideal.div; rw [if_neg (by simp)]; simp
    rw [hd, log_zero]; simp
  | coe r =>
    have hr : 0 ≤ r := by exact_mod_cast hc
    rcases hr.eq_or_lt with h0 | hpos
    · subst h0
      rw [show ((0 : ℝ) : EReal) = 0 from rfl, log_zero, log_div_zero_left, EReal.bot_sub]
    · induction n using EReal.rec with
      | bot => exact absurd hn (by simp)
      | top =>
        rw [EReal.coe_add_top, Ideal.log_top, Ideal.log_coe, if_neg (not_le.mpr hpos)]
        have hd : Ideal.div (r : EReal) ⊤ = 0 := by
          unfold Ideal.div; rw [if_neg (by simp)]; simp
        rw [hd, log_zero]; simp
      | coe s =>
        have hs : 0 ≤ s := by exact_mod_cast hn
        have hrs : 0 < r + s := by linarith
        rw [← EReal.coe_add, Ideal.log_coe, Ideal.log_coe, if_neg (not_le.mpr hpos),
          if_neg (not_le.mpr hrs), Ideal.div_coe hrs.ne', ← EReal.coe_mul, Ideal.log_coe,
          if_neg (not_le.mpr (by positivity)), ← EReal.coe_sub]
        congr 1
        rw [mul_one_div, Real.log_div hpos.ne' hrs.ne']

/-- The two forms of one term of the row sum agree for c, n in [0,+∞]. -/
theorem logDiff_eq_logQuot (c n w : EReal) (hc : 0 ≤ c) (hn : 0 ≤ n) :
    logDiff c n w = logQuot c n w := by
  unfold logDiff logQuot; rw [log_sub_log c n hc hn]

/-- The similarity is ≥ 0. -/
theorem sim_nonneg (xn : SX.Idx → EReal) (r q : Fin 8192) : 0 ≤ sim xn r q :=
  exp_nonneg _

/-- The f32 one is the extended real 1. -/
theorem one_eq : one = 1 := by
  unfold one; simp [Ideal.ofBits, Ideal.ieee, -EReal.coe_mul]; norm_num

/-- For labels in {0,1} the negatives' mass is ≥ 0. -/
theorem negMass_nonneg (xn : SX.Idx → EReal) (y : SY.Idx → EReal) (hy : ∀ i, y i = 0 ∨ y i = 1)
    (r : Fin 8192) : 0 ≤ negMass xn y r := by
  unfold negMass
  refine Finset.sum_nonneg fun q _ => ?_
  rcases hy (ix2 r q) with h | h
  · rw [h, one_eq, sub_zero, mul_one]; exact sim_nonneg xn r q
  · have h11 : (1 : EReal) - 1 = 0 := by
      rw [← EReal.coe_one, ← EReal.coe_sub, sub_self, EReal.coe_zero]
    rw [h, one_eq, h11, mul_zero]

/-- For labels in {0,1} the difference form and the quotient form of every row sum agree. -/
theorem rowDiff_eq_rowQuot (xn : SX.Idx → EReal) (y : SY.Idx → EReal) (hy : ∀ i, y i = 0 ∨ y i = 1) :
    rowDiff xn y (negMass xn y) = rowQuot xn y (negMass xn y) := by
  funext r
  unfold rowDiff rowQuot
  exact Finset.sum_congr rfl fun q _ =>
    logDiff_eq_logQuot _ _ _ (sim_nonneg xn r q) (negMass_nonneg xn y hy r)

/-- A sum over a·b indices is the sum over a tiles of b. -/
theorem sum_tiles' {M : Type*} [AddCommMonoid M] (a b : ℕ) (f : Fin (a * b) → M) :
    ∑ q : Fin (a * b), f q = ∑ j : Fin a, ∑ i : Fin b, f ⟨j.val * b + i.val, by
      calc j.val * b + i.val < j.val * b + b := by omega
        _ = (j.val + 1) * b := by ring
        _ ≤ a * b := Nat.mul_le_mul_right _ j.isLt⟩ := by
  rw [← Fintype.sum_prod_type']
  refine (Fintype.sum_equiv finProdFinEquiv _ _ fun x => ?_).symm
  congr 1
  ext
  simp [finProdFinEquiv]
  ring

/-- A sum over the 8192 columns of a row is the sum over 8 column tiles of 1024. -/
theorem sum_tiles {M : Type*} [AddCommMonoid M] (f : Fin 8192 → M) :
    ∑ q : Fin 8192, f q = ∑ j : Fin 8, ∑ b : Fin 1024, f ⟨j.val * 1024 + b.val, by omega⟩ :=
  sum_tiles' 8 1024 f

end Cert.Contrastive

end
-- ==== Proof.KI.R0Acc.lean ====
/-
  Region 0: what the two accumulators hold after each point. Within row block i the column tiles j = 0 … 7 are
  visited in order; at j = 0 the accumulators are zeroed and the first tile's sums added, at every later j the
  tile's sums are added to what the point before left. So after point 8·i + j the negatives' accumulator holds, at
  row a, the negatives' mass of row 1024·i + a restricted to the column tiles 0 … j, and the positives' accumulator
  the positives' count over the same tiles; at j = 7 both are copied to the output buffers.
-/
import proofs.«143064_j21449066676923_1_alg».proof.Proof.KI.R0Blocks
import proofs.«143064_j21449066676923_1_alg».proof.Proof.KI.Payloads
import proofs.«143064_j21449066676923_1_alg».proof.Proof.Algebra

set_option maxRecDepth 16384

noncomputable section

open scoped BigOperators

namespace Cert.KernelIdeal.HandValue

open Cert.KernelIdeal Cert.KernelIdeal.Gen Cert.KernelIdeal.Hand Cert.Contrastive
open Idealize.ShloMosaic Idealize.ShloMosaic.TcCoe Idealize.ShloMosaic.ValueIdx
open Idealize.ShloMosaic.Pipeline (Dat)

/-! ## The row sums, tile by tile -/

/-- The negatives' mass of row r restricted to column tile q. -/
def negTile (xn : SX.Idx → EReal) (y : SY.Idx → EReal) (r : Fin 8192) (q : Fin 8) : EReal :=
  ∑ b : Fin 1024, sim xn r ⟨q.val * 1024 + b.val, by omega⟩ * (one - y (ix2 r ⟨q.val * 1024 + b.val, by omega⟩))

/-- The positives' count of row r restricted to column tile q. -/
def cntTile (y : SY.Idx → EReal) (r : Fin 8192) (q : Fin 8) : EReal :=
  ∑ b : Fin 1024, y (ix2 r ⟨q.val * 1024 + b.val, by omega⟩)

/-- The negatives' mass of row r over the first n column tiles. -/
def negPart (xn : SX.Idx → EReal) (y : SY.Idx → EReal) (r : Fin 8192) (n : ℕ) : EReal :=
  ∑ q ∈ Finset.range n, if h : q < 8 then negTile xn y r ⟨q, h⟩ else 0

/-- The positives' count of row r over the first n column tiles. -/
def cntPart (y : SY.Idx → EReal) (r : Fin 8192) (n : ℕ) : EReal :=
  ∑ q ∈ Finset.range n, if h : q < 8 then cntTile y r ⟨q, h⟩ else 0

theorem negPart_one (xn : SX.Idx → EReal) (y : SY.Idx → EReal) (r : Fin 8192) :
    negPart xn y r 1 = negTile xn y r ⟨0, by omega⟩ := by
  unfold negPart; rw [Finset.sum_range_one, dif_pos (by omega)]

theorem cntPart_one (y : SY.Idx → EReal) (r : Fin 8192) :
    cntPart y r 1 = cntTile y r ⟨0, by omega⟩ := by
  unfold cntPart; rw [Finset.sum_range_one, dif_pos (by omega)]

theorem negPart_succ (xn : SX.Idx → EReal) (y : SY.Idx → EReal) (r : Fin 8192) (n : ℕ) (hn : n < 8) :
    negPart xn y r (n + 1) = negPart xn y r n + negTile xn y r ⟨n, hn⟩ := by
  unfold negPart; rw [Finset.sum_range_succ, dif_pos hn]

theorem cntPart_succ (y : SY.Idx → EReal) (r : Fin 8192) (n : ℕ) (hn : n < 8) :
    cntPart y r (n + 1) = cntPart y r n + cntTile y r ⟨n, hn⟩ := by
  unfold cntPart; rw [Finset.sum_range_succ, dif_pos hn]

/-- Over all eight column tiles the partial mass is the negatives' mass. -/
theorem negPart_eight (xn : SX.Idx → EReal) (y : SY.Idx → EReal) (r : Fin 8192) :
    negPart xn y r 8 = negMass xn y r := by
  unfold negPart negMass
  rw [Finset.sum_range, sum_tiles]
  exact Finset.sum_congr rfl fun q _ => dif_pos q.isLt

/-- Over all eight column tiles the partial count is the positives' count. -/
theorem cntPart_eight (y : SY.Idx → EReal) (r : Fin 8192) :
    cntPart y r 8 = posCount y r := by
  unfold cntPart posCount
  rw [Finset.sum_range, sum_tiles]
  exact Finset.sum_congr rfl fun q _ => dif_pos q.isLt

/-! ## One point's addends, over blocks that are the arrays' tiles -/

/-- The negatives' payload over the blocks of point (i, j) adds tile j's mass of row 1024·i + a. -/
theorem pay3_tile (xn : SX.Idx → EReal) (y : SY.Idx → EReal) (i j : Fin 8)
    (x0 x1 : Vec Ideal S1024x128 .f32) (x2 : Vec Ideal S1024x1024 .f32) (xs : Vec Ideal S1024x1 .f32)
    (h0 : ∀ (a : Fin 1024) (k : Fin 128), x0 (ix2 a k) = xn (ix2 ⟨i.val * 1024 + a.val, by omega⟩ k))
    (h1 : ∀ (b : Fin 1024) (k : Fin 128), x1 (ix2 b k) = xn (ix2 ⟨j.val * 1024 + b.val, by omega⟩ k))
    (h2 : ∀ (a b : Fin 1024), x2 (ix2 a b) = y (ix2 ⟨i.val * 1024 + a.val, by omega⟩ ⟨j.val * 1024 + b.val, by omega⟩))
    (a : Fin 1024) :
    k0_pay3 (F := Ideal) x0 x1 x2 xs (ix2 a 0) = xs (ix2 a 0) + negTile xn y ⟨i.val * 1024 + a.val, by omega⟩ j := by
  rw [pay3_apply]
  unfold negTile sim
  simp only [h0, h1, h2]

/-- The positives' payload over the label block of point (i, j) adds tile j's count of row 1024·i + a. -/
theorem pay4_tile (y : SY.Idx → EReal) (i j : Fin 8)
    (x2 : Vec Ideal S1024x1024 .f32) (xs : Vec Ideal S1024x1 .f32)
    (h2 : ∀ (a b : Fin 1024), x2 (ix2 a b) = y (ix2 ⟨i.val * 1024 + a.val, by omega⟩ ⟨j.val * 1024 + b.val, by omega⟩))
    (a : Fin 1024) :
    k0_pay4 (F := Ideal) x2 xs (ix2 a 0) = xs (ix2 a 0) + cntTile y ⟨i.val * 1024 + a.val, by omega⟩ j := by
  rw [pay4_apply]
  unfold cntTile
  simp only [h2]

/-! ## The accumulators after each point -/

variable (V : (c : Dev nD) → (b : Ref sig .tc) → Buf (Elt Ideal) ((c : Thread nD τ).loc b))

theorem outsAt0_congr (c : Dev nD) {n n' : ℕ} (e : n = n') (h : n < cfg0.N) (h' : n' < cfg0.N) :
    outsAt0 V c n h = outsAt0 V c n' h' := by subst e; rfl

/-- At the first column tile of a row block the accumulators hold the first tile's sums. -/
theorem acc_first (c : Dev nD) (n : ℕ) (hn : n < cfg0.N) (i j : Fin 8) (ht : n = i.val * 8 + j.val) (hj : j.val = 0)
    (a : Fin 1024) :
    (outsAt0 V c n hn).2.2.1 (ix2 a 0) = negTile (V c main_v2) (V c main_arg1) ⟨i.val * 1024 + a.val, by omega⟩ j
    ∧ (outsAt0 V c n hn).2.2.2 (ix2 a 0) = cntTile (V c main_arg1) ⟨i.val * 1024 + a.val, by omega⟩ j := by
  have h0 : (⟨n, hn⟩ : Fin cfg0.N).val % 8 = 0 := by show n % 8 = 0; omega
  have hc1 : ¬cond0_1 (grid0.coords ⟨n, hn⟩) := fun h => by
    have h7 : n % 8 = 7 := (hcond0_1 ⟨n, hn⟩).mp h
    omega
  have e : outsAt0 V c n hn = _ := outsAt0_A V c ⟨n, hn⟩ h0 hc1
  rw [e]
  dsimp only
  rw [sout0_A_0_eq, sout0_A_1_eq]
  constructor
  · rw [pay3_tile (V c main_v2) (V c main_arg1) i j _ _ _ _ (iblk0_0_apply V c ⟨n, hn⟩ i j ht)
      (iblk0_1_apply V c ⟨n, hn⟩ i j ht) (iblk0_2_apply V c ⟨n, hn⟩ i j ht) a, pay1_apply, zero_add]
  · rw [pay4_tile (V c main_arg1) i j _ _ (iblk0_2_apply V c ⟨n, hn⟩ i j ht) a, pay2_apply, zero_add]

/-- At a later column tile the accumulators hold what the point before left plus the tile's sums. -/
theorem acc_next (c : Dev nD) (n : ℕ) (hn : n < cfg0.N) (i j : Fin 8) (ht : n = i.val * 8 + j.val) (hj : j.val ≠ 0)
    (hp : n - 1 < cfg0.N) (a : Fin 1024) :
    (outsAt0 V c n hn).2.2.1 (ix2 a 0)
      = (outsAt0 V c (n - 1) hp).2.2.1 (ix2 a 0) + negTile (V c main_v2) (V c main_arg1) ⟨i.val * 1024 + a.val, by omega⟩ j
    ∧ (outsAt0 V c n hn).2.2.2 (ix2 a 0)
      = (outsAt0 V c (n - 1) hp).2.2.2 (ix2 a 0) + cntTile (V c main_arg1) ⟨i.val * 1024 + a.val, by omega⟩ j := by
  have h0 : ¬(⟨n, hn⟩ : Fin cfg0.N).val % 8 = 0 := by show ¬n % 8 = 0; omega
  by_cases h1 : (⟨n, hn⟩ : Fin cfg0.N).val % 8 = 7
  · have e : outsAt0 V c n hn = _ := outsAt0_C V c ⟨n, hn⟩ h0 h1
    rw [e]
    dsimp only
    rw [sout0_C_0_eq, sout0_C_1_eq]
    exact ⟨pay3_tile (V c main_v2) (V c main_arg1) i j _ _ _ _ (iblk0_0_apply V c ⟨n, hn⟩ i j ht)
        (iblk0_1_apply V c ⟨n, hn⟩ i j ht) (iblk0_2_apply V c ⟨n, hn⟩ i j ht) a,
      pay4_tile (V c main_arg1) i j _ _ (iblk0_2_apply V c ⟨n, hn⟩ i j ht) a⟩
  · have e : outsAt0 V c n hn = _ := outsAt0_B V c ⟨n, hn⟩ h0 h1
    rw [e]
    dsimp only
    rw [sout0_B_0_eq, sout0_B_1_eq]
    exact ⟨pay3_tile (V c main_v2) (V c main_arg1) i j _ _ _ _ (iblk0_0_apply V c ⟨n, hn⟩ i j ht)
        (iblk0_1_apply V c ⟨n, hn⟩ i j ht) (iblk0_2_apply V c ⟨n, hn⟩ i j ht) a,
      pay4_tile (V c main_arg1) i j _ _ (iblk0_2_apply V c ⟨n, hn⟩ i j ht) a⟩

/-- At the last column tile the two output buffers hold the accumulators' new contents. -/
theorem out_last (c : Dev nD) (n : ℕ) (hn : n < cfg0.N) (h7 : n % 8 = 7) :
    (outsAt0 V c n hn).1 = (outsAt0 V c n hn).2.2.1 ∧ (outsAt0 V c n hn).2.1 = (outsAt0 V c n hn).2.2.2 := by
  have h0 : ¬(⟨n, hn⟩ : Fin cfg0.N).val % 8 = 0 := by show ¬n % 8 = 0; omega
  have e : outsAt0 V c n hn = _ := outsAt0_C V c ⟨n, hn⟩ h0 h7
  rw [e]
  dsimp only
  rw [out0_C_3_eq, out0_C_4_eq, sout0_C_0_eq, sout0_C_1_eq]
  exact ⟨rfl, rfl⟩

/-- After point 8·i + j the accumulators hold, at row a, the sums of row 1024·i + a over the column tiles 0 … j. -/
theorem acc_inv (c : Dev nD) (i : Fin 8) : ∀ (j : ℕ) (hj : j < 8) (hn : i.val * 8 + j < cfg0.N) (a : Fin 1024),
    (outsAt0 V c (i.val * 8 + j) hn).2.2.1 (ix2 a 0)
      = negPart (V c main_v2) (V c main_arg1) ⟨i.val * 1024 + a.val, by omega⟩ (j + 1)
    ∧ (outsAt0 V c (i.val * 8 + j) hn).2.2.2 (ix2 a 0)
      = cntPart (V c main_arg1) ⟨i.val * 1024 + a.val, by omega⟩ (j + 1)
  | 0, hj, hn, a => by
    obtain ⟨e1, e2⟩ := acc_first V c (i.val * 8 + 0) hn i ⟨0, hj⟩ rfl rfl a
    rw [e1, e2, negPart_one, cntPart_one]
    exact ⟨rfl, rfl⟩
  | j + 1, hj, hn, a => by
    have hp : i.val * 8 + (j + 1) - 1 < cfg0.N := by omega
    have hq : i.val * 8 + j < cfg0.N := by omega
    obtain ⟨e1, e2⟩ := acc_next V c (i.val * 8 + (j + 1)) hn i ⟨j + 1, hj⟩ rfl (Nat.succ_ne_zero j) hp a
    obtain ⟨p1, p2⟩ := acc_inv c i j (by omega) hq a
    have ec : outsAt0 V c (i.val * 8 + (j + 1) - 1) hp = outsAt0 V c (i.val * 8 + j) hq :=
      outsAt0_congr V c (by omega) hp hq
    rw [e1, e2, ec, p1, p2, negPart_succ _ _ _ (j + 1) hj, cntPart_succ _ _ (j + 1) hj]
    exact ⟨rfl, rfl⟩

/-- At the last column tile of row block i the output buffers hold the whole rows' sums. -/
theorem out_rows (c : Dev nD) (i : Fin 8) (hn : i.val * 8 + 7 < cfg0.N) (a : Fin 1024) :
    (outsAt0 V c (i.val * 8 + 7) hn).1 (ix2 a 0) = negMass (V c main_v2) (V c main_arg1) ⟨i.val * 1024 + a.val, by omega⟩
    ∧ (outsAt0 V c (i.val * 8 + 7) hn).2.1 (ix2 a 0) = posCount (V c main_arg1) ⟨i.val * 1024 + a.val, by omega⟩ := by
  obtain ⟨o1, o2⟩ := out_last V c (i.val * 8 + 7) hn (by omega)
  obtain ⟨p1, p2⟩ := acc_inv V c i 7 (by omega) hn a
  rw [o1, o2, p1, p2, negPart_eight, cntPart_eight]
  exact ⟨rfl, rfl⟩

end Cert.KernelIdeal.HandValue

end
-- ==== Proof.KI.Covers.lean ====
/-
  The output columns after a whole pass, row block by row block. An output window's block is the row block
  i = t / 8 of its column; it is written back only at the last column tile of the row block, the points
  t = 8·i + 7, and those eight blocks tile the column. So the column after the pass is, on rows
  1024·i … 1024·i + 1023, what the window's buffer held after point 8·i + 7.
-/
import proofs.«143064_j21449066676923_1_alg».proof.Proof.KI.R0Data
import proofs.«143064_j21449066676923_1_alg».proof.Proof.KI.R1Data
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The last column tile of row block i is a point of the first pass's grid. -/
theorem last_lt0 (i : Fin 8) : i.val * 8 + 7 < cfg0.N := by
  have := i.isLt; have hN : cfg0.N = 64 := N_0; omega
/-- The last column tile of row block i is a point of the second pass's grid. -/
theorem last_lt1 (i : Fin 8) : i.val * 8 + 7 < cfg1.N := by
  have := i.isLt; have hN : cfg1.N = 64 := N_1; omega
/-- Row a of row block i is a row of the column. -/
theorem row_lt (i : Fin 8) (a : Fin 1024) : i.val * 1024 + a.val < 8192 := by
  have := i.isLt; have := a.isLt; omega

/-- Window 3's block index at point t: the row block t / 8, the one column. -/
theorem oidx0_3 : ∀ t : Fin cfg0.N, win0_3.index t (0 : Fin 2) = t.val / 8 ∧ win0_3.index t (1 : Fin 2) = 0 :=
  (by decide +kernel : ∀ t : Fin grid0.N, _)

/-- An index of the column is in point t's block iff each coordinate is in the block's range on its axis. -/
theorem mem_oblk0_3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v3_0).slice (win0_3.rect t)).set ↔ _
  rw [View.set_slice_whole, Rect.mem_set_unit]
  exact Iff.rfl

/-- The column after the pass is G as soon as, for every row block i, the buffer after point 8·i + 7 is
    rows 1024·i … 1024·i + 1023 of G. -/
theorem arrAt0_3_of_last (c : Dev nD) (G : S8192x1.Idx → Elt F .f32)
    (h : ∀ (i : Fin 8) (a : Fin 1024),
      ((dat0 V c).after 3 ⟨i.val * 8 + 7, last_lt0 i⟩ : S1024x1.Idx → Elt F .f32) (ix2 a 0)
        = G (ix2 ⟨i.val * 1024 + a.val, row_lt i a⟩ 0)) :
    (dat0 V c).arrAt 3 cfg0.N = G := by
  have hN : cfg0.N = 64 := N_0
  refine (dat0 V c).arrAt_eq_of_cover 3 G (fun t hf => ?_) (fun i => ?_)
  · -- what a flushing point writes back is its block of G
    have h7 : t.val % 8 = 7 := (flush0_3 t).mp hf
    have htN : t.val < 64 := lt_of_lt_of_eq t.isLt hN
    obtain ⟨e0, e1⟩ := oidx0_3 t
    obtain ⟨r, rfl⟩ : ∃ r : Fin 8, t = ⟨r.val * 8 + 7, last_lt0 r⟩ :=
      ⟨⟨t.val / 8, by omega⟩, Fin.ext (by show t.val = t.val / 8 * 8 + 7; omega)⟩
    show (cfg0.win 3).cut (grid0.coords _) ((dat0 V c).after 3 _) = _
    funext j
    rw [View.read_apply]
    have hj1 : (j 1).val < 1 := (j 1).isLt
    have hj0 : (j 0).val < 1024 := (j 0).isLt
    have hj : j = ix2 (⟨(j 0).val, hj0⟩ : Fin 1024) (0 : Fin 1) := funext fun d => Fin.ext (by
      match d with
      | ⟨0, _⟩ => rfl
      | ⟨1, _⟩ => show (j 1).val = 0; omega)
    have hemb : ((cfg0.win 3).blk ⟨r.val * 8 + 7, last_lt0 r⟩).view.emb j
        = ix2 (⟨r.val * 1024 + (j 0).val, row_lt r ⟨(j 0).val, hj0⟩⟩ : Fin 8192) (0 : Fin 1) := funext fun d => Fin.ext (by
      match d with
      | ⟨0, _⟩ =>
        show win0_3.index ⟨r.val * 8 + 7, last_lt0 r⟩ (0 : Fin 2) * 1024 + 1 * (j 0).val = r.val * 1024 + (j 0).val
        rw [e0]; show (r.val * 8 + 7) / 8 * 1024 + 1 * (j 0).val = _; omega
      | ⟨1, _⟩ =>
        show win0_3.index ⟨r.val * 8 + 7, last_lt0 r⟩ (1 : Fin 2) * 1 + 1 * (j 1).val = 0
        rw [e1]; omega)
    rw [hemb]
    exact (congrArg _ hj).trans (h r ⟨(j 0).val, hj0⟩)
  · -- every row is in the block of its row block's last column tile
    have hi0 : (i 0).val < 8192 := (i 0).isLt
    have hi1 : (i 1).val < 1 := (i 1).isLt
    let r : Fin 8 := ⟨(i 0).val / 1024, by omega⟩
    refine ⟨⟨r.val * 8 + 7, last_lt0 r⟩, (flush0_3 _).mpr (by show (r.val * 8 + 7) % 8 = 7; omega), ?_⟩
    rw [mem_oblk0_3]
    obtain ⟨e0, e1⟩ := oidx0_3 ⟨r.val * 8 + 7, last_lt0 r⟩
    intro a
    match a with
    | ⟨0, _⟩ =>
      show win0_3.index ⟨r.val * 8 + 7, last_lt0 r⟩ (0 : Fin 2) * 1024 ≤ (i 0).val ∧ (i 0).val < win0_3.index ⟨r.val * 8 + 7, last_lt0 r⟩ (0 : Fin 2) * 1024 + 1024
      rw [e0]; show (r.val * 8 + 7) / 8 * 1024 ≤ (i 0).val ∧ (i 0).val < (r.val * 8 + 7) / 8 * 1024 + 1024
      have hr : r.val = (i 0).val / 1024 := rfl
      omega
    | ⟨1, _⟩ =>
      show win0_3.index ⟨r.val * 8 + 7, last_lt0 r⟩ (1 : Fin 2) * 1 ≤ (i 1).val ∧ (i 1).val < win0_3.index ⟨r.val * 8 + 7, last_lt0 r⟩ (1 : Fin 2) * 1 + 1
      rw [e1]; omega

/-- Window 4's block index at point t: the row block t / 8, the one column. -/
theorem oidx0_4 : ∀ t : Fin cfg0.N, win0_4.index t (0 : Fin 2) = t.val / 8 ∧ win0_4.index t (1 : Fin 2) = 0 :=
  (by decide +kernel : ∀ t : Fin grid0.N, _)

/-- An index of the column is in point t's block iff each coordinate is in the block's range on its axis. -/
theorem mem_oblk0_4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v3_1).slice (win0_4.rect t)).set ↔ _
  rw [View.set_slice_whole, Rect.mem_set_unit]
  exact Iff.rfl

/-- The column after the pass is G as soon as, for every row block i, the buffer after point 8·i + 7 is
    rows 1024·i … 1024·i + 1023 of G. -/
theorem arrAt0_4_of_last (c : Dev nD) (G : S8192x1.Idx → Elt F .f32)
    (h : ∀ (i : Fin 8) (a : Fin 1024),
      ((dat0 V c).after 4 ⟨i.val * 8 + 7, last_lt0 i⟩ : S1024x1.Idx → Elt F .f32) (ix2 a 0)
        = G (ix2 ⟨i.val * 1024 + a.val, row_lt i a⟩ 0)) :
    (dat0 V c).arrAt 4 cfg0.N = G := by
  have hN : cfg0.N = 64 := N_0
  refine (dat0 V c).arrAt_eq_of_cover 4 G (fun t hf => ?_) (fun i => ?_)
  · -- what a flushing point writes back is its block of G
    have h7 : t.val % 8 = 7 := (flush0_4 t).mp hf
    have htN : t.val < 64 := lt_of_lt_of_eq t.isLt hN
    obtain ⟨e0, e1⟩ := oidx0_4 t
    obtain ⟨r, rfl⟩ : ∃ r : Fin 8, t = ⟨r.val * 8 + 7, last_lt0 r⟩ :=
      ⟨⟨t.val / 8, by omega⟩, Fin.ext (by show t.val = t.val / 8 * 8 + 7; omega)⟩
    show (cfg0.win 4).cut (grid0.coords _) ((dat0 V c).after 4 _) = _
    funext j
    rw [View.read_apply]
    have hj1 : (j 1).val < 1 := (j 1).isLt
    have hj0 : (j 0).val < 1024 := (j 0).isLt
    have hj : j = ix2 (⟨(j 0).val, hj0⟩ : Fin 1024) (0 : Fin 1) := funext fun d => Fin.ext (by
      match d with
      | ⟨0, _⟩ => rfl
      | ⟨1, _⟩ => show (j 1).val = 0; omega)
    have hemb : ((cfg0.win 4).blk ⟨r.val * 8 + 7, last_lt0 r⟩).view.emb j
        = ix2 (⟨r.val * 1024 + (j 0).val, row_lt r ⟨(j 0).val, hj0⟩⟩ : Fin 8192) (0 : Fin 1) := funext fun d => Fin.ext (by
      match d with
      | ⟨0, _⟩ =>
        show win0_4.index ⟨r.val * 8 + 7, last_lt0 r⟩ (0 : Fin 2) * 1024 + 1 * (j 0).val = r.val * 1024 + (j 0).val
        rw [e0]; show (r.val * 8 + 7) / 8 * 1024 + 1 * (j 0).val = _; omega
      | ⟨1, _⟩ =>
        show win0_4.index ⟨r.val * 8 + 7, last_lt0 r⟩ (1 : Fin 2) * 1 + 1 * (j 1).val = 0
        rw [e1]; omega)
    rw [hemb]
    exact (congrArg _ hj).trans (h r ⟨(j 0).val, hj0⟩)
  · -- every row is in the block of its row block's last column tile
    have hi0 : (i 0).val < 8192 := (i 0).isLt
    have hi1 : (i 1).val < 1 := (i 1).isLt
    let r : Fin 8 := ⟨(i 0).val / 1024, by omega⟩
    refine ⟨⟨r.val * 8 + 7, last_lt0 r⟩, (flush0_4 _).mpr (by show (r.val * 8 + 7) % 8 = 7; omega), ?_⟩
    rw [mem_oblk0_4]
    obtain ⟨e0, e1⟩ := oidx0_4 ⟨r.val * 8 + 7, last_lt0 r⟩
    intro a
    match a with
    | ⟨0, _⟩ =>
      show win0_4.index ⟨r.val * 8 + 7, last_lt0 r⟩ (0 : Fin 2) * 1024 ≤ (i 0).val ∧ (i 0).val < win0_4.index ⟨r.val * 8 + 7, last_lt0 r⟩ (0 : Fin 2) * 1024 + 1024
      rw [e0]; show (r.val * 8 + 7) / 8 * 1024 ≤ (i 0).val ∧ (i 0).val < (r.val * 8 + 7) / 8 * 1024 + 1024
      have hr : r.val = (i 0).val / 1024 := rfl
      omega
    | ⟨1, _⟩ =>
      show win0_4.index ⟨r.val * 8 + 7, last_lt0 r⟩ (1 : Fin 2) * 1 ≤ (i 1).val ∧ (i 1).val < win0_4.index ⟨r.val * 8 + 7, last_lt0 r⟩ (1 : Fin 2) * 1 + 1
      rw [e1]; omega

/-- Window 4's block index at point t: the row block t / 8, the one column. -/
theorem oidx1_4 : ∀ t : Fin cfg1.N, win1_4.index t (0 : Fin 2) = t.val / 8 ∧ win1_4.index t (1 : Fin 2) = 0 :=
  (by decide +kernel : ∀ t : Fin grid1.N, _)

/-- An index of the column is in point t's block iff each coordinate is in the block's range on its axis. -/
theorem mem_oblk1_4 (t : Fin cfg1.N) (i : S8192x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v4).slice (win1_4.rect t)).set ↔ _
  rw [View.set_slice_whole, Rect.mem_set_unit]
  exact Iff.rfl

/-- The column after the pass is G as soon as, for every row block i, the buffer after point 8·i + 7 is
    rows 1024·i … 1024·i + 1023 of G. -/
theorem arrAt1_4_of_last (c : Dev nD) (G : S8192x1.Idx → Elt F .f32)
    (h : ∀ (i : Fin 8) (a : Fin 1024),
      ((dat1 V c).after 4 ⟨i.val * 8 + 7, last_lt1 i⟩ : S1024x1.Idx → Elt F .f32) (ix2 a 0)
        = G (ix2 ⟨i.val * 1024 + a.val, row_lt i a⟩ 0)) :
    (dat1 V c).arrAt 4 cfg1.N = G := by
  have hN : cfg1.N = 64 := N_1
  refine (dat1 V c).arrAt_eq_of_cover 4 G (fun t hf => ?_) (fun i => ?_)
  · -- what a flushing point writes back is its block of G
    have h7 : t.val % 8 = 7 := (flush1_4 t).mp hf
    have htN : t.val < 64 := lt_of_lt_of_eq t.isLt hN
    obtain ⟨e0, e1⟩ := oidx1_4 t
    obtain ⟨r, rfl⟩ : ∃ r : Fin 8, t = ⟨r.val * 8 + 7, last_lt1 r⟩ :=
      ⟨⟨t.val / 8, by omega⟩, Fin.ext (by show t.val = t.val / 8 * 8 + 7; omega)⟩
    show (cfg1.win 4).cut (grid1.coords _) ((dat1 V c).after 4 _) = _
    funext j
    rw [View.read_apply]
    have hj1 : (j 1).val < 1 := (j 1).isLt
    have hj0 : (j 0).val < 1024 := (j 0).isLt
    have hj : j = ix2 (⟨(j 0).val, hj0⟩ : Fin 1024) (0 : Fin 1) := funext fun d => Fin.ext (by
      match d with
      | ⟨0, _⟩ => rfl
      | ⟨1, _⟩ => show (j 1).val = 0; omega)
    have hemb : ((cfg1.win 4).blk ⟨r.val * 8 + 7, last_lt1 r⟩).view.emb j
        = ix2 (⟨r.val * 1024 + (j 0).val, row_lt r ⟨(j 0).val, hj0⟩⟩ : Fin 8192) (0 : Fin 1) := funext fun d => Fin.ext (by
      match d with
      | ⟨0, _⟩ =>
        show win1_4.index ⟨r.val * 8 + 7, last_lt1 r⟩ (0 : Fin 2) * 1024 + 1 * (j 0).val = r.val * 1024 + (j 0).val
        rw [e0]; show (r.val * 8 + 7) / 8 * 1024 + 1 * (j 0).val = _; omega
      | ⟨1, _⟩ =>
        show win1_4.index ⟨r.val * 8 + 7, last_lt1 r⟩ (1 : Fin 2) * 1 + 1 * (j 1).val = 0
        rw [e1]; omega)
    rw [hemb]
    exact (congrArg _ hj).trans (h r ⟨(j 0).val, hj0⟩)
  · -- every row is in the block of its row block's last column tile
    have hi0 : (i 0).val < 8192 := (i 0).isLt
    have hi1 : (i 1).val < 1 := (i 1).isLt
    let r : Fin 8 := ⟨(i 0).val / 1024, by omega⟩
    refine ⟨⟨r.val * 8 + 7, last_lt1 r⟩, (flush1_4 _).mpr (by show (r.val * 8 + 7) % 8 = 7; omega), ?_⟩
    rw [mem_oblk1_4]
    obtain ⟨e0, e1⟩ := oidx1_4 ⟨r.val * 8 + 7, last_lt1 r⟩
    intro a
    match a with
    | ⟨0, _⟩ =>
      show win1_4.index ⟨r.val * 8 + 7, last_lt1 r⟩ (0 : Fin 2) * 1024 ≤ (i 0).val ∧ (i 0).val < win1_4.index ⟨r.val * 8 + 7, last_lt1 r⟩ (0 : Fin 2) * 1024 + 1024
      rw [e0]; show (r.val * 8 + 7) / 8 * 1024 ≤ (i 0).val ∧ (i 0).val < (r.val * 8 + 7) / 8 * 1024 + 1024
      have hr : r.val = (i 0).val / 1024 := rfl
      omega
    | ⟨1, _⟩ =>
      show win1_4.index ⟨r.val * 8 + 7, last_lt1 r⟩ (1 : Fin 2) * 1 ≤ (i 1).val ∧ (i 1).val < win1_4.index ⟨r.val * 8 + 7, last_lt1 r⟩ (1 : Fin 2) * 1 + 1
      rw [e1]; omega

end Cert.KernelIdeal.HandValue

end
-- ==== Proof.KI.R0Value.lean ====
/-
  Region 0: what its two output arrays hold after the whole region. The output windows are written back only at
  the last column tile of each row block, and there their buffers hold the whole rows' sums; the eight write-backs
  cover the 8192 rows, block i holding rows 1024·i … 1024·i + 1023. So the first output column ends at the
  negatives' mass of every row and the second at the positives' count.
-/
import proofs.«143064_j21449066676923_1_alg».proof.Proof.KI.R0Acc
import proofs.«143064_j21449066676923_1_alg».proof.Proof.KI.Covers

set_option maxRecDepth 16384

noncomputable section

open scoped BigOperators

namespace Cert.KernelIdeal.HandValue

open Cert.KernelIdeal Cert.KernelIdeal.Gen Cert.KernelIdeal.Hand Cert.Contrastive
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The negatives' mass of every row, as a column. -/
def negCol (c : Dev nD) : S8192x1.Idx → EReal := fun idx => negMass (V c main_v2) (V c main_arg1) (idx 0)
/-- The positives' count of every row, as a column. -/
def cntCol (c : Dev nD) : S8192x1.Idx → EReal := fun idx => posCount (V c main_arg1) (idx 0)

/-- After the region the first output column holds, at row r, the negatives' mass of row r. -/
theorem r0_neg (c : Dev nD) (r : Fin 8192) :
    (dat0 (F := Ideal) V c).arrAt 3 cfg0.N (ix2 r 0) = negMass (V c main_v2) (V c main_arg1) r := by
  have h := arrAt0_3_of_last V c (negCol V c) fun i a => by
    rw [after0_3]
    exact (out_rows V c i _ a).1
  rw [h]
  rfl

/-- After the region the second output column holds, at row r, the positives' count of row r. -/
theorem r0_cnt (c : Dev nD) (r : Fin 8192) :
    (dat0 (F := Ideal) V c).arrAt 4 cfg0.N (ix2 r 0) = posCount (V c main_arg1) r := by
  have h := arrAt0_4_of_last V c (cntCol V c) fun i a => by
    rw [after0_4]
    exact (out_rows V c i _ a).2
  rw [h]
  rfl

end Cert.KernelIdeal.HandValue

end
-- ==== Proof.KI.R1Blocks.lean ====
/-
  Region 1's blocks at coordinates. The region runs on an 8 × 8 grid of (row block i, column tile j); point t
  has i = t / 8 and j = t mod 8. Window 0 reads rows i·1024 … of the normalised features, window 1 rows
  j·1024 …, window 2 block (i, j) of the labels, window 3 rows i·1024 … of the negatives' mass, and the output
  window 4 is rows i·1024 … of the result column. An element (a, k) of a block sits in its array at
  block index × block size + its own coordinate on each axis.
-/
import proofs.«143064_j21449066676923_1_alg».proof.Proof.KI.R1Data
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)
open scoped BigOperators

variable {F : FTy → Type} [FloatOps F]
variable (V : (c : Dev nD) → (b : Ref sig .tc) → Buf (Elt F) ((c : Thread nD τ).loc b))

/-- The five windows' block indices at point t, decided over the 64 points: row block t / 8, column tile t mod 8. -/
theorem idx1_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8
    ∧ win1_3.index t (0 : Fin 2) = t.val / 8 ∧ win1_3.index t (1 : Fin 2) = 0
    ∧ win1_4.index t (0 : Fin 2) = t.val / 8 ∧ win1_4.index t (1 : Fin 2) = 0 :=
  (by decide +kernel : ∀ t : Fin grid1.N, _)

/-- Window 0's block at point t: row a of it is row (t / 8)·1024 + a of the normalised features. -/
theorem iblk1_0_apply (c : Dev nD) (t : Fin cfg1.N) (a : Fin 1024) (k : Fin 128) (r : Fin 8192)
    (hr : r.val = t.val / 8 * 1024 + a.val) :
    (iblk1 V c 0 t : Vec F S1024x128 .f32) (ix2 a k) = (V c main_v2 : S8192x128.Idx → Elt F .f32) (ix2 r k) := by
  unfold iblk1
  rw [View.read_apply]
  show (V c main_v2 : S8192x128.Idx → Elt F .f32) (((cfg1.win 0).blk t).view.emb (ix2 a k)) = _
  obtain ⟨h0, h1, -⟩ := idx1_facts t
  refine congrArg _ (funext fun d => Fin.ext ?_)
  match d with
  | ⟨0, _⟩ => show win1_0.index t (0 : Fin 2) * 1024 + 1 * a.val = r.val; rw [h0, hr]; omega
  | ⟨1, _⟩ => show win1_0.index t (1 : Fin 2) * 128 + 1 * k.val = k.val; rw [h1]; omega

/-- Window 1's block at point t: row b of it is row (t mod 8)·1024 + b of the normalised features. -/
theorem iblk1_1_apply (c : Dev nD) (t : Fin cfg1.N) (b : Fin 1024) (k : Fin 128) (q : Fin 8192)
    (hq : q.val = t.val % 8 * 1024 + b.val) :
    (iblk1 V c 1 t : Vec F S1024x128 .f32) (ix2 b k) = (V c main_v2 : S8192x128.Idx → Elt F .f32) (ix2 q k) := by
  unfold iblk1
  rw [View.read_apply]
  show (V c main_v2 : S8192x128.Idx → Elt F .f32) (((cfg1.win 1).blk t).view.emb (ix2 b k)) = _
  obtain ⟨-, -, h0, h1, -⟩ := idx1_facts t
  refine congrArg _ (funext fun d => Fin.ext ?_)
  match d with
  | ⟨0, _⟩ => show win1_1.index t (0 : Fin 2) * 1024 + 1 * b.val = q.val; rw [h0, hq]; omega
  | ⟨1, _⟩ => show win1_1.index t (1 : Fin 2) * 128 + 1 * k.val = k.val; rw [h1]; omega

/-- Window 2's block at point t: entry (a, b) of it is entry ((t / 8)·1024 + a, (t mod 8)·1024 + b) of the labels. -/
theorem iblk1_2_apply (c : Dev nD) (t : Fin cfg1.N) (a b : Fin 1024) (r q : Fin 8192)
    (hr : r.val = t.val / 8 * 1024 + a.val) (hq : q.val = t.val % 8 * 1024 + b.val) :
    (iblk1 V c 2 t : Vec F S1024x1024 .f32) (ix2 a b) = (V c main_arg1 : S8192x8192.Idx → Elt F .f32) (ix2 r q) := by
  unfold iblk1
  rw [View.read_apply]
  show (V c main_arg1 : S8192x8192.Idx → Elt F .f32) (((cfg1.win 2).blk t).view.emb (ix2 a b)) = _
  obtain ⟨-, -, -, -, h0, h1, -⟩ := idx1_facts t
  refine congrArg _ (funext fun d => Fin.ext ?_)
  match d with
  | ⟨0, _⟩ => show win1_2.index t (0 : Fin 2) * 1024 + 1 * a.val = r.val; rw [h0, hr]; omega
  | ⟨1, _⟩ => show win1_2.index t (1 : Fin 2) * 1024 + 1 * b.val = q.val; rw [h1, hq]; omega

/-- Window 3's block at point t: row a of it is row (t / 8)·1024 + a of the negatives' mass. -/
theorem iblk1_3_apply (c : Dev nD) (t : Fin cfg1.N) (a : Fin 1024) (z : Fin 1) (r : Fin 8192)
    (hr : r.val = t.val / 8 * 1024 + a.val) :
    (iblk1 V c 3 t : Vec F S1024x1 .f32) (ix2 a z) = (V c main_v3_0 : S8192x1.Idx → Elt F .f32) (ix2 r z) := by
  unfold iblk1
  rw [View.read_apply]
  show (V c main_v3_0 : S8192x1.Idx → Elt F .f32) (((cfg1.win 3).blk t).view.emb (ix2 a z)) = _
  obtain ⟨-, -, -, -, -, -, h0, h1, -⟩ := idx1_facts t
  refine congrArg _ (funext fun d => Fin.ext ?_)
  match d with
  | ⟨0, _⟩ => show win1_3.index t (0 : Fin 2) * 1024 + 1 * a.val = r.val; rw [h0, hr]; omega
  | ⟨1, _⟩ => show win1_3.index t (1 : Fin 2) * 1 + 1 * z.val = z.val; rw [h1]; omega

/-- The output window's block at point t: its row a is row (t / 8)·1024 + a of the result column. -/
theorem oblk1_4_emb (t : Fin cfg1.N) (a : Fin 1024) (z : Fin 1) (r : Fin 8192)
    (hr : r.val = t.val / 8 * 1024 + a.val) :
    (((cfg1.win 4).blk t).view.emb (ix2 a z) : S8192x1.Idx) = ix2 r z := by
  obtain ⟨-, -, -, -, -, -, -, -, h0, h1⟩ := idx1_facts t
  refine funext fun d => Fin.ext ?_
  match d with
  | ⟨0, _⟩ => show win1_4.index t (0 : Fin 2) * 1024 + 1 * a.val = r.val; rw [h0, hr]; omega
  | ⟨1, _⟩ => show win1_4.index t (1 : Fin 2) * 1 + 1 * z.val = z.val; rw [h1]; omega

end Cert.KernelIdeal.HandValue

end
-- ==== Proof.KI.R1Acc.lean ====
/-
  Region 1's accumulator over the extended reals. At every point the body adds to the accumulator the sum, over the
  point's column tile, of the difference-form terms of its row block; at the first column tile it zeroes the
  accumulator first, and at the last it copies the accumulator to the output buffer. So after point t = i·8 + j the
  accumulator's row a holds the terms of array row i·1024 + a summed over the column tiles 0 … j, and at j = 7 the
  output buffer holds the whole row sum.
-/
import proofs.«143064_j21449066676923_1_alg».proof.Proof.KI.R1Blocks
import proofs.«143064_j21449066676923_1_alg».proof.Proof.KI.Payloads
import proofs.«143064_j21449066676923_1_alg».proof.Proof.Algebra

set_option maxRecDepth 16384

noncomputable section

namespace Cert.KernelIdeal.HandValue

open Cert.KernelIdeal Cert.KernelIdeal.Gen Cert.KernelIdeal.Hand Cert.Contrastive
open Idealize.ShloMosaic Idealize.ShloMosaic.ValueIdx Idealize.ShloMosaic.TcCoe Idealize.SL.Sem
open Idealize.ShloMosaic.Pipeline (Dat)
open scoped BigOperators

/-! ## What a point leaves in the accumulator, as the payload of its blocks -/

section Generic
variable {F : FTy → Type} [FloatOps F]
variable (V : (c : Dev nD) → (b : Ref sig .tc) → Buf (Elt F) ((c : Thread nD τ).loc b))

/-- At the first column tile of a row block (t ≡ 0 mod 8) the accumulator is zeroed and then takes the tile's sum. -/
theorem acc1_first (c : Dev nD) (t : Fin cfg1.N) (h0 : t.val % 8 = 0) :
    (outsAt1 V c t.val t.isLt).2
      = k1_pay2 (iblk1 V c 0 t) (iblk1 V c 1 t) (iblk1 V c 2 t) (iblk1 V c 3 t) k1_pay1 := by
  have hc1 : ¬cond1_1 (grid1.coords t) := fun h => by have := (hcond1_1 t).mp h; omega
  rw [outsAt1_A V c t h0 hc1]
  dsimp only
  exact sout1_A_0_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) hc1 (iblk1 V c 0 t) (iblk1 V c 1 t) (iblk1 V c 2 t) (iblk1 V c 3 t)

/-- At every later column tile it takes the tile's sum on top of what the point before left. -/
theorem acc1_next (c : Dev nD) (t : Fin cfg1.N) (h0 : ¬t.val % 8 = 0) :
    (outsAt1 V c t.val t.isLt).2
      = k1_pay2 (iblk1 V c 0 t) (iblk1 V c 1 t) (iblk1 V c 2 t) (iblk1 V c 3 t)
          (outsAt1 V c (t.val - 1) (Nat.lt_of_le_of_lt (Nat.sub_le _ _) t.isLt)).2 := by
  by_cases h1 : t.val % 8 = 7
  · rw [outsAt1_C V c t h0 h1]
    dsimp only
    exact sout1_C_0_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2
  · rw [outsAt1_B V c t h0 h1]
    dsimp only
    exact sout1_B_0_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2

/-- At the last column tile (t ≡ 7 mod 8) the output buffer is a copy of the accumulator. -/
theorem out1_last (c : Dev nD) (t : Fin cfg1.N) (h7 : t.val % 8 = 7) :
    (outsAt1 V c t.val t.isLt).1 = (outsAt1 V c t.val t.isLt).2 := by
  have h0 : ¬t.val % 8 = 0 := by omega
  rw [outsAt1_C V c t h0 h7]
  dsimp only
  exact (out1_C_4_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h7) (iblk1 V c 0 t) (iblk1 V c 1 t) (iblk1 V c 2 t) (iblk1 V c 3 t) (outsAt1 V c (t.val - 1) (Nat.lt_of_le_of_lt (Nat.sub_le _ _) t.isLt)).2).trans
    (sout1_C_0_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h7) (iblk1 V c 0 t) (iblk1 V c 1 t) (iblk1 V c 2 t) (iblk1 V c 3 t) (outsAt1 V c (t.val - 1) (Nat.lt_of_le_of_lt (Nat.sub_le _ _) t.isLt)).2).symm

end Generic

/-! ## The accumulator over the extended reals: partial sums over the column tiles -/

variable (V : (c : Dev nD) → (b : Ref sig .tc) → Buf (Elt Ideal) ((c : Thread nD τ).loc b))

/-- Column b of column tile j (the tile taken mod 8, so that the term is defined for every natural j). -/
def col1 (j : ℕ) (b : Fin 1024) : Fin 8192 := ⟨j % 8 * 1024 + b.val, by have := b.isLt; omega⟩

theorem col1_congr {j j' : ℕ} (h : j % 8 = j' % 8) : col1 j = col1 j' :=
  funext fun b => Fin.ext (by show j % 8 * 1024 + b.val = j' % 8 * 1024 + b.val; rw [h])

/-- Row r's terms over column tile j, summed: Σ_b (log c(r,q) − log (c(r,q) + n(r)))·y(r,q) at q = j·1024 + b. -/
def tile1 (c : Dev nD) (r : Fin 8192) (j : ℕ) : EReal :=
  ∑ b : Fin 1024, logDiff (sim (V c main_v2) r (col1 j b)) ((V c main_v3_0 : S8192x1.Idx → EReal) (ix2 r 0))
    ((V c main_arg1 : S8192x8192.Idx → EReal) (ix2 r (col1 j b)))

theorem tile1_congr (c : Dev nD) (r : Fin 8192) {j j' : ℕ} (h : j % 8 = j' % 8) : tile1 V c r j = tile1 V c r j' := by
  unfold tile1; rw [col1_congr h]

/-- The payload at point t on its blocks adds to row a of the accumulator the terms of array row (t / 8)·1024 + a
    over column tile t mod 8. -/
theorem pay1_step (c : Dev nD) (t : Fin cfg1.N) (xs : Vec Ideal S1024x1 .f32) (a : Fin 1024) (r : Fin 8192)
    (hr : r.val = t.val / 8 * 1024 + a.val) :
    k1_pay2 (iblk1 V c 0 t) (iblk1 V c 1 t) (iblk1 V c 2 t) (iblk1 V c 3 t) xs (ix2 a 0)
      = xs (ix2 a 0) + tile1 V c r t.val := by
  refine (k1pay2_apply (iblk1 V c 0 t) (iblk1 V c 1 t) (iblk1 V c 2 t) (iblk1 V c 3 t) xs a).trans ?_
  refine congrArg (fun s => xs (ix2 a 0) + s) (Finset.sum_congr rfl fun b _ => ?_)
  have e3 := iblk1_3_apply V c t a 0 r hr
  have e2 := iblk1_2_apply V c t a b r (col1 t.val b) hr rfl
  have e0 : ∀ k : Fin 128, (iblk1 V c 0 t : Vec Ideal S1024x128 .f32) (ix2 a k) = (V c main_v2 : S8192x128.Idx → EReal) (ix2 r k) :=
    fun k => iblk1_0_apply V c t a k r hr
  have e1 : ∀ k : Fin 128, (iblk1 V c 1 t : Vec Ideal S1024x128 .f32) (ix2 b k) = (V c main_v2 : S8192x128.Idx → EReal) (ix2 (col1 t.val b) k) :=
    fun k => iblk1_1_apply V c t b k (col1 t.val b) rfl
  exact congr (congr (congrArg logDiff (congrArg Ideal.exp (congrArg (fun s => Ideal.div s tau)
    (Finset.sum_congr rfl fun k _ => congr (congrArg HMul.hMul (e0 k)) (e1 k))))) e3) e2

/-- THE INVARIANT. After point n, row a of the accumulator holds the terms of array row (n / 8)·1024 + a summed over the
    column tiles 0 … n mod 8. -/
theorem acc1_eq (c : Dev nD) : ∀ (n : ℕ) (hn : n < cfg1.N) (a : Fin 1024) (r : Fin 8192), r.val = n / 8 * 1024 + a.val →
    (outsAt1 V c n hn).2 (ix2 a 0) = ∑ j ∈ Finset.range (n % 8 + 1), tile1 V c r j := by
  intro n
  induction n with
  | zero =>
    intro hn a r hr
    rw [acc1_first V c ⟨0, hn⟩ rfl, pay1_step V c ⟨0, hn⟩ _ a r hr, k1pay1_apply a, zero_add]
    exact (Finset.sum_range_one _).symm
  | succ n ih =>
    intro hn a r hr
    by_cases h0 : (n + 1) % 8 = 0
    · rw [acc1_first V c ⟨n + 1, hn⟩ h0, pay1_step V c ⟨n + 1, hn⟩ _ a r hr, k1pay1_apply a, zero_add, h0]
      exact (tile1_congr V c r (by show (n + 1) % 8 = 0 % 8; omega)).trans (Finset.sum_range_one _).symm
    · rw [acc1_next V c ⟨n + 1, hn⟩ h0, pay1_step V c ⟨n + 1, hn⟩ _ a r hr]
      have hr' : r.val = n / 8 * 1024 + a.val := by rw [hr]; show (n + 1) / 8 * 1024 + _ = _; omega
      show (outsAt1 V c n _).2 (ix2 a 0) + tile1 V c r (n + 1) = _
      rw [ih (Nat.lt_of_succ_lt hn) a r hr', show (n + 1) % 8 + 1 = (n % 8 + 1) + 1 from by omega, Finset.sum_range_succ _ (n % 8 + 1)]
      exact congrArg _ (tile1_congr V c r (by omega))

/-- The column tiles together are the whole row: Σ over the eight tiles is the row sum. -/
theorem tiles1_eq_row (c : Dev nD) (r : Fin 8192) :
    ∑ j ∈ Finset.range 8, tile1 V c r j
      = rowDiff (V c main_v2) (V c main_arg1) (fun r' => (V c main_v3_0 : S8192x1.Idx → EReal) (ix2 r' 0)) r := by
  unfold rowDiff
  rw [sum_tiles, Finset.sum_range]
  refine Finset.sum_congr rfl fun j _ => ?_
  unfold tile1
  refine Finset.sum_congr rfl fun b _ => ?_
  have e : col1 j.val b = ⟨j.val * 1024 + b.val, by have := j.isLt; have := b.isLt; omega⟩ :=
    Fin.ext (by show j.val % 8 * 1024 + b.val = j.val * 1024 + b.val; rw [Nat.mod_eq_of_lt j.isLt])
  rw [e]

/-- At a point that writes back (t ≡ 7 mod 8), row a of the output buffer holds the whole row sum of array row
    (t / 8)·1024 + a. -/
theorem out1_row (c : Dev nD) (t : Fin cfg1.N) (h7 : t.val % 8 = 7) (a : Fin 1024) (r : Fin 8192)
    (hr : r.val = t.val / 8 * 1024 + a.val) :
    (outsAt1 V c t.val t.isLt).1 (ix2 a 0)
      = rowDiff (V c main_v2) (V c main_arg1) (fun r' => (V c main_v3_0 : S8192x1.Idx → EReal) (ix2 r' 0)) r := by
  rw [out1_last V c t h7, acc1_eq V c t.val t.isLt a r hr, h7]
  exact tiles1_eq_row V c r

end Cert.KernelIdeal.HandValue

end
-- ==== Proof.KI.R1Value.lean ====
/-
  Region 1 read to its value. Only the points that close a row block (t ≡ 7 mod 8) write the output window back, and
  what such a point writes is rows (t / 8)·1024 … of the row sums; these eight blocks tile the result column, so after
  the region row r of it holds the row sum of r: Σ_q (log c(r,q) − log (c(r,q) + n(r)))·y(r,q) over all 8192 columns.
-/
import proofs.«143064_j21449066676923_1_alg».proof.Proof.KI.R1Acc

set_option maxRecDepth 16384

noncomputable section

namespace Cert.KernelIdeal.HandValue

open Cert.KernelIdeal Cert.KernelIdeal.Gen Cert.KernelIdeal.Hand Cert.Contrastive
open Idealize.ShloMosaic Idealize.ShloMosaic.ValueIdx Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- The result column as one function of the arrays the region was entered with: row r holds the row sum in the
    difference form, over the negatives' mass the region finds. -/
def rows1 (c : Dev nD) : S8192x1.Idx → EReal := fun i =>
  rowDiff (V c main_v2) (V c main_arg1) (fun r' => (V c main_v3_0 : S8192x1.Idx → EReal) (ix2 r' 0)) ⟨(i 0).val, idx2_lt0 i⟩

/-- What a point that writes back (t ≡ 7 mod 8) writes is its block of the result column. -/
theorem flushed1_4_eq (c : Dev nD) (t : Fin cfg1.N) (hf : (cfg1.win 4).flush t = true) :
    (dat1 (F := Ideal) V c).flushed 4 t = ((cfg1.win 4).blk t).view.read (Elt Ideal) (rows1 V c) := by
  have h7 : t.val % 8 = 7 := (flush1_4 t).mp hf
  have hN : t.val < 64 := lt_of_lt_of_eq t.isLt (show cfg1.N = 64 from N_1)
  show (cfg1.win 4).cut (grid1.coords t) ((dat1 (F := Ideal) V c).after 4 t) = _
  rw [after1_4]
  funext y
  obtain ⟨a, z, rfl⟩ : ∃ (a : Fin 1024) (z : Fin 1), y = ix2 a z := ⟨y 0, y 1, eq_ix2 y⟩
  obtain rfl : z = 0 := Subsingleton.elim _ _
  rw [View.read_apply]
  have hr : t.val / 8 * 1024 + a.val < 8192 := by have := a.isLt; omega
  show (outsAt1 V c t.val t.isLt).1 (ix2 a 0) = rows1 V c (((cfg1.win 4).blk t).view.emb (ix2 a 0))
  rw [oblk1_4_emb t a 0 ⟨t.val / 8 * 1024 + a.val, hr⟩ rfl]
  exact out1_row V c t h7 a ⟨t.val / 8 * 1024 + a.val, hr⟩ rfl

/-- A row of the result column is in point t's block iff it lies in the block's range of rows. -/
theorem mem_blk1_4 (t : Fin cfg1.N) (i : S8192x1.Idx) :
    i ∈ ((cfg1.win 4).blk t).view.set
      ↔ ∀ d : Fin 2, win1_4.index t d * S1024x1.size d ≤ (i d).val ∧ (i d).val < win1_4.index t d * S1024x1.size d + S1024x1.size d := by
  show i ∈ ((View.whole main_v4).slice (win1_4.rect t)).set ↔ _
  rw [View.set_slice_whole, Rect.mem_set_unit]
  exact Iff.rfl

/-- Every row of the result column is in the block of the point that closes its row block: row r in that of point
    (r / 1024)·8 + 7, which writes back. -/
theorem cover1_4 (i : S8192x1.Idx) :
    ∃ t : Fin cfg1.N, (cfg1.win 4).flush t = true ∧ i ∈ ((cfg1.win 4).blk t).view.set := by
  have hi0 : (i 0).val < 8192 := idx2_lt0 i
  have hi1 : (i 1).val < 1 := idx2_lt1 i
  have hN : cfg1.N = 64 := N_1
  have ht : (i 0).val / 1024 * 8 + 7 < cfg1.N := by rw [hN]; omega
  obtain ⟨-, -, -, -, -, -, -, -, h0, h1⟩ := idx1_facts ⟨(i 0).val / 1024 * 8 + 7, ht⟩
  refine ⟨⟨(i 0).val / 1024 * 8 + 7, ht⟩, (flush1_4 _).mpr (by show ((i 0).val / 1024 * 8 + 7) % 8 = 7; omega), ?_⟩
  rw [mem_blk1_4]
  intro d
  match d with
  | ⟨0, _⟩ =>
    show win1_4.index ⟨(i 0).val / 1024 * 8 + 7, ht⟩ (0 : Fin 2) * 1024 ≤ (i 0).val
      ∧ (i 0).val < win1_4.index ⟨(i 0).val / 1024 * 8 + 7, ht⟩ (0 : Fin 2) * 1024 + 1024
    rw [h0]
    show ((i 0).val / 1024 * 8 + 7) / 8 * 1024 ≤ (i 0).val ∧ (i 0).val < ((i 0).val / 1024 * 8 + 7) / 8 * 1024 + 1024
    omega
  | ⟨1, _⟩ =>
    show win1_4.index ⟨(i 0).val / 1024 * 8 + 7, ht⟩ (1 : Fin 2) * 1 ≤ (i 1).val
      ∧ (i 1).val < win1_4.index ⟨(i 0).val / 1024 * 8 + 7, ht⟩ (1 : Fin 2) * 1 + 1
    rw [h1]
    omega

/-- So after the region the result column holds every row's sum. -/
theorem final1_4 (c : Dev nD) : (dat1 (F := Ideal) V c).arrAt 4 cfg1.N = rows1 V c :=
  (dat1 (F := Ideal) V c).arrAt_eq_of_cover 4 (rows1 V c) (flushed1_4_eq V c) cover1_4

/-- REGION 1 READ: row r of the result column is the row sum, in the difference form, of the features, the labels and
    the negatives' mass the region was entered with. -/
theorem r1_row (V : (c : Dev nD) → (b : Ref sig .tc) → Buf (Elt Ideal) ((c : Thread nD τ).loc b)) (c : Dev nD) (r : Fin 8192) :
    (dat1 (F := Ideal) V c).arrAt 4 cfg1.N (ix2 r 0) = rowDiff (V c main_v2) (V c main_arg1) (fun r' => V c main_v3_0 (ix2 r' 0)) r :=
  congrFun (final1_4 V c) (ix2 r 0)

end Cert.KernelIdeal.HandValue

end
-- ==== Proof.RefValue.lean ====
/-
  The reference's result read index by index: with xn the row-normalised features the reference
  forms first, its similarity matrix is c(r,q) = exp ((Σ_k xn(r,k)·xn(q,k)) / τ), its row reductions are
  the negatives' mass, the positives' count and the quotient-form row sum, and its scalar result is
  the loss of those.
-/
import proofs.«143064_j21449066676923_1_alg».proof.Proof.Gen.ReferenceIdeal.Read
import Idealize.ShloMosaic.Lib.ValueIdx
import Idealize.ShloMosaic.Lib.Pipeline.Value
import Idealize.ShloMosaic.PureOps.Ideal.Laws
import proofs.«143064_j21449066676923_1_alg».proof.Proof.Spec
import proofs.«143064_j21449066676923_1_alg».proof.Proof.Algebra

noncomputable section

open scoped BigOperators

namespace Cert.Contrastive.Ref

open Cert.ReferenceIdeal Cert.ReferenceIdeal.Gen Idealize.ShloMosaic Idealize.ShloMosaic.ValueIdx Cert.Contrastive

/-- The row-normalised features: every row of x divided by its Euclidean norm. -/
def xnorm (x : FVec Ideal S8192x128 .f32) : FVec Ideal S8192x128 .f32 :=
  Host.divf (F := Ideal) x (broadcastInDim S8192x128 ![0, 1] bcast_S8192x1_S8192x128_0_1
    (Host.sqrt (F := Ideal) (broadcastInDim S8192x1 ![0] bcast_S8192_S8192x1_0
      (Host.reduceAdd (F := Ideal) (mulf (F := Ideal) x x) (constant (F := Ideal) S_ .f32 0x00000000#32)
        reducesTo_S8192x128_S8192_d1 h_S_))))

/-- The reference's normalised features are xnorm of its first argument. -/
theorem xnorm_eq (x : FVec Ideal S8192x128 .f32) : Read.val_main_v2 (F := Ideal) x = xnorm x := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The similarity matrix: entry (r,q) of the exponential is c(r,q). -/
theorem sim_read (x : FVec Ideal S8192x128 .f32) (r q : Fin 8192) :
    Read.val_main_v7 (F := Ideal) x (ix2 r q) = sim (xnorm x) r q := by
  rw [Read.val_main_v7_apply, Read.val_main_v6_apply, Read.val_main_v4_apply, Read.val_main_v5_apply,
    Read.val_main_cst_apply]
  have e1 : ∀ k : Fin 128, Read.lidx_main_v4 (ix2 r q) k = ix2 r k := fun k =>
    funext fun a => by match a with | ⟨0, _⟩ => rfl | ⟨1, _⟩ => rfl
  have e2 : ∀ k : Fin 128, Read.idx_main_v3 (Read.ridx_main_v4 (ix2 r q) k) = ix2 q k := fun k =>
    funext fun a => by match a with | ⟨0, _⟩ => rfl | ⟨1, _⟩ => rfl
  simp only [Read.val_main_v3_apply, e1, e2, xnorm_eq]
  rfl

/-- The positives' count: entry r of the row sum of y. -/
theorem posCount_read (y : FVec Ideal S8192x8192 .f32) (r : Fin 8192) :
    Read.val_main_v8 (F := Ideal) y (ix1 r) = posCount y r := by
  rw [Read.val_main_v8_apply, Read.val_main_cst_0_apply]
  simp only [Ideal.ofBits_def, Ideal.ofBits_zero_f32, zero_add]
  unfold posCount
  refine Finset.sum_congr rfl fun k _ => ?_
  exact congrArg y (funext fun a => by match a with | ⟨0, _⟩ => rfl | ⟨1, _⟩ => rfl)

/-- The negatives' mass: entry r of the row sum of c·(1 − y). -/
theorem negMass_read (x : FVec Ideal S8192x128 .f32) (y : FVec Ideal S8192x8192 .f32) (r : Fin 8192) :
    Read.val_main_v12 (F := Ideal) x y (ix1 r) = negMass (xnorm x) y r := by
  rw [Read.val_main_v12_apply, Read.val_main_cst_2_apply]
  simp only [Ideal.ofBits_def, Ideal.ofBits_zero_f32, zero_add]
  unfold negMass
  refine Finset.sum_congr rfl fun k _ => ?_
  have e : Read.idx_main_v12 (ix1 r) k = ix2 r k :=
    funext fun a => by match a with | ⟨0, _⟩ => rfl | ⟨1, _⟩ => rfl
  rw [e, Read.val_main_v11_apply, Read.val_main_v10_apply, Read.val_main_v9_apply, Read.val_main_cst_1_apply,
    sim_read]
  rfl

/-- The quotient-form row sum: entry r of the row sum of log (c / (c + neg))·y. -/
theorem rowQuot_read (x : FVec Ideal S8192x128 .f32) (y : FVec Ideal S8192x8192 .f32) (r : Fin 8192) :
    Read.val_main_v19 (F := Ideal) x y (ix1 r) = rowQuot (xnorm x) y (negMass (xnorm x) y) r := by
  rw [Read.val_main_v19_apply, Read.val_main_cst_3_apply]
  simp only [Ideal.ofBits_def, Ideal.ofBits_zero_f32, zero_add]
  unfold rowQuot
  refine Finset.sum_congr rfl fun k _ => ?_
  have e : Read.idx_main_v19 (ix1 r) k = ix2 r k :=
    funext fun a => by match a with | ⟨0, _⟩ => rfl | ⟨1, _⟩ => rfl
  have e2 : Read.idx_main_v13 (Read.idx_main_v14 (ix2 r k)) = ix1 r :=
    funext fun a => by match a with | ⟨0, _⟩ => rfl
  rw [e, Read.val_main_v18_apply, Read.val_main_v17_apply, Read.val_main_v16_apply, Read.val_main_v15_apply,
    Read.val_main_v14_apply, Read.val_main_v13_apply, e2, negMass_read, sim_read]
  rfl

/-- The reference's scalar result is the loss of the quotient-form row sums and the positives' counts. -/
theorem ref_value (x : FVec Ideal S8192x128 .f32) (y : FVec Ideal S8192x8192 .f32) (i : S_.Idx) :
    Read.val_main_v23 (F := Ideal) x y i
      = loss (rowQuot (xnorm x) y (negMass (xnorm x) y)) (posCount y) := by
  rw [Read.val_main_v23_apply, Read.val_main_v22_apply, Read.val_main_v21_apply, Read.val_main_cst_4_apply,
    Read.val_main_cst_5_apply, sum_idx1]
  simp only [Ideal.ofBits_def, Ideal.ofBits_zero_f32, zero_add, Read.val_main_v20_apply, rowQuot_read,
    posCount_read]
  rfl

/-- The same as an equality of scalar arrays. -/
theorem ref_value_fun (x : FVec Ideal S8192x128 .f32) (y : FVec Ideal S8192x8192 .f32) :
    Read.val_main_v23 (F := Ideal) x y
      = fun _ => loss (rowQuot (xnorm x) y (negMass (xnorm x) y)) (posCount y) :=
  funext fun i => ref_value x y i

end Cert.Contrastive.Ref

end
-- ==== Proof.KI.Bridge.lean ====
/-
  The idealized kernel's result is the reference's. After the two regions the column of row sums holds, at row r,
  the difference-form sum over the row of (log c − log (c + neg r))·y, with neg the negatives' mass region 0 left,
  and the column of counts holds the positives' count; for labels in {0,1} the difference form is the quotient form
  term by term, which is the reference's row sum; the host operations that follow are the reference's last four.
-/
import proofs.«143064_j21449066676923_1_alg».proof.Proof.KI.Regions
import proofs.«143064_j21449066676923_1_alg».proof.Proof.KI.HostSide
import proofs.«143064_j21449066676923_1_alg».proof.Proof.KI.R0Value
import proofs.«143064_j21449066676923_1_alg».proof.Proof.KI.R1Value
import proofs.«143064_j21449066676923_1_alg».proof.Proof.RefValue
import proofs.«143064_j21449066676923_1_alg».proof.Proof.Algebra
import Idealize.ShloMosaic.Lib.ValueLayout
import Idealize.ShloMosaic.Lib.Pipeline.Value

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand Cert.Contrastive

/-- A column [n,1] flattened to [n] reads, at r, the column's entry (r,0). -/
theorem col_flat_apply {α : Type} {n : ℕ} (x : (⟨2, ![n, 1]⟩ : Shape).Idx → α) (h : (⟨2, ![n, 1]⟩ : Shape).ShapeCasts ⟨1, ![n]⟩)
    (r : Fin n) : shapeCast ⟨1, ![n]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- The kernel's normalised features are the reference's, as functions of the first argument. -/
theorem xnormK_eq (x : FVec Ideal S8192x128 .f32) : xnormK x = Cert.Contrastive.Ref.xnorm x := rfl

/-- The kernel's last host operations on the two columns are the reference's last operations on the two vectors. -/
theorem tailK_eq (rows cnt : FVec Ideal S8192x1 .f32) (x : FVec Ideal S8192x128 .f32) (y : FVec Ideal S8192x8192 .f32)
    (hrows : shapeCast S8192 rows shapeCasts_S8192x1_S8192 = Cert.ReferenceIdeal.Read.val_main_v19 (F := Ideal) x y)
    (hcnt : shapeCast S8192 cnt shapeCasts_S8192x1_S8192 = Cert.ReferenceIdeal.Read.val_main_v8 (F := Ideal) y) :
    tailK rows cnt = Cert.ReferenceIdeal.Read.val_main_v23 (F := Ideal) x y := by
  unfold tailK
  rw [hrows, hcnt]
  rfl

variable (m : (ℓ : Loc nD τ sig) → Buf (Elt Ideal) ℓ)

/-- THE VALUE. For labels in {0,1}, after @main the result buffer holds the reference's result term of the same
    arguments. -/
theorem result_eq (c : Dev nD) (hy : ∀ i : SY.Idx, m ((c.tc : Thread nD τ).loc main_arg1) i = (0 : EReal) ∨ m ((c.tc : Thread nD τ).loc main_arg1) i = (1 : EReal)) :
    (Gen.V5 m (outs m) c main_v10 : S_.Idx → EReal)
      = Cert.ReferenceIdeal.Read.val_main_v23 (F := Ideal) (m ((c.tc : Thread nD τ).loc main_arg0)) (m ((c.tc : Thread nD τ).loc main_arg1)) := by
  rw [V5_result]
  -- the two columns after the regions
  have h4 : Gen.V4 m (outs m) c main_v4 = outs m 4 main_v4 c := Function.update_self ..
  have h31 : Gen.V4 m (outs m) c main_v3_1 = outs m 3 main_v3_1 c :=
    (Gen.V4_of m (outs m) c main_v3_1 (by decide)).trans (Function.update_self ..)
  -- what region 1 is entered with
  have hx3 : Gen.V3 m (outs m) c main_v2 = Gen.V2 m c main_v2 := Gen.V3_of m (outs m) c main_v2 (by decide)
  have hy3 : Gen.V3 m (outs m) c main_arg1 = Gen.V2 m c main_arg1 := Gen.V3_of m (outs m) c main_arg1 (by decide)
  have hn3 : Gen.V3 m (outs m) c main_v3_0 = outs m 3 main_v3_0 c :=
    (Function.update_of_ne (by decide) ..).trans (Function.update_self ..)
  refine tailK_eq _ _ _ _ ?_ ?_
  · funext i
    obtain ⟨r, rfl⟩ : ∃ r : Fin 8192, i = ix1 r := ⟨i 0, eq_ix1 i⟩
    rw [col_flat_apply, Cert.Contrastive.Ref.rowQuot_read, h4, outs_v4, r1_row]
    simp only [hx3, hy3, hn3, outs_v3_0, r0_neg, Ve0, V2_features, V2_labels, xnormK_eq]
    exact congrFun (rowDiff_eq_rowQuot _ _ hy) r
  · funext i
    obtain ⟨r, rfl⟩ : ∃ r : Fin 8192, i = ix1 r := ⟨i 0, eq_ix1 i⟩
    rw [col_flat_apply, Cert.Contrastive.Ref.posCount_read, h31, outs_v3_1, r0_cnt]
    exact congrArg (fun y => posCount y r) (V2_labels m c)

end Cert.KernelIdeal.HandValue

end
-- ==== Proof.PreFacts.lean ====
/-
  What the precondition says of the labels: its third conjunct is the conjunction, over every
  entry of y, of (y = 0) or (y = 1), so where the precondition holds every label is 0 or 1.
-/
import proofs.«143064_j21449066676923_1_alg».proof.Pre_finite_inputs
import proofs.«143064_j21449066676923_1_alg».proof.Proof.Gen.Pre_finite_inputs
import Idealize.ShloMosaic.Lib.ReduceAll
import Idealize.ShloMosaic.Lib.ValueIdx
import Idealize.ShloMosaic.PureOps.Ideal.Laws

noncomputable section

namespace Cert.Contrastive.Pre

open Idealize.ShloMosaic Idealize.ShloMosaic.ValueIdx

/-- The scalar shape has one index. -/
instance : Subsingleton Cert.Pre_finite_inputs.S_.Idx := ⟨fun a b => funext fun d => d.elim0⟩

/-- The f32 one is the extended real 1. -/
theorem ofBits_one_f32 : Ideal.ofBits .f32 0x3F800000#32 = 1 := by
  simp [Ideal.ofBits, Ideal.ieee, -EReal.coe_mul]; norm_num

/-- An equality comparison on the extended reals that answers 1 is an equality. -/
theorem cmp_oeq_eq_one {a b : EReal} (h : Ideal.cmp .oeq a b = 1#1) : a = b := by
  unfold Ideal.cmp at h
  by_contra hne
  simp [hne] at h

/-- Where the precondition holds every label is 0 or 1. -/
theorem labels_binary [Cert.Pre_finite_inputs.Facts] (x : FVec Ideal Cert.Pre_finite_inputs.S8192x128 .f32)
    (y : FVec Ideal Cert.Pre_finite_inputs.S8192x8192 .f32)
    (h : Cert.Pre_finite_inputs.fn (F := Ideal) x y = fun _ => 1#1) : ∀ i, y i = 0 ∨ y i = 1 := by
  intro i
  have h0 := congrFun h ValueIdx.ix0
  dsimp only [Cert.Pre_finite_inputs.fn] at h0
  have h14 := (IntOp.andi_eq_one.1 h0).2
  have hi := Host.reduce_andi_all _ _ _ _ _ h14 i
  rcases IntOp.ori_eq_one.1 hi with h1 | h1
  · left
    have := cmp_oeq_eq_one h1
    rw [this]
    exact Ideal.ofBits_zero_f32
  · right
    have := cmp_oeq_eq_one h1
    rw [this]
    exact ofBits_one_f32

end Cert.Contrastive.Pre

end
-- ==== Proof.lean ====
/-
  A contrastive loss computed by two tiled kernels against its plain reference.

  With xn the features divided row by row by the row's Euclidean norm, c(r,q) = exp ((Σ_k xn(r,k)·xn(q,k)) / τ)
  the similarity, neg(r) = Σ_q c(r,q)·(1 − y(r,q)) the negatives' mass and cnt(r) = Σ_q y(r,q) the positives'
  count, the reference returns −mean_r (Σ_q log (c / (c + neg r))·y) / cnt r. The kernel forms the normalised
  features on the host, then runs two kernels over an 8 × 8 grid of (row block, column tile) of 1024 × 1024 entries:
  the first accumulates neg and cnt over the column tiles of a row block in two scratch columns (zeroed at the first
  tile, copied out at the last), the second accumulates Σ_q (log c − log (c + neg r))·y the same way, recomputing c;
  the host then divides, averages and negates as the reference does.

  On the extended reals a sum may be taken tile by tile, so the accumulated columns are the whole row sums. The two
  forms of the log-ratio differ only where c + neg < 0 (there log c − log (c + neg) is +∞ while log of the negative
  quotient is −∞); for labels in {0,1} every term of neg is ≥ 0, c lies in [0, +∞], and the two forms agree term by
  term — also at c = 0, at c = +∞ and at neg = +∞. Nothing else is used of the precondition: the features may be
  any extended reals, since both programs normalise them by the same host operations.

  The frames: every weakly fair execution of each program terminates, faults nowhere and leaves the two argument
  arrays as launched; for the two kernel programs through each region's proof data (what the accumulators and the
  output buffers hold after every grid point) and body obligation, for the reference from its run.
-/
import proofs.«143064_j21449066676923_1_alg».proof.Defs
import proofs.«143064_j21449066676923_1_alg».proof.Proof.Gen.Kernel
import proofs.«143064_j21449066676923_1_alg».proof.Proof.Gen.KernelIdeal
import proofs.«143064_j21449066676923_1_alg».proof.Proof.Gen.ReferenceIdeal
import proofs.«143064_j21449066676923_1_alg».proof.Proof.Gen.Pre_finite_inputs
import proofs.«143064_j21449066676923_1_alg».proof.Proof.Gen.ReferenceIdeal.Run
import proofs.«143064_j21449066676923_1_alg».proof.Proof.KB.Regions
import proofs.«143064_j21449066676923_1_alg».proof.Proof.KI.Bridge
import proofs.«143064_j21449066676923_1_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On labels in {0,1} both idealized programs end with the same loss: the kernel's result buffer holds the
    reference's result term of the same arguments. -/
theorem algebraic : Cert.algebraic_KernelIdeal_ReferenceIdeal := by
  intro m ρ m' ρ' hpre hagree
  refine ⟨fun c => Cert.ReferenceIdeal.Read.val_main_v23 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Hand.run_value (F := Ideal) m ρ)
    exact Cert.KernelIdeal.HandValue.result_eq m c (Cert.Contrastive.Pre.labels_binary _ _ (hpre c))
  · refine (θ_run Cert.ReferenceIdeal.defs _ _).mono (fun r h c => ⟨?_, (h c).2⟩)
      (Cert.ReferenceIdeal.Value.run (F := Ideal) m' ρ')
    rw [(h c).1, Cert.ReferenceIdeal.Read.val_main_v23_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
